-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v166) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S6x128x128 : Shape := ⟨3, ![6, 128, 128]⟩
abbrev S6x128 : Shape := ⟨2, ![6, 128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S6x128x128 : S_.BroadcastsInDim S6x128x128 (![] : Fin 0 → Fin S6x128x128.rank)
  reducesTo_S6x128x128_S_d0_1_2 : S6x128x128.ReducesTo [0, 1, 2] S_
  bcast_S_S6x128 : S_.BroadcastsInDim S6x128 (![] : Fin 0 → Fin S6x128.rank)
  reducesTo_S6x128_S_d0_1 : S6x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S128x1 .f32) (main_arg6 : FVec F S1 .f32) (main_v13 : IVec S_ 1) (main_v16 : IVec S6x128 1) : IVec S_ 1 :=
  let main_c_5 : IVec S_ 1 := constantI S_ 1 1#1
  let main_v17 : IVec S_ 1 := (fun x v => Host.reduce IntOp.andi x v reducesTo_S6x128_S_d0_1 h_S_) main_v16 main_c_5
  let main_v18 : IVec S_ 1 := andi main_v13 main_v17
  let main_v19 : FVec F S128x1 .f32 := Host.absf main_arg5
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S6x128x128 .f32) (main_arg3 : FVec F S6x128x128 .f32) (main_arg4 : FVec F S6x128 .f32) (main_arg5 : FVec F S128x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S6x128x128 .f32 := Host.absf main_arg2
  let main_cst_0 : FVec F S_ .f32 := constant S_ .f32 0x7F800000#32
  let main_v5 : FVec F S6x128x128 .f32 := broadcastInDim S6x128x128 ![] bcast_S_S6x128x128 main_cst_0
  let main_v6 : IVec S6x128x128 1 := cmpf .olt main_v4 main_v5
  let main_c_1 : IVec S_ 1 := constantI S_ 1 1#1
  let main_v7 : IVec S_ 1 := (fun x v => Host.reduce IntOp.andi x v reducesTo_S6x128x128_S_d0_1_2 h_S_) main_v6 main_c_1
  let main_v8 : IVec S_ 1 := andi main_v3 main_v7
  let main_v9 : FVec F S6x128x128 .f32 := Host.absf main_arg3
  let main_cst_2 : FVec F S_ .f32 := constant S_ .f32 0x7F800000#32
  let main_v10 : FVec F S6x128x128 .f32 := broadcastInDim S6x128x128 ![] bcast_S_S6x128x128 main_cst_2
  let main_v11 : IVec S6x128x128 1 := cmpf .olt main_v9 main_v10
  let main_c_3 : IVec S_ 1 := constantI S_ 1 1#1
  let main_v12 : IVec S_ 1 := (fun x v => Host.reduce IntOp.andi x v reducesTo_S6x128x128_S_d0_1_2 h_S_) main_v11 main_c_3
  let main_v13 : IVec S_ 1 := andi main_v8 main_v12
  let main_v14 : FVec F S6x128 .f32 := Host.absf main_arg4
  let main_cst_4 : FVec F S_ .f32 := constant S_ .f32 0x7F800000#32
  let main_v15 : FVec F S6x128 .f32 := broadcastInDim S6x128 ![] bcast_S_S6x128 main_cst_4
  let main_v16 : IVec S6x128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S6x128x128 : Shape := ⟨3, ![6, 128, 128]⟩
abbrev S6x128 : Shape := ⟨2, ![6, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S1x1 : Shape := ⟨2, ![1, 1]⟩
abbrev S5000x1 : Shape := ⟨2, ![5000, 1]⟩

abbrev nBuf : Space → Nat
  | .hbm => 164
  | .vmem => 60
  | .smem => 0
  | _ => 0

abbrev hbmTy0_0 (i : Nat) : BufTy := match i % 128 with
  | 0 => ⟨S100000x128, .f32⟩
  | 1 => ⟨S2x1600000, .i32⟩
  | 2 => ⟨S6x128x128, .f32⟩
  | 3 => ⟨S6x128x128, .f32⟩
  | 4 => ⟨S6x128, .f32⟩
  | 5 => ⟨S128x1, .f32⟩
  | 6 => ⟨S1, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S_, .f32⟩
  | 34 => ⟨S100000x128, .f32⟩
  | 35 => ⟨S1600000x1, .i32⟩
  | 36 => ⟨S100000x128, .f32⟩
  | 37 => ⟨S100000x128, .f32⟩
  | 38 => ⟨S100000x128, .f32⟩
  | 39 => ⟨S1x128x128, .f32⟩
  | 40 => ⟨S128x128, .f32⟩
  | 41 => ⟨S1x128x128, .f32⟩
  | 42 => ⟨S128x128, .f32⟩
  | 43 => ⟨S1x128, .f32⟩
  | 44 => ⟨S128, .f32⟩
  | 45 => ⟨S1x128, .f32⟩
  | 46 => ⟨S100000x128, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000x128, .f32⟩
  | 61 => ⟨S100000x128, .f32⟩
  | 62 => ⟨S1x128x128, .f32⟩
  | 63 => ⟨S128x128, .f32⟩
  | 64 => ⟨S1x128x128, .f32⟩
  | 65 => ⟨S128x128, .f32⟩
  | 66 => ⟨S1x128, .f32⟩
  | 67 => ⟨S128, .f32⟩
  | 68 => ⟨S1x128, .f32⟩
  | 69 => ⟨S100000x128, .f32⟩
  | 70 => ⟨S_, .i32⟩
  | 71 => ⟨S1600000, .i32⟩
  | 72 => ⟨S1600000, .i1⟩
  | 73 => ⟨S_, .i32⟩
  | 74 => ⟨S1600000, .i32⟩
  | 75 => ⟨S1600000, .i32⟩
  | 76 => ⟨S1600000, .i32⟩
  | 77 => ⟨S1600000x1, .i32⟩
  | 78 => ⟨S1600000x128, .f32⟩
  | 79 => ⟨S_, .f32⟩
  | 80 => ⟨S100000x128, .f32⟩
  | 81 => ⟨S1600000x1, .i32⟩
  | 82 => ⟨S100000x128, .f32⟩
  | 83 => ⟨S100000x128, .f32⟩
  | 84 => ⟨S100000x128, .f32⟩
  | 85 => ⟨S1x128x128, .f32⟩
  | 86 => ⟨S128x128, .f32⟩
  | 87 => ⟨S1x128x128, .f32⟩
  | 88 => ⟨S128x128, .f32⟩
  | 89 => ⟨S1x128, .f32⟩
  | 90 => ⟨S128, .f32⟩
  | 91 => ⟨S1x128, .f32⟩
  | 92 => ⟨S100000x128, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x128, .f32⟩
  | 102 => ⟨S_, .f32⟩
  | 103 => ⟨S100000x128, .f32⟩
  | 104 => ⟨S1600000x1, .i32⟩
  | 105 => ⟨S100000x128, .f32⟩
  | 106 => ⟨S100000x128, .f32⟩
  | 107 => ⟨S100000x128, .f32⟩
  | 108 => ⟨S1x128x128, .f32⟩
  | 109 => ⟨S128x128, .f32⟩
  | 110 => ⟨S1x128x128, .f32⟩
  | 111 => ⟨S128x128, .f32⟩
  | 112 => ⟨S1x128, .f32⟩
  | 113 => ⟨S128, .f32⟩
  | 114 => ⟨S1x128, .f32⟩
  | 115 => ⟨S100000x128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S_, .f32⟩
  | 126 => ⟨S100000x128, .f32⟩
  | 127 => ⟨S1600000x1, .i32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S1x128x128, .f32⟩
  | 4 => ⟨S128x128, .f32⟩
  | 5 => ⟨S1x128x128, .f32⟩
  | 6 => ⟨S128x128, .f32⟩
  | 7 => ⟨S1x128, .f32⟩
  | 8 => ⟨S128, .f32⟩
  | 9 => ⟨S1x128, .f32⟩
  | 10 => ⟨S100000x128, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x128, .f32⟩
  | 20 => ⟨S_, .f32⟩
  | 21 => ⟨S100000x128, .f32⟩
  | 22 => ⟨S1600000x1, .i32⟩
  | 23 => ⟨S100000x128, .f32⟩
  | 24 => ⟨S100000x128, .f32⟩
  | 25 => ⟨S100000x128, .f32⟩
  | 26 => ⟨S1x128x128, .f32⟩
  | 27 => ⟨S128x128, .f32⟩
  | 28 => ⟨S1x128x128, .f32⟩
  | 29 => ⟨S128x128, .f32⟩
  | 30 => ⟨S1x128, .f32⟩
  | 31 => ⟨S128, .f32⟩
  | 32 => ⟨S1x128, .f32⟩
  | 33 => ⟨S100000x128, .f32⟩
  | 34 => ⟨S1x1, .f32⟩
  | 35 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S128x128, .f32⟩
  | .local _ .vmem, ⟨50, _⟩ => ⟨S128x128, .f32⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S128x1, .f32⟩
  | .local _ .vmem, ⟨57, _⟩ => ⟨S1x1, .f32⟩
  | .local _ .vmem, ⟨58, _⟩ => ⟨S5000x1, .f32⟩
  | .local _ .vmem, ⟨59, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_c_8 : Ref sig .tc := ⟨.hbm, 70, rfl⟩
abbrev main_v53 : Ref sig .tc := ⟨.hbm, 71, rfl⟩
abbrev main_v54 : Ref sig .tc := ⟨.hbm, 72, rfl⟩
abbrev main_c_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_11 : Ref sig .tc := ⟨.hbm, 93, rfl⟩
abbrev main_v73 : Ref sig .tc := ⟨.hbm, 94, rfl⟩
abbrev main_v74 : Ref sig .tc := ⟨.hbm, 95, rfl⟩
abbrev main_c_12 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_13 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_c_14 : Ref sig .tc := ⟨.hbm, 116, rfl⟩
abbrev main_v93 : Ref sig .tc := ⟨.hbm, 117, rfl⟩
abbrev main_v94 : Ref sig .tc := ⟨.hbm, 118, rfl⟩
abbrev main_c_15 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_cst_16 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_c_17 : Ref sig .tc := ⟨.hbm, 139, rfl⟩
abbrev main_v113 : Ref sig .tc := ⟨.hbm, 140, rfl⟩
abbrev main_v114 : Ref sig .tc := ⟨.hbm, 141, rfl⟩
abbrev main_c_18 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_19 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x1.size a ≤ S128x1.size a
  hwx6_1 : ∀ i : grid6.Coords, EltTy.bits .f32 = 32 ∨ (Rect.block (s := S128x1) S128x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S100000x1.size a
  hwx6_3 : ∀ i : grid6.Coords, EltTy.bits .f32 = 32 ∨ (Rect.block (s := S100000x1) S5000x1.size (cc6_transform_3 i) (hinb6_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v64) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v84) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v86) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v88) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v92) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v104) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v92) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v106) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v108) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v111) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v112) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v124) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v112) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v126) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v128) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v131) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v132) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v132) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg5) S128x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v133) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v134) S5000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S6x128x128 : Shape := ⟨3, ![6, 128, 128]⟩
abbrev S6x128 : Shape := ⟨2, ![6, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S1600000x128 : Shape := ⟨2, ![1600000, 128]⟩
abbrev S1x1 : Shape := ⟨2, ![1, 1]⟩

abbrev nBuf : Space → Nat
  | .hbm => 208
  | .vmem => 0
  | .smem => 0
  | _ => 0

abbrev hbmTy0_0 (i : Nat) : BufTy := match i % 128 with
  | 0 => ⟨S100000x128, .f32⟩
  | 1 => ⟨S2x1600000, .i32⟩
  | 2 => ⟨S6x128x128, .f32⟩
  | 3 => ⟨S6x128x128, .f32⟩
  | 4 => ⟨S6x128, .f32⟩
  | 5 => ⟨S128x1, .f32⟩
  | 6 => ⟨S1, .f32⟩
  | 7 => ⟨S1x1600000, .i32⟩
  | 8 => ⟨S1600000, .i32⟩
  | 9 => ⟨S1x1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000x1, .f32⟩
  | 24 => ⟨S1x128x128, .f32⟩
  | 25 => ⟨S128x128, .f32⟩
  | 26 => ⟨S1x128x128, .f32⟩
  | 27 => ⟨S128x128, .f32⟩
  | 28 => ⟨S1x128, .f32⟩
  | 29 => ⟨S128, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x128, .f32⟩
  | 39 => ⟨S_, .f32⟩
  | 40 => ⟨S100000x128, .f32⟩
  | 41 => ⟨S1600000x1, .i32⟩
  | 42 => ⟨S100000x128, .f32⟩
  | 43 => ⟨S100000x128, .f32⟩
  | 44 => ⟨S100000x128, .f32⟩
  | 45 => ⟨S100000x128, .f32⟩
  | 46 => ⟨S100000x128, .f32⟩
  | 47 => ⟨S100000x128, .f32⟩
  | 48 => ⟨S1x128, .f32⟩
  | 49 => ⟨S100000x128, .f32⟩
  | 50 => ⟨S100000x128, .f32⟩
  | 51 => ⟨S_, .f32⟩
  | 52 => ⟨S100000x128, .f32⟩
  | 53 => ⟨S100000x128, .f32⟩
  | 54 => ⟨S1x128x128, .f32⟩
  | 55 => ⟨S128x128, .f32⟩
  | 56 => ⟨S1x128x128, .f32⟩
  | 57 => ⟨S128x128, .f32⟩
  | 58 => ⟨S1x128, .f32⟩
  | 59 => ⟨S128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S100000x128, .f32⟩
  | 74 => ⟨S100000x128, .f32⟩
  | 75 => ⟨S100000x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S1x128x128, .f32⟩
  | 85 => ⟨S128x128, .f32⟩
  | 86 => ⟨S1x128x128, .f32⟩
  | 87 => ⟨S128x128, .f32⟩
  | 88 => ⟨S1x128, .f32⟩
  | 89 => ⟨S128, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x128, .f32⟩
  | 99 => ⟨S_, .f32⟩
  | 100 => ⟨S100000x128, .f32⟩
  | 101 => ⟨S1600000x1, .i32⟩
  | 102 => ⟨S100000x128, .f32⟩
  | 103 => ⟨S100000x128, .f32⟩
  | 104 => ⟨S100000x128, .f32⟩
  | 105 => ⟨S100000x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S1x128x128, .f32⟩
  | 115 => ⟨S128x128, .f32⟩
  | 116 => ⟨S1x128x128, .f32⟩
  | 117 => ⟨S128x128, .f32⟩
  | 118 => ⟨S1x128, .f32⟩
  | 119 => ⟨S128, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x128, .f32⟩
  | 1 => ⟨S_, .f32⟩
  | 2 => ⟨S100000x128, .f32⟩
  | 3 => ⟨S1600000x1, .i32⟩
  | 4 => ⟨S100000x128, .f32⟩
  | 5 => ⟨S100000x128, .f32⟩
  | 6 => ⟨S100000x128, .f32⟩
  | 7 => ⟨S100000x128, .f32⟩
  | 8 => ⟨S100000x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S1x128x128, .f32⟩
  | 17 => ⟨S128x128, .f32⟩
  | 18 => ⟨S1x128x128, .f32⟩
  | 19 => ⟨S128x128, .f32⟩
  | 20 => ⟨S1x128, .f32⟩
  | 21 => ⟨S128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S100000x128, .f32⟩
  | 33 => ⟨S1600000x1, .i32⟩
  | 34 => ⟨S100000x128, .f32⟩
  | 35 => ⟨S100000x128, .f32⟩
  | 36 => ⟨S100000x128, .f32⟩
  | 37 => ⟨S100000x128, .f32⟩
  | 38 => ⟨S100000x128, .f32⟩
  | 39 => ⟨S100000x128, .f32⟩
  | 40 => ⟨S1x128, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S1x128x128, .f32⟩
  | 47 => ⟨S128x128, .f32⟩
  | 48 => ⟨S1x128x128, .f32⟩
  | 49 => ⟨S128x128, .f32⟩
  | 50 => ⟨S1x128, .f32⟩
  | 51 => ⟨S128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S_, .f32⟩
  | 62 => ⟨S100000x128, .f32⟩
  | 63 => ⟨S1600000x1, .i32⟩
  | 64 => ⟨S100000x128, .f32⟩
  | 65 => ⟨S100000x128, .f32⟩
  | 66 => ⟨S100000x128, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x1, .f32⟩
  | 77 => ⟨S1x1, .f32⟩
  | 78 => ⟨S100000x1, .f32⟩
  | 79 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_cst : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_c_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_7 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call1_cst : Ref sig .tc := ⟨.hbm, 81, rfl⟩
abbrev main_call1_v0 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_8 : Ref sig .tc := ⟨.hbm, 90, rfl⟩
abbrev main_v69 : Ref sig .tc := ⟨.hbm, 91, rfl⟩
abbrev main_v70 : Ref sig .tc := ⟨.hbm, 92, rfl⟩
abbrev main_c_9 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_10 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_call2_cst : Ref sig .tc := ⟨.hbm, 111, rfl⟩
abbrev main_call2_v0 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_c_11 : Ref sig .tc := ⟨.hbm, 120, rfl⟩
abbrev main_v94 : Ref sig .tc := ⟨.hbm, 121, rfl⟩
abbrev main_v95 : Ref sig .tc := ⟨.hbm, 122, rfl⟩
abbrev main_c_12 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_cst_13 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_call3_cst : Ref sig .tc := ⟨.hbm, 141, rfl⟩
abbrev main_call3_v0 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_c_14 : Ref sig .tc := ⟨.hbm, 150, rfl⟩
abbrev main_v119 : Ref sig .tc := ⟨.hbm, 151, rfl⟩
abbrev main_v120 : Ref sig .tc := ⟨.hbm, 152, rfl⟩
abbrev main_c_15 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_cst_16 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_call4_cst : Ref sig .tc := ⟨.hbm, 171, rfl⟩
abbrev main_call4_v0 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_c_17 : Ref sig .tc := ⟨.hbm, 180, rfl⟩
abbrev main_v144 : Ref sig .tc := ⟨.hbm, 181, rfl⟩
abbrev main_v145 : Ref sig .tc := ⟨.hbm, 182, rfl⟩
abbrev main_c_18 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_19 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_call5_cst : Ref sig .tc := ⟨.hbm, 201, rfl⟩
abbrev main_call5_v0 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  slices_S6x128x128_S1x128x128_0_0_0 : S6x128x128.Slices ![0, 0, 0] S1x128x128
  shapeCasts_S1x128x128_S128x128 : S1x128x128.ShapeCasts S128x128
  slices_S6x128_S1x128_0_0 : S6x128.Slices ![0, 0] S1x128
  shapeCasts_S1x128_S128 : S1x128.ShapeCasts S128
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S6x128x128_S1x128x128_1_0_0 : S6x128x128.Slices ![1, 0, 0] S1x128x128
  slices_S6x128_S1x128_1_0 : S6x128.Slices ![1, 0] S1x128
  slices_S6x128x128_S1x128x128_2_0_0 : S6x128x128.Slices ![2, 0, 0] S1x128x128
  slices_S6x128_S1x128_2_0 : S6x128.Slices ![2, 0] S1x128
  slices_S6x128x128_S1x128x128_3_0_0 : S6x128x128.Slices ![3, 0, 0] S1x128x128
  slices_S6x128_S1x128_3_0 : S6x128.Slices ![3, 0] S1x128
  slices_S6x128x128_S1x128x128_4_0_0 : S6x128x128.Slices ![4, 0, 0] S1x128x128
  slices_S6x128_S1x128_4_0 : S6x128.Slices ![4, 0] S1x128
  slices_S6x128x128_S1x128x128_5_0_0 : S6x128x128.Slices ![5, 0, 0] S1x128x128
  slices_S6x128_S1x128_5_0 : S6x128.Slices ![5, 0] S1x128
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.SageSpec.lean ====
/-
  One SAGE layer and the final projection as functions on the extended reals.

  A layer takes the aggregated neighbour means `mean` and the node features `x` (both R × 128), two 128 × 128 weight
  matrices and a bias row, and gives at node r and channel c
      max ( (Σₖ mean(r,k)·Wl(k,c) + Σₖ x(r,k)·Wr(k,c)) + b(c) , 0 ).
  The projection gives Σₖ x(r,k)·w(k,c) + b at its single channel.  An entry reads its operands only through row r:
  a tile holding rows of the whole array computes the whole array's entries (`convAt_congr`, `projAt_congr`), with
  no condition on the values, since the two sides are the same sums term by term.
-/
import Idealize.ShloMosaic.PureOps.Ideal.Laws
import Idealize.ShloMosaic.Lib.ValueIdx
import Idealize.ShloMosaic.Lib.ValueLayout
import Idealize.ShloMosaic.Lib.Pipeline.Value

noncomputable section

namespace Cert.Sage

open Idealize.ShloMosaic Idealize.ShloMosaic.ValueIdx

/-- Node features, all 100000 nodes. -/
abbrev NF : Shape := ⟨2, ![100000, 128]⟩
/-- A weight matrix. -/
abbrev WW : Shape := ⟨2, ![128, 128]⟩
/-- A bias row. -/
abbrev BR : Shape := ⟨2, ![1, 128]⟩
/-- The projection's weight column and bias. -/
abbrev WO : Shape := ⟨2, ![128, 1]⟩
abbrev BO : Shape := ⟨2, ![1, 1]⟩
/-- The scores, one per node. -/
abbrev NO : Shape := ⟨2, ![100000, 1]⟩

/-- One entry of a layer over R rows. -/
def convAt {R : Nat} (mean x : (⟨2, ![R, 128]⟩ : Shape).Idx → EReal) (wl wr : WW.Idx → EReal) (b : BR.Idx → EReal)
    (r : Fin R) (c : Fin 128) : EReal :=
  max (((∑ k : Fin 128, mean (ix2 r k) * wl (ix2 k c)) + ∑ k : Fin 128, x (ix2 r k) * wr (ix2 k c)) + b (ix2 (0 : Fin 1) c))
    (Ideal.ofBits .f32 0x00000000#32)

/-- One entry of the projection over R rows. -/
def projAt {R : Nat} (x : (⟨2, ![R, 128]⟩ : Shape).Idx → EReal) (w : WO.Idx → EReal) (b : BO.Idx → EReal)
    (r : Fin R) (c : Fin 1) : EReal :=
  (∑ k : Fin 128, x (ix2 r k) * w (ix2 k c)) + b (ix2 (0 : Fin 1) c)

/-- A layer on all nodes. -/
def conv (mean x : NF.Idx → EReal) (wl wr : WW.Idx → EReal) (b : BR.Idx → EReal) : NF.Idx → EReal :=
  fun i => convAt mean x wl wr b (i 0) (i 1)

/-- The projection on all nodes. -/
def proj (x : NF.Idx → EReal) (w : WO.Idx → EReal) (b : BO.Idx → EReal) : NO.Idx → EReal :=
  fun i => projAt x w b (i 0) (i 1)

theorem conv_ix2 (mean x : NF.Idx → EReal) (wl wr : WW.Idx → EReal) (b : BR.Idx → EReal) (r : Fin 100000) (c : Fin 128) :
    conv mean x wl wr b (ix2 r c) = convAt mean x wl wr b r c := rfl

theorem proj_ix2 (x : NF.Idx → EReal) (w : WO.Idx → EReal) (b : BO.Idx → EReal) (r : Fin 100000) (c : Fin 1) :
    proj x w b (ix2 r c) = projAt x w b r c := rfl

/-- An entry of a layer depends on `mean` and `x` only through its own row: two pairs of arrays, of any heights,
    that agree on row p of the one and row r of the other give the same entry. -/
theorem convAt_congr {R R' : Nat} (mean x : (⟨2, ![R, 128]⟩ : Shape).Idx → EReal)
    (mean' x' : (⟨2, ![R', 128]⟩ : Shape).Idx → EReal) (wl wr : WW.Idx → EReal) (b : BR.Idx → EReal)
    (p : Fin R) (r : Fin R') (c : Fin 128)
    (hm : ∀ k : Fin 128, mean (ix2 p k) = mean' (ix2 r k)) (hx : ∀ k : Fin 128, x (ix2 p k) = x' (ix2 r k)) :
    convAt mean x wl wr b p c = convAt mean' x' wl wr b r c := by
  unfold convAt
  have e1 : (∑ k : Fin 128, mean (ix2 p k) * wl (ix2 k c)) = ∑ k : Fin 128, mean' (ix2 r k) * wl (ix2 k c) :=
    Finset.sum_congr rfl fun k _ => by rw [hm k]
  have e2 : (∑ k : Fin 128, x (ix2 p k) * wr (ix2 k c)) = ∑ k : Fin 128, x' (ix2 r k) * wr (ix2 k c) :=
    Finset.sum_congr rfl fun k _ => by rw [hx k]
  rw [e1, e2]

/-- The same for the projection. -/
theorem projAt_congr {R R' : Nat} (x : (⟨2, ![R, 128]⟩ : Shape).Idx → EReal) (x' : (⟨2, ![R', 128]⟩ : Shape).Idx → EReal)
    (w : WO.Idx → EReal) (b : BO.Idx → EReal) (p : Fin R) (r : Fin R') (c : Fin 1)
    (hx : ∀ k : Fin 128, x (ix2 p k) = x' (ix2 r k)) :
    projAt x w b p c = projAt x' w b r c := by
  unfold projAt
  have e1 : (∑ k : Fin 128, x (ix2 p k) * w (ix2 k c)) = ∑ k : Fin 128, x' (ix2 r k) * w (ix2 k c) :=
    Finset.sum_congr rfl fun k _ => by rw [hx k]
  rw [e1]

end Cert.Sage

end
-- ==== Proof.Chain.lean ====
/-
  The whole network as one function of the seven arguments.

  Both programs do the same thing between two layers: they look up each edge's source row in the current features
  (negative ids counted from the end), add the rows up at the edges' destinations, and scale each node's sum by its
  inverse degree.  That step is carried here as ONE function `meanOf` of the features, the source ids, the destination
  ids and the inverse degrees, and is never opened: the two programs are compared by feeding it equal arguments.
  A layer is then `conv` of that mean and the features with the layer's slices of the weight arrays, six times over,
  and the result is `proj` of the last features with the projection's weights.
-/
import proofs.«101873_j60043642798825_1_alg».proof.Proof.Gen.ReferenceIdeal.Read
import proofs.«101873_j60043642798825_1_alg».proof.Proof.SageSpec

noncomputable section

namespace Cert.Sage

open Cert.ReferenceIdeal Cert.ReferenceIdeal.Gen Cert.ReferenceIdeal.Read Idealize.ShloMosaic Idealize.ShloMosaic.TcCoe Idealize.ShloMosaic.StableHlo

/-- Node features. -/
abbrev Feat := FVec Ideal S100000x128 .f32
/-- The edge list as given: a row of source ids over a row of destination ids. -/
abbrev Edges := (⟨S2x1600000, .i32⟩ : BufTy).Contents (Elt Ideal)
/-- One id per edge. -/
abbrev Ids := IVec S1600000 32
/-- One inverse degree per node. -/
abbrev InvDeg := FVec Ideal S100000x1 .f32

/-- The aggregation step: gather the source rows of `y`, add them up at the destinations, scale by the inverse
    degrees. -/
def meanOf (y : Feat) (src dst : Ids) (dinv : InvDeg) : Feat :=
  mulf (F := Ideal)
    (Host.scatterAdd (F := Ideal) scatter_S100000x128_S1600000x1_S1600000x128_1_0_0_1 (val_main_v26 (F := Ideal))
      (broadcastInDim S1600000x1 ![0] bcast_S1600000_S1600000x1_0 dst)
      (Host.gather gather_S100000x128_S1600000x1_S1600000x128_1_0_n_n_0_1_1128 y
        (broadcastInDim S1600000x1 ![0] bcast_S1600000_S1600000x1_0
          (select (cmpi .slt src (val_main_v19 (F := Ideal))) (addi src (val_main_v21 (F := Ideal))) src))))
    (broadcastInDim S100000x128 ![0, 1] bcast_S100000x1_S100000x128_0_1 dinv)

/-- One layer from the current features `y`: the mean of the neighbours' rows, then `conv`. -/
def layerOf (y : Feat) (e : Edges) (wl wr : (⟨S128x128, .f32⟩ : BufTy).Contents (Elt Ideal))
    (b : (⟨S1x128, .f32⟩ : BufTy).Contents (Elt Ideal)) : Feat :=
  conv (meanOf y (val_main_v1 (F := Ideal) e) (val_main_v3 (F := Ideal) e) (val_main_v12 (F := Ideal) e)) y wl wr b

section
variable (a0 : Feat) (e : Edges) (a2 a3 : (⟨S6x128x128, .f32⟩ : BufTy).Contents (Elt Ideal))
  (a4 : (⟨S6x128, .f32⟩ : BufTy).Contents (Elt Ideal)) (a5 : (⟨S128x1, .f32⟩ : BufTy).Contents (Elt Ideal))
  (a6 : (⟨S1, .f32⟩ : BufTy).Contents (Elt Ideal))

/-- The features after each of the six layers. -/
def X1 : Feat := layerOf a0 e (val_main_v14 (F := Ideal) a2) (val_main_v16 (F := Ideal) a3) (val_main_v34 (F := Ideal) a4)
def X2 : Feat := layerOf (X1 a0 e a2 a3 a4) e (val_main_v39 (F := Ideal) a2) (val_main_v41 (F := Ideal) a3) (val_main_v59 (F := Ideal) a4)
def X3 : Feat := layerOf (X2 a0 e a2 a3 a4) e (val_main_v64 (F := Ideal) a2) (val_main_v66 (F := Ideal) a3) (val_main_v84 (F := Ideal) a4)
def X4 : Feat := layerOf (X3 a0 e a2 a3 a4) e (val_main_v89 (F := Ideal) a2) (val_main_v91 (F := Ideal) a3) (val_main_v109 (F := Ideal) a4)
def X5 : Feat := layerOf (X4 a0 e a2 a3 a4) e (val_main_v114 (F := Ideal) a2) (val_main_v116 (F := Ideal) a3) (val_main_v134 (F := Ideal) a4)
def X6 : Feat := layerOf (X5 a0 e a2 a3 a4) e (val_main_v139 (F := Ideal) a2) (val_main_v141 (F := Ideal) a3) (val_main_v159 (F := Ideal) a4)

/-- The scores. -/
def scores : (⟨S100000x1, .f32⟩ : BufTy).Contents (Elt Ideal) :=
  proj (X6 a0 e a2 a3 a4) a5 (val_main_v164 (F := Ideal) a6)

end

end Cert.Sage

end
-- ==== Proof.LibUnitAxes.lean ====
/-
  Unit axes.  A column [a, 1] or a row [1, b] spread over an [a, b] array reads, at (p, c), the column at (p, 0) or
  the row at (0, c) — for the vector broadcast and for the host's broadcast along the listed dimensions alike.  A
  scalar spread over any shape reads the scalar.  Casting an [a] array to [a, 1] or to [1, a] moves no element, so it
  is the host's broadcast of the [a] array along dimension 0 (or 1) of the result.
-/
import Idealize.ShloMosaic.Lib.Pipeline.Value
import Idealize.ShloMosaic.Lib.ValueIdx
import Idealize.ShloMosaic.Lib.ValueLayout

noncomputable section

namespace Cert.LibUnitAxes

open Idealize.ShloMosaic Idealize.ShloMosaic.ValueIdx

variable {α : Type}

/-- A column [a, 1] broadcast (as a vector) to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column [a, 1] along both dimensions of [a, b] reads, at (p, c), the column at (p, 0). -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row [1, b] along both dimensions of [a, b] reads, at (p, c), the row at (0, c). -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads the scalar at every index. -/
theorem broadcastInDim_scalar_apply {t : Shape} (v : (⟨0, ![]⟩ : Shape).Idx → α)
    (h : (⟨0, ![]⟩ : Shape).BroadcastsInDim t ![]) (j : t.Idx) :
    broadcastInDim t ![] h v j = v ix0 :=
  broadcastInDim_apply ![] h v j ix0 fun ax => ax.elim0

/-- Casting [a] to [a, 1] is the host's broadcast of the array along dimension 0. -/
theorem shapeCast_a_a1_eq_broadcastInDim {a : ℕ} (x : (⟨1, ![a]⟩ : Shape).Idx → α)
    (h : (⟨1, ![a]⟩ : Shape).ShapeCasts ⟨2, ![a, 1]⟩) (hb : (⟨1, ![a]⟩ : Shape).BroadcastsInDim ⟨2, ![a, 1]⟩ ![0]) :
    shapeCast ⟨2, ![a, 1]⟩ x h = broadcastInDim ⟨2, ![a, 1]⟩ ![0] hb x := by
  funext j
  obtain ⟨p, u, rfl⟩ : ∃ (p : Fin a) (u : Fin 1), j = ix2 p u := ⟨j 0, j 1, eq_ix2 j⟩
  have hu : u.val = 0 := by omega
  rw [shapeCast_apply x h (ix2 p u) (ix1 p) (by
        rw [Shape.rowMajor_val_two, Shape.rowMajor_val_one]
        show p.val = p.val * 1 + u.val
        omega),
      broadcastInDim_apply ![0] hb x (ix2 p u) (ix1 p) (fun ax => match ax with
        | ⟨0, _⟩ => by
          show p.val = if a = 1 then 0 else p.val
          split
          · have := p.isLt; omega
          · rfl)]

/-- Casting [a] to [1, a] is the host's broadcast of the array along dimension 1. -/
theorem shapeCast_a_1a_eq_broadcastInDim {a : ℕ} (x : (⟨1, ![a]⟩ : Shape).Idx → α)
    (h : (⟨1, ![a]⟩ : Shape).ShapeCasts ⟨2, ![1, a]⟩) (hb : (⟨1, ![a]⟩ : Shape).BroadcastsInDim ⟨2, ![1, a]⟩ ![1]) :
    shapeCast ⟨2, ![1, a]⟩ x h = broadcastInDim ⟨2, ![1, a]⟩ ![1] hb x := by
  funext j
  obtain ⟨u, p, rfl⟩ : ∃ (u : Fin 1) (p : Fin a), j = ix2 u p := ⟨j 0, j 1, eq_ix2 j⟩
  rw [shapeCast_a_1a_apply x h u p,
      broadcastInDim_apply ![1] hb x (ix2 u p) (ix1 p) (fun ax => match ax with
        | ⟨0, _⟩ => by
          show p.val = if a = 1 then 0 else p.val
          split
          · have := p.isLt; omega
          · rfl)]

end Cert.LibUnitAxes

end
-- ==== Proof.Stretch.lean ====
/-
  The host stretches of the kernel program, read on any buffer contents.

  Between two kernels the program runs a stretch of host operations.  Stretch 0 cuts the edge list into source and
  destination ids, counts each node's in-degree and inverts it, aggregates the argument features, and slices the
  first layer's weights; each later stretch aggregates the previous kernel's output and slices the next layer's
  weights; the last reshapes the projection's bias.  Each statement below says what ONE buffer holds after a stretch,
  as a function of what the buffers it reads held before — on arbitrary contents W, so that nothing about the run
  so far is looked at.  The aggregation is the shared step Cert.Sage.meanOf, the slices are the reference's own
  slice stages (the same operations), and a bias [128] reshaped to a row [1,128] is the broadcast of it along the row.
  The last group of statements lists the buffers a stretch leaves as they were.
-/
import proofs.«101873_j60043642798825_1_alg».proof.Proof.Gen.KernelIdeal.Launch
import proofs.«101873_j60043642798825_1_alg».proof.Proof.Chain
import proofs.«101873_j60043642798825_1_alg».proof.Proof.LibUnitAxes
import Idealize.ShloMosaic.Lib.StableHlo.Run

set_option maxRecDepth 16384

noncomputable section

namespace Cert.KernelIdeal.Stretch

open Cert.KernelIdeal Cert.KernelIdeal.Gen Idealize.ShloMosaic Idealize.ShloMosaic.TcCoe Idealize.SL.Sem Idealize.ShloMosaic.StableHlo

/-- A bias [128] reshaped to a row [1,128] is its broadcast along the row. -/
theorem bias_row (v : FVec Ideal S128 .f32) (hc : S128.ShapeCasts S1x128) (hb : S128.BroadcastsInDim S1x128 ![1]) :
    shapeCast S1x128 v hc = broadcastInDim S1x128 ![1] hb v :=
  Cert.LibUnitAxes.shapeCast_a_1a_eq_broadcastInDim (a := 128) v hc hb

/-- The projection's bias [1] reshaped to [1,1] is its broadcast along the row. -/
theorem bias_one (v : FVec Ideal S1 .f32) (hc : S1.ShapeCasts S1x1) (hb : S1.BroadcastsInDim S1x1 ![1]) :
    shapeCast S1x1 v hc = broadcastInDim S1x1 ![1] hb v :=
  Cert.LibUnitAxes.shapeCast_a_1a_eq_broadcastInDim (a := 1) v hc hb

variable (W : Valuation τ sig (Elt Ideal))

/-! ## Stretch 0: ids, inverse degrees, the first aggregation, the first slices -/

theorem s0_src : StableHlo.after (hostOps0 (F := Ideal)) W (Proc.devRef .tc main_v1)
    = Cert.ReferenceIdeal.Read.val_main_v1 (F := Ideal) (W (Proc.devRef .tc main_arg1)) := by
  after_results_simp
  rfl

theorem s0_dst : StableHlo.after (hostOps0 (F := Ideal)) W (Proc.devRef .tc main_v3)
    = Cert.ReferenceIdeal.Read.val_main_v3 (F := Ideal) (W (Proc.devRef .tc main_arg1)) := by
  after_results_simp
  rfl

theorem s0_dinv : StableHlo.after (hostOps0 (F := Ideal)) W (Proc.devRef .tc main_v12)
    = Cert.ReferenceIdeal.Read.val_main_v12 (F := Ideal) (W (Proc.devRef .tc main_arg1)) := by
  after_results_simp
  rfl

theorem s0_mean : StableHlo.after (hostOps0 (F := Ideal)) W (Proc.devRef .tc main_v24)
    = Cert.Sage.meanOf (W (Proc.devRef .tc main_arg0)) (Cert.ReferenceIdeal.Read.val_main_v1 (F := Ideal) (W (Proc.devRef .tc main_arg1)))
        (Cert.ReferenceIdeal.Read.val_main_v3 (F := Ideal) (W (Proc.devRef .tc main_arg1)))
        (Cert.ReferenceIdeal.Read.val_main_v12 (F := Ideal) (W (Proc.devRef .tc main_arg1))) := by
  after_results_simp
  rfl

theorem s0_wl : StableHlo.after (hostOps0 (F := Ideal)) W (Proc.devRef .tc main_v26)
    = Cert.ReferenceIdeal.Read.val_main_v14 (F := Ideal) (W (Proc.devRef .tc main_arg2)) := by
  after_results_simp
  rfl

theorem s0_wr : StableHlo.after (hostOps0 (F := Ideal)) W (Proc.devRef .tc main_v28)
    = Cert.ReferenceIdeal.Read.val_main_v16 (F := Ideal) (W (Proc.devRef .tc main_arg3)) := by
  after_results_simp
  rfl

theorem s0_b : StableHlo.after (hostOps0 (F := Ideal)) W (Proc.devRef .tc main_v31)
    = Cert.ReferenceIdeal.Read.val_main_v34 (F := Ideal) (W (Proc.devRef .tc main_arg4)) := by
  have e : StableHlo.after (hostOps0 (F := Ideal)) W (Proc.devRef .tc main_v31)
      = shapeCast S1x128 (Cert.ReferenceIdeal.Read.val_main_v18 (F := Ideal) (W (Proc.devRef .tc main_arg4))) shapeCasts_S128_S1x128 := by
    after_results_simp
    rfl
  rw [e]
  exact bias_row _ _ _

/-! ## Stretch 1 -/

theorem s1_mean : StableHlo.after (hostOps1 (F := Ideal)) W (Proc.devRef .tc main_v44)
    = Cert.Sage.meanOf (W (Proc.devRef .tc main_v32)) (W (Proc.devRef .tc main_v1)) (W (Proc.devRef .tc main_v3)) (W (Proc.devRef .tc main_v12)) := by
  after_results_simp
  rfl

theorem s1_wl : StableHlo.after (hostOps1 (F := Ideal)) W (Proc.devRef .tc main_v46)
    = Cert.ReferenceIdeal.Read.val_main_v39 (F := Ideal) (W (Proc.devRef .tc main_arg2)) := by
  after_results_simp
  rfl

theorem s1_wr : StableHlo.after (hostOps1 (F := Ideal)) W (Proc.devRef .tc main_v48)
    = Cert.ReferenceIdeal.Read.val_main_v41 (F := Ideal) (W (Proc.devRef .tc main_arg3)) := by
  after_results_simp
  rfl

theorem s1_b : StableHlo.after (hostOps1 (F := Ideal)) W (Proc.devRef .tc main_v51)
    = Cert.ReferenceIdeal.Read.val_main_v59 (F := Ideal) (W (Proc.devRef .tc main_arg4)) := by
  have e : StableHlo.after (hostOps1 (F := Ideal)) W (Proc.devRef .tc main_v51)
      = shapeCast S1x128 (Cert.ReferenceIdeal.Read.val_main_v43 (F := Ideal) (W (Proc.devRef .tc main_arg4))) shapeCasts_S128_S1x128 := by
    after_results_simp
    rfl
  rw [e]
  exact bias_row _ _ _

/-! ## Stretch 2 -/

theorem s2_mean : StableHlo.after (hostOps2 (F := Ideal)) W (Proc.devRef .tc main_v64)
    = Cert.Sage.meanOf (W (Proc.devRef .tc main_v52)) (W (Proc.devRef .tc main_v1)) (W (Proc.devRef .tc main_v3)) (W (Proc.devRef .tc main_v12)) := by
  after_results_simp
  rfl

theorem s2_wl : StableHlo.after (hostOps2 (F := Ideal)) W (Proc.devRef .tc main_v66)
    = Cert.ReferenceIdeal.Read.val_main_v64 (F := Ideal) (W (Proc.devRef .tc main_arg2)) := by
  after_results_simp
  rfl

theorem s2_wr : StableHlo.after (hostOps2 (F := Ideal)) W (Proc.devRef .tc main_v68)
    = Cert.ReferenceIdeal.Read.val_main_v66 (F := Ideal) (W (Proc.devRef .tc main_arg3)) := by
  after_results_simp
  rfl

theorem s2_b : StableHlo.after (hostOps2 (F := Ideal)) W (Proc.devRef .tc main_v71)
    = Cert.ReferenceIdeal.Read.val_main_v84 (F := Ideal) (W (Proc.devRef .tc main_arg4)) := by
  have e : StableHlo.after (hostOps2 (F := Ideal)) W (Proc.devRef .tc main_v71)
      = shapeCast S1x128 (Cert.ReferenceIdeal.Read.val_main_v68 (F := Ideal) (W (Proc.devRef .tc main_arg4))) shapeCasts_S128_S1x128 := by
    after_results_simp
    rfl
  rw [e]
  exact bias_row _ _ _

/-! ## Stretch 3 -/

theorem s3_mean : StableHlo.after (hostOps3 (F := Ideal)) W (Proc.devRef .tc main_v84)
    = Cert.Sage.meanOf (W (Proc.devRef .tc main_v72)) (W (Proc.devRef .tc main_v1)) (W (Proc.devRef .tc main_v3)) (W (Proc.devRef .tc main_v12)) := by
  after_results_simp
  rfl

theorem s3_wl : StableHlo.after (hostOps3 (F := Ideal)) W (Proc.devRef .tc main_v86)
    = Cert.ReferenceIdeal.Read.val_main_v89 (F := Ideal) (W (Proc.devRef .tc main_arg2)) := by
  after_results_simp
  rfl

theorem s3_wr : StableHlo.after (hostOps3 (F := Ideal)) W (Proc.devRef .tc main_v88)
    = Cert.ReferenceIdeal.Read.val_main_v91 (F := Ideal) (W (Proc.devRef .tc main_arg3)) := by
  after_results_simp
  rfl

theorem s3_b : StableHlo.after (hostOps3 (F := Ideal)) W (Proc.devRef .tc main_v91)
    = Cert.ReferenceIdeal.Read.val_main_v109 (F := Ideal) (W (Proc.devRef .tc main_arg4)) := by
  have e : StableHlo.after (hostOps3 (F := Ideal)) W (Proc.devRef .tc main_v91)
      = shapeCast S1x128 (Cert.ReferenceIdeal.Read.val_main_v93 (F := Ideal) (W (Proc.devRef .tc main_arg4))) shapeCasts_S128_S1x128 := by
    after_results_simp
    rfl
  rw [e]
  exact bias_row _ _ _

/-! ## Stretch 4 -/

theorem s4_mean : StableHlo.after (hostOps4 (F := Ideal)) W (Proc.devRef .tc main_v104)
    = Cert.Sage.meanOf (W (Proc.devRef .tc main_v92)) (W (Proc.devRef .tc main_v1)) (W (Proc.devRef .tc main_v3)) (W (Proc.devRef .tc main_v12)) := by
  after_results_simp
  rfl

theorem s4_wl : StableHlo.after (hostOps4 (F := Ideal)) W (Proc.devRef .tc main_v106)
    = Cert.ReferenceIdeal.Read.val_main_v114 (F := Ideal) (W (Proc.devRef .tc main_arg2)) := by
  after_results_simp
  rfl

theorem s4_wr : StableHlo.after (hostOps4 (F := Ideal)) W (Proc.devRef .tc main_v108)
    = Cert.ReferenceIdeal.Read.val_main_v116 (F := Ideal) (W (Proc.devRef .tc main_arg3)) := by
  after_results_simp
  rfl

theorem s4_b : StableHlo.after (hostOps4 (F := Ideal)) W (Proc.devRef .tc main_v111)
    = Cert.ReferenceIdeal.Read.val_main_v134 (F := Ideal) (W (Proc.devRef .tc main_arg4)) := by
  have e : StableHlo.after (hostOps4 (F := Ideal)) W (Proc.devRef .tc main_v111)
      = shapeCast S1x128 (Cert.ReferenceIdeal.Read.val_main_v118 (F := Ideal) (W (Proc.devRef .tc main_arg4))) shapeCasts_S128_S1x128 := by
    after_results_simp
    rfl
  rw [e]
  exact bias_row _ _ _

/-! ## Stretch 5 -/

theorem s5_mean : StableHlo.after (hostOps5 (F := Ideal)) W (Proc.devRef .tc main_v124)
    = Cert.Sage.meanOf (W (Proc.devRef .tc main_v112)) (W (Proc.devRef .tc main_v1)) (W (Proc.devRef .tc main_v3)) (W (Proc.devRef .tc main_v12)) := by
  after_results_simp
  rfl

theorem s5_wl : StableHlo.after (hostOps5 (F := Ideal)) W (Proc.devRef .tc main_v126)
    = Cert.ReferenceIdeal.Read.val_main_v139 (F := Ideal) (W (Proc.devRef .tc main_arg2)) := by
  after_results_simp
  rfl

theorem s5_wr : StableHlo.after (hostOps5 (F := Ideal)) W (Proc.devRef .tc main_v128)
    = Cert.ReferenceIdeal.Read.val_main_v141 (F := Ideal) (W (Proc.devRef .tc main_arg3)) := by
  after_results_simp
  rfl

theorem s5_b : StableHlo.after (hostOps5 (F := Ideal)) W (Proc.devRef .tc main_v131)
    = Cert.ReferenceIdeal.Read.val_main_v159 (F := Ideal) (W (Proc.devRef .tc main_arg4)) := by
  have e : StableHlo.after (hostOps5 (F := Ideal)) W (Proc.devRef .tc main_v131)
      = shapeCast S1x128 (Cert.ReferenceIdeal.Read.val_main_v143 (F := Ideal) (W (Proc.devRef .tc main_arg4))) shapeCasts_S128_S1x128 := by
    after_results_simp
    rfl
  rw [e]
  exact bias_row _ _ _

/-! ## Stretch 6: the projection's bias -/

theorem s6_b : StableHlo.after (hostOps6 (F := Ideal)) W (Proc.devRef .tc main_v133)
    = Cert.ReferenceIdeal.Read.val_main_v164 (F := Ideal) (W (Proc.devRef .tc main_arg6)) := by
  have e : StableHlo.after (hostOps6 (F := Ideal)) W (Proc.devRef .tc main_v133) = shapeCast S1x1 (W (Proc.devRef .tc main_arg6)) shapeCasts_S1_S1x1 := by
    after_results_simp
    rfl
  rw [e]
  exact bias_one _ _ _

/-! ## What a stretch leaves as it was -/

theorem s0_keep_arg0 : StableHlo.after (hostOps0 (F := Ideal)) W (Proc.devRef .tc main_arg0) = W (Proc.devRef .tc main_arg0) := by
  after_results_simp

theorem s0_keep_arg1 : StableHlo.after (hostOps0 (F := Ideal)) W (Proc.devRef .tc main_arg1) = W (Proc.devRef .tc main_arg1) := by
  after_results_simp

theorem s0_keep_arg2 : StableHlo.after (hostOps0 (F := Ideal)) W (Proc.devRef .tc main_arg2) = W (Proc.devRef .tc main_arg2) := by
  after_results_simp

theorem s0_keep_arg3 : StableHlo.after (hostOps0 (F := Ideal)) W (Proc.devRef .tc main_arg3) = W (Proc.devRef .tc main_arg3) := by
  after_results_simp

theorem s0_keep_arg4 : StableHlo.after (hostOps0 (F := Ideal)) W (Proc.devRef .tc main_arg4) = W (Proc.devRef .tc main_arg4) := by
  after_results_simp

theorem s0_keep_arg5 : StableHlo.after (hostOps0 (F := Ideal)) W (Proc.devRef .tc main_arg5) = W (Proc.devRef .tc main_arg5) := by
  after_results_simp

theorem s0_keep_arg6 : StableHlo.after (hostOps0 (F := Ideal)) W (Proc.devRef .tc main_arg6) = W (Proc.devRef .tc main_arg6) := by
  after_results_simp

theorem s1_keep_v1 : StableHlo.after (hostOps1 (F := Ideal)) W (Proc.devRef .tc main_v1) = W (Proc.devRef .tc main_v1) := by
  after_results_simp

theorem s1_keep_v3 : StableHlo.after (hostOps1 (F := Ideal)) W (Proc.devRef .tc main_v3) = W (Proc.devRef .tc main_v3) := by
  after_results_simp

theorem s1_keep_v12 : StableHlo.after (hostOps1 (F := Ideal)) W (Proc.devRef .tc main_v12) = W (Proc.devRef .tc main_v12) := by
  after_results_simp

theorem s1_keep_arg0 : StableHlo.after (hostOps1 (F := Ideal)) W (Proc.devRef .tc main_arg0) = W (Proc.devRef .tc main_arg0) := by
  after_results_simp

theorem s1_keep_arg1 : StableHlo.after (hostOps1 (F := Ideal)) W (Proc.devRef .tc main_arg1) = W (Proc.devRef .tc main_arg1) := by
  after_results_simp

theorem s1_keep_arg2 : StableHlo.after (hostOps1 (F := Ideal)) W (Proc.devRef .tc main_arg2) = W (Proc.devRef .tc main_arg2) := by
  after_results_simp

theorem s1_keep_arg3 : StableHlo.after (hostOps1 (F := Ideal)) W (Proc.devRef .tc main_arg3) = W (Proc.devRef .tc main_arg3) := by
  after_results_simp

theorem s1_keep_arg4 : StableHlo.after (hostOps1 (F := Ideal)) W (Proc.devRef .tc main_arg4) = W (Proc.devRef .tc main_arg4) := by
  after_results_simp

theorem s1_keep_arg5 : StableHlo.after (hostOps1 (F := Ideal)) W (Proc.devRef .tc main_arg5) = W (Proc.devRef .tc main_arg5) := by
  after_results_simp

theorem s1_keep_arg6 : StableHlo.after (hostOps1 (F := Ideal)) W (Proc.devRef .tc main_arg6) = W (Proc.devRef .tc main_arg6) := by
  after_results_simp

theorem s1_keep_v32 : StableHlo.after (hostOps1 (F := Ideal)) W (Proc.devRef .tc main_v32) = W (Proc.devRef .tc main_v32) := by
  after_results_simp

theorem s2_keep_v1 : StableHlo.after (hostOps2 (F := Ideal)) W (Proc.devRef .tc main_v1) = W (Proc.devRef .tc main_v1) := by
  after_results_simp

theorem s2_keep_v3 : StableHlo.after (hostOps2 (F := Ideal)) W (Proc.devRef .tc main_v3) = W (Proc.devRef .tc main_v3) := by
  after_results_simp

theorem s2_keep_v12 : StableHlo.after (hostOps2 (F := Ideal)) W (Proc.devRef .tc main_v12) = W (Proc.devRef .tc main_v12) := by
  after_results_simp

theorem s2_keep_arg0 : StableHlo.after (hostOps2 (F := Ideal)) W (Proc.devRef .tc main_arg0) = W (Proc.devRef .tc main_arg0) := by
  after_results_simp

theorem s2_keep_arg1 : StableHlo.after (hostOps2 (F := Ideal)) W (Proc.devRef .tc main_arg1) = W (Proc.devRef .tc main_arg1) := by
  after_results_simp

theorem s2_keep_arg2 : StableHlo.after (hostOps2 (F := Ideal)) W (Proc.devRef .tc main_arg2) = W (Proc.devRef .tc main_arg2) := by
  after_results_simp

theorem s2_keep_arg3 : StableHlo.after (hostOps2 (F := Ideal)) W (Proc.devRef .tc main_arg3) = W (Proc.devRef .tc main_arg3) := by
  after_results_simp

theorem s2_keep_arg4 : StableHlo.after (hostOps2 (F := Ideal)) W (Proc.devRef .tc main_arg4) = W (Proc.devRef .tc main_arg4) := by
  after_results_simp

theorem s2_keep_arg5 : StableHlo.after (hostOps2 (F := Ideal)) W (Proc.devRef .tc main_arg5) = W (Proc.devRef .tc main_arg5) := by
  after_results_simp

theorem s2_keep_arg6 : StableHlo.after (hostOps2 (F := Ideal)) W (Proc.devRef .tc main_arg6) = W (Proc.devRef .tc main_arg6) := by
  after_results_simp

theorem s2_keep_v52 : StableHlo.after (hostOps2 (F := Ideal)) W (Proc.devRef .tc main_v52) = W (Proc.devRef .tc main_v52) := by
  after_results_simp

theorem s3_keep_v1 : StableHlo.after (hostOps3 (F := Ideal)) W (Proc.devRef .tc main_v1) = W (Proc.devRef .tc main_v1) := by
  after_results_simp

theorem s3_keep_v3 : StableHlo.after (hostOps3 (F := Ideal)) W (Proc.devRef .tc main_v3) = W (Proc.devRef .tc main_v3) := by
  after_results_simp

theorem s3_keep_v12 : StableHlo.after (hostOps3 (F := Ideal)) W (Proc.devRef .tc main_v12) = W (Proc.devRef .tc main_v12) := by
  after_results_simp

theorem s3_keep_arg0 : StableHlo.after (hostOps3 (F := Ideal)) W (Proc.devRef .tc main_arg0) = W (Proc.devRef .tc main_arg0) := by
  after_results_simp

theorem s3_keep_arg1 : StableHlo.after (hostOps3 (F := Ideal)) W (Proc.devRef .tc main_arg1) = W (Proc.devRef .tc main_arg1) := by
  after_results_simp

theorem s3_keep_arg2 : StableHlo.after (hostOps3 (F := Ideal)) W (Proc.devRef .tc main_arg2) = W (Proc.devRef .tc main_arg2) := by
  after_results_simp

theorem s3_keep_arg3 : StableHlo.after (hostOps3 (F := Ideal)) W (Proc.devRef .tc main_arg3) = W (Proc.devRef .tc main_arg3) := by
  after_results_simp

theorem s3_keep_arg4 : StableHlo.after (hostOps3 (F := Ideal)) W (Proc.devRef .tc main_arg4) = W (Proc.devRef .tc main_arg4) := by
  after_results_simp

theorem s3_keep_arg5 : StableHlo.after (hostOps3 (F := Ideal)) W (Proc.devRef .tc main_arg5) = W (Proc.devRef .tc main_arg5) := by
  after_results_simp

theorem s3_keep_arg6 : StableHlo.after (hostOps3 (F := Ideal)) W (Proc.devRef .tc main_arg6) = W (Proc.devRef .tc main_arg6) := by
  after_results_simp

theorem s3_keep_v72 : StableHlo.after (hostOps3 (F := Ideal)) W (Proc.devRef .tc main_v72) = W (Proc.devRef .tc main_v72) := by
  after_results_simp

theorem s4_keep_v1 : StableHlo.after (hostOps4 (F := Ideal)) W (Proc.devRef .tc main_v1) = W (Proc.devRef .tc main_v1) := by
  after_results_simp

theorem s4_keep_v3 : StableHlo.after (hostOps4 (F := Ideal)) W (Proc.devRef .tc main_v3) = W (Proc.devRef .tc main_v3) := by
  after_results_simp

theorem s4_keep_v12 : StableHlo.after (hostOps4 (F := Ideal)) W (Proc.devRef .tc main_v12) = W (Proc.devRef .tc main_v12) := by
  after_results_simp

theorem s4_keep_arg0 : StableHlo.after (hostOps4 (F := Ideal)) W (Proc.devRef .tc main_arg0) = W (Proc.devRef .tc main_arg0) := by
  after_results_simp

theorem s4_keep_arg1 : StableHlo.after (hostOps4 (F := Ideal)) W (Proc.devRef .tc main_arg1) = W (Proc.devRef .tc main_arg1) := by
  after_results_simp

theorem s4_keep_arg2 : StableHlo.after (hostOps4 (F := Ideal)) W (Proc.devRef .tc main_arg2) = W (Proc.devRef .tc main_arg2) := by
  after_results_simp

theorem s4_keep_arg3 : StableHlo.after (hostOps4 (F := Ideal)) W (Proc.devRef .tc main_arg3) = W (Proc.devRef .tc main_arg3) := by
  after_results_simp

theorem s4_keep_arg4 : StableHlo.after (hostOps4 (F := Ideal)) W (Proc.devRef .tc main_arg4) = W (Proc.devRef .tc main_arg4) := by
  after_results_simp

theorem s4_keep_arg5 : StableHlo.after (hostOps4 (F := Ideal)) W (Proc.devRef .tc main_arg5) = W (Proc.devRef .tc main_arg5) := by
  after_results_simp

theorem s4_keep_arg6 : StableHlo.after (hostOps4 (F := Ideal)) W (Proc.devRef .tc main_arg6) = W (Proc.devRef .tc main_arg6) := by
  after_results_simp

theorem s4_keep_v92 : StableHlo.after (hostOps4 (F := Ideal)) W (Proc.devRef .tc main_v92) = W (Proc.devRef .tc main_v92) := by
  after_results_simp

theorem s5_keep_v1 : StableHlo.after (hostOps5 (F := Ideal)) W (Proc.devRef .tc main_v1) = W (Proc.devRef .tc main_v1) := by
  after_results_simp

theorem s5_keep_v3 : StableHlo.after (hostOps5 (F := Ideal)) W (Proc.devRef .tc main_v3) = W (Proc.devRef .tc main_v3) := by
  after_results_simp

theorem s5_keep_v12 : StableHlo.after (hostOps5 (F := Ideal)) W (Proc.devRef .tc main_v12) = W (Proc.devRef .tc main_v12) := by
  after_results_simp

theorem s5_keep_arg0 : StableHlo.after (hostOps5 (F := Ideal)) W (Proc.devRef .tc main_arg0) = W (Proc.devRef .tc main_arg0) := by
  after_results_simp

theorem s5_keep_arg1 : StableHlo.after (hostOps5 (F := Ideal)) W (Proc.devRef .tc main_arg1) = W (Proc.devRef .tc main_arg1) := by
  after_results_simp

theorem s5_keep_arg2 : StableHlo.after (hostOps5 (F := Ideal)) W (Proc.devRef .tc main_arg2) = W (Proc.devRef .tc main_arg2) := by
  after_results_simp

theorem s5_keep_arg3 : StableHlo.after (hostOps5 (F := Ideal)) W (Proc.devRef .tc main_arg3) = W (Proc.devRef .tc main_arg3) := by
  after_results_simp

theorem s5_keep_arg4 : StableHlo.after (hostOps5 (F := Ideal)) W (Proc.devRef .tc main_arg4) = W (Proc.devRef .tc main_arg4) := by
  after_results_simp

theorem s5_keep_arg5 : StableHlo.after (hostOps5 (F := Ideal)) W (Proc.devRef .tc main_arg5) = W (Proc.devRef .tc main_arg5) := by
  after_results_simp

theorem s5_keep_arg6 : StableHlo.after (hostOps5 (F := Ideal)) W (Proc.devRef .tc main_arg6) = W (Proc.devRef .tc main_arg6) := by
  after_results_simp

theorem s5_keep_v112 : StableHlo.after (hostOps5 (F := Ideal)) W (Proc.devRef .tc main_v112) = W (Proc.devRef .tc main_v112) := by
  after_results_simp

theorem s6_keep_v1 : StableHlo.after (hostOps6 (F := Ideal)) W (Proc.devRef .tc main_v1) = W (Proc.devRef .tc main_v1) := by
  after_results_simp

theorem s6_keep_v3 : StableHlo.after (hostOps6 (F := Ideal)) W (Proc.devRef .tc main_v3) = W (Proc.devRef .tc main_v3) := by
  after_results_simp

theorem s6_keep_v12 : StableHlo.after (hostOps6 (F := Ideal)) W (Proc.devRef .tc main_v12) = W (Proc.devRef .tc main_v12) := by
  after_results_simp

theorem s6_keep_arg0 : StableHlo.after (hostOps6 (F := Ideal)) W (Proc.devRef .tc main_arg0) = W (Proc.devRef .tc main_arg0) := by
  after_results_simp

theorem s6_keep_arg1 : StableHlo.after (hostOps6 (F := Ideal)) W (Proc.devRef .tc main_arg1) = W (Proc.devRef .tc main_arg1) := by
  after_results_simp

theorem s6_keep_arg2 : StableHlo.after (hostOps6 (F := Ideal)) W (Proc.devRef .tc main_arg2) = W (Proc.devRef .tc main_arg2) := by
  after_results_simp

theorem s6_keep_arg3 : StableHlo.after (hostOps6 (F := Ideal)) W (Proc.devRef .tc main_arg3) = W (Proc.devRef .tc main_arg3) := by
  after_results_simp

theorem s6_keep_arg4 : StableHlo.after (hostOps6 (F := Ideal)) W (Proc.devRef .tc main_arg4) = W (Proc.devRef .tc main_arg4) := by
  after_results_simp

theorem s6_keep_arg5 : StableHlo.after (hostOps6 (F := Ideal)) W (Proc.devRef .tc main_arg5) = W (Proc.devRef .tc main_arg5) := by
  after_results_simp

theorem s6_keep_arg6 : StableHlo.after (hostOps6 (F := Ideal)) W (Proc.devRef .tc main_arg6) = W (Proc.devRef .tc main_arg6) := by
  after_results_simp

theorem s6_keep_v132 : StableHlo.after (hostOps6 (F := Ideal)) W (Proc.devRef .tc main_v132) = W (Proc.devRef .tc main_v132) := by
  after_results_simp

end Cert.KernelIdeal.Stretch

end
-- ==== Proof.Fold.lean ====
/-
  The buffers that are computed once and read again later, followed through the run.

  The source ids, the destination ids and the inverse degrees are computed by the first host stretch; they, and the
  weight arguments, are read again by every later stretch, after kernels and other stretches have run in between.
  None of those writes them: a kernel writes only its own output array, and a stretch only its own results.  So at
  every boundary of the run they hold what they held when the first kernel was entered.  Agree says two buffer
  contents coincide on these eight buffers; it is shown across each kernel and each stretch, and chained.
-/
import proofs.«101873_j60043642798825_1_alg».proof.Proof.Gen.KernelIdeal.Frame
import proofs.«101873_j60043642798825_1_alg».proof.Proof.Stretch

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

/-- Two buffer contents coincide on the ids, the inverse degrees and the weight arguments. -/
def Agree (W W' : Valuation τ sig (Elt Ideal)) : Prop :=
  W (Proc.devRef .tc main_v1) = W' (Proc.devRef .tc main_v1)
  ∧ W (Proc.devRef .tc main_v3) = W' (Proc.devRef .tc main_v3)
  ∧ W (Proc.devRef .tc main_v12) = W' (Proc.devRef .tc main_v12)
  ∧ W (Proc.devRef .tc main_arg2) = W' (Proc.devRef .tc main_arg2)
  ∧ W (Proc.devRef .tc main_arg3) = W' (Proc.devRef .tc main_arg3)
  ∧ W (Proc.devRef .tc main_arg4) = W' (Proc.devRef .tc main_arg4)
  ∧ W (Proc.devRef .tc main_arg5) = W' (Proc.devRef .tc main_arg5)
  ∧ W (Proc.devRef .tc main_arg6) = W' (Proc.devRef .tc main_arg6)

theorem Agree.trans {W W' W'' : Valuation τ sig (Elt Ideal)} (h : Agree W W') (h' : Agree W' W'') : Agree W W'' :=
  ⟨h.1.trans h'.1,
   h.2.1.trans h'.2.1,
   h.2.2.1.trans h'.2.2.1,
   h.2.2.2.1.trans h'.2.2.2.1,
   h.2.2.2.2.1.trans h'.2.2.2.2.1,
   h.2.2.2.2.2.1.trans h'.2.2.2.2.2.1,
   h.2.2.2.2.2.2.1.trans h'.2.2.2.2.2.2.1,
   h.2.2.2.2.2.2.2.trans h'.2.2.2.2.2.2.2⟩

/-! ## Across a stretch -/

theorem agree_s1 (W : Valuation τ sig (Elt Ideal)) : Agree (StableHlo.after (hostOps1 (F := Ideal)) W) W :=
  ⟨Stretch.s1_keep_v1 W, Stretch.s1_keep_v3 W, Stretch.s1_keep_v12 W, Stretch.s1_keep_arg2 W, Stretch.s1_keep_arg3 W, Stretch.s1_keep_arg4 W, Stretch.s1_keep_arg5 W, Stretch.s1_keep_arg6 W⟩

theorem agree_s2 (W : Valuation τ sig (Elt Ideal)) : Agree (StableHlo.after (hostOps2 (F := Ideal)) W) W :=
  ⟨Stretch.s2_keep_v1 W, Stretch.s2_keep_v3 W, Stretch.s2_keep_v12 W, Stretch.s2_keep_arg2 W, Stretch.s2_keep_arg3 W, Stretch.s2_keep_arg4 W, Stretch.s2_keep_arg5 W, Stretch.s2_keep_arg6 W⟩

theorem agree_s3 (W : Valuation τ sig (Elt Ideal)) : Agree (StableHlo.after (hostOps3 (F := Ideal)) W) W :=
  ⟨Stretch.s3_keep_v1 W, Stretch.s3_keep_v3 W, Stretch.s3_keep_v12 W, Stretch.s3_keep_arg2 W, Stretch.s3_keep_arg3 W, Stretch.s3_keep_arg4 W, Stretch.s3_keep_arg5 W, Stretch.s3_keep_arg6 W⟩

theorem agree_s4 (W : Valuation τ sig (Elt Ideal)) : Agree (StableHlo.after (hostOps4 (F := Ideal)) W) W :=
  ⟨Stretch.s4_keep_v1 W, Stretch.s4_keep_v3 W, Stretch.s4_keep_v12 W, Stretch.s4_keep_arg2 W, Stretch.s4_keep_arg3 W, Stretch.s4_keep_arg4 W, Stretch.s4_keep_arg5 W, Stretch.s4_keep_arg6 W⟩

theorem agree_s5 (W : Valuation τ sig (Elt Ideal)) : Agree (StableHlo.after (hostOps5 (F := Ideal)) W) W :=
  ⟨Stretch.s5_keep_v1 W, Stretch.s5_keep_v3 W, Stretch.s5_keep_v12 W, Stretch.s5_keep_arg2 W, Stretch.s5_keep_arg3 W, Stretch.s5_keep_arg4 W, Stretch.s5_keep_arg5 W, Stretch.s5_keep_arg6 W⟩

theorem agree_s6 (W : Valuation τ sig (Elt Ideal)) : Agree (StableHlo.after (hostOps6 (F := Ideal)) W) W :=
  ⟨Stretch.s6_keep_v1 W, Stretch.s6_keep_v3 W, Stretch.s6_keep_v12 W, Stretch.s6_keep_arg2 W, Stretch.s6_keep_arg3 W, Stretch.s6_keep_arg4 W, Stretch.s6_keep_arg5 W, Stretch.s6_keep_arg6 W⟩

/-! ## Across a kernel: it writes its own arrays only -/

variable (m : (ℓ : Loc nD τ sig) → Buf (Elt Ideal) ℓ) (ρ : Dev nD → PrngReg) (c : Dev nD)

theorem agree_r0 : Agree (W2 m ρ c) (W1 m ρ c) :=
  ⟨W2_of_ne m ρ c main_v1 (by decide),
   W2_of_ne m ρ c main_v3 (by decide),
   W2_of_ne m ρ c main_v12 (by decide),
   W2_of_ne m ρ c main_arg2 (by decide),
   W2_of_ne m ρ c main_arg3 (by decide),
   W2_of_ne m ρ c main_arg4 (by decide),
   W2_of_ne m ρ c main_arg5 (by decide),
   W2_of_ne m ρ c main_arg6 (by decide)⟩

theorem agree_r1 : Agree (W4 m ρ c) (W3 m ρ c) :=
  ⟨W4_of_ne m ρ c main_v1 (by decide),
   W4_of_ne m ρ c main_v3 (by decide),
   W4_of_ne m ρ c main_v12 (by decide),
   W4_of_ne m ρ c main_arg2 (by decide),
   W4_of_ne m ρ c main_arg3 (by decide),
   W4_of_ne m ρ c main_arg4 (by decide),
   W4_of_ne m ρ c main_arg5 (by decide),
   W4_of_ne m ρ c main_arg6 (by decide)⟩

theorem agree_r2 : Agree (W6 m ρ c) (W5 m ρ c) :=
  ⟨W6_of_ne m ρ c main_v1 (by decide),
   W6_of_ne m ρ c main_v3 (by decide),
   W6_of_ne m ρ c main_v12 (by decide),
   W6_of_ne m ρ c main_arg2 (by decide),
   W6_of_ne m ρ c main_arg3 (by decide),
   W6_of_ne m ρ c main_arg4 (by decide),
   W6_of_ne m ρ c main_arg5 (by decide),
   W6_of_ne m ρ c main_arg6 (by decide)⟩

theorem agree_r3 : Agree (W8 m ρ c) (W7 m ρ c) :=
  ⟨W8_of_ne m ρ c main_v1 (by decide),
   W8_of_ne m ρ c main_v3 (by decide),
   W8_of_ne m ρ c main_v12 (by decide),
   W8_of_ne m ρ c main_arg2 (by decide),
   W8_of_ne m ρ c main_arg3 (by decide),
   W8_of_ne m ρ c main_arg4 (by decide),
   W8_of_ne m ρ c main_arg5 (by decide),
   W8_of_ne m ρ c main_arg6 (by decide)⟩

theorem agree_r4 : Agree (W10 m ρ c) (W9 m ρ c) :=
  ⟨W10_of_ne m ρ c main_v1 (by decide),
   W10_of_ne m ρ c main_v3 (by decide),
   W10_of_ne m ρ c main_v12 (by decide),
   W10_of_ne m ρ c main_arg2 (by decide),
   W10_of_ne m ρ c main_arg3 (by decide),
   W10_of_ne m ρ c main_arg4 (by decide),
   W10_of_ne m ρ c main_arg5 (by decide),
   W10_of_ne m ρ c main_arg6 (by decide)⟩

theorem agree_r5 : Agree (W12 m ρ c) (W11 m ρ c) :=
  ⟨W12_of_ne m ρ c main_v1 (by decide),
   W12_of_ne m ρ c main_v3 (by decide),
   W12_of_ne m ρ c main_v12 (by decide),
   W12_of_ne m ρ c main_arg2 (by decide),
   W12_of_ne m ρ c main_arg3 (by decide),
   W12_of_ne m ρ c main_arg4 (by decide),
   W12_of_ne m ρ c main_arg5 (by decide),
   W12_of_ne m ρ c main_arg6 (by decide)⟩

/-! ## From every later boundary back to the first kernel's entry -/

theorem agree_2 : Agree (W2 m ρ c) (W1 m ρ c) := agree_r0 m ρ c
theorem agree_3 : Agree (W3 m ρ c) (W1 m ρ c) := (agree_s1 (W2 m ρ c)).trans (agree_2 m ρ c)
theorem agree_4 : Agree (W4 m ρ c) (W1 m ρ c) := (agree_r1 m ρ c).trans (agree_3 m ρ c)
theorem agree_5 : Agree (W5 m ρ c) (W1 m ρ c) := (agree_s2 (W4 m ρ c)).trans (agree_4 m ρ c)
theorem agree_6 : Agree (W6 m ρ c) (W1 m ρ c) := (agree_r2 m ρ c).trans (agree_5 m ρ c)
theorem agree_7 : Agree (W7 m ρ c) (W1 m ρ c) := (agree_s3 (W6 m ρ c)).trans (agree_6 m ρ c)
theorem agree_8 : Agree (W8 m ρ c) (W1 m ρ c) := (agree_r3 m ρ c).trans (agree_7 m ρ c)
theorem agree_9 : Agree (W9 m ρ c) (W1 m ρ c) := (agree_s4 (W8 m ρ c)).trans (agree_8 m ρ c)
theorem agree_10 : Agree (W10 m ρ c) (W1 m ρ c) := (agree_r4 m ρ c).trans (agree_9 m ρ c)
theorem agree_11 : Agree (W11 m ρ c) (W1 m ρ c) := (agree_s5 (W10 m ρ c)).trans (agree_10 m ρ c)
theorem agree_12 : Agree (W12 m ρ c) (W1 m ρ c) := (agree_r5 m ρ c).trans (agree_11 m ρ c)
theorem agree_13 : Agree (W13 m ρ c) (W1 m ρ c) := (agree_s6 (W12 m ρ c)).trans (agree_12 m ρ c)

/-! ## What they hold at the first kernel's entry -/

theorem src_1 : W1 m ρ c (Proc.devRef .tc main_v1) = Cert.ReferenceIdeal.Read.val_main_v1 (F := Ideal) (m ((c : Thread nD τ).loc main_arg1)) :=
  Stretch.s0_src (W0 m ρ c)
theorem dst_1 : W1 m ρ c (Proc.devRef .tc main_v3) = Cert.ReferenceIdeal.Read.val_main_v3 (F := Ideal) (m ((c : Thread nD τ).loc main_arg1)) :=
  Stretch.s0_dst (W0 m ρ c)
theorem dinv_1 : W1 m ρ c (Proc.devRef .tc main_v12) = Cert.ReferenceIdeal.Read.val_main_v12 (F := Ideal) (m ((c : Thread nD τ).loc main_arg1)) :=
  Stretch.s0_dinv (W0 m ρ c)
theorem arg2_1 : W1 m ρ c (Proc.devRef .tc main_arg2) = m ((c : Thread nD τ).loc main_arg2) := Stretch.s0_keep_arg2 (W0 m ρ c)
theorem arg3_1 : W1 m ρ c (Proc.devRef .tc main_arg3) = m ((c : Thread nD τ).loc main_arg3) := Stretch.s0_keep_arg3 (W0 m ρ c)
theorem arg4_1 : W1 m ρ c (Proc.devRef .tc main_arg4) = m ((c : Thread nD τ).loc main_arg4) := Stretch.s0_keep_arg4 (W0 m ρ c)
theorem arg5_1 : W1 m ρ c (Proc.devRef .tc main_arg5) = m ((c : Thread nD τ).loc main_arg5) := Stretch.s0_keep_arg5 (W0 m ρ c)
theorem arg6_1 : W1 m ρ c (Proc.devRef .tc main_arg6) = m ((c : Thread nD τ).loc main_arg6) := Stretch.s0_keep_arg6 (W0 m ρ c)

/-! ## And so at every kernel's exit -/

theorem src_2 : W2 m ρ c (Proc.devRef .tc main_v1) = Cert.ReferenceIdeal.Read.val_main_v1 (F := Ideal) (m ((c : Thread nD τ).loc main_arg1)) := (agree_2 m ρ c).1.trans (src_1 m ρ c)
theorem dst_2 : W2 m ρ c (Proc.devRef .tc main_v3) = Cert.ReferenceIdeal.Read.val_main_v3 (F := Ideal) (m ((c : Thread nD τ).loc main_arg1)) := (agree_2 m ρ c).2.1.trans (dst_1 m ρ c)
theorem dinv_2 : W2 m ρ c (Proc.devRef .tc main_v12) = Cert.ReferenceIdeal.Read.val_main_v12 (F := Ideal) (m ((c : Thread nD τ).loc main_arg1)) := (agree_2 m ρ c).2.2.1.trans (dinv_1 m ρ c)
theorem arg2_2 : W2 m ρ c (Proc.devRef .tc main_arg2) = m ((c : Thread nD τ).loc main_arg2) := (agree_2 m ρ c).2.2.2.1.trans (arg2_1 m ρ c)
theorem arg3_2 : W2 m ρ c (Proc.devRef .tc main_arg3) = m ((c : Thread nD τ).loc main_arg3) := (agree_2 m ρ c).2.2.2.2.1.trans (arg3_1 m ρ c)
theorem arg4_2 : W2 m ρ c (Proc.devRef .tc main_arg4) = m ((c : Thread nD τ).loc main_arg4) := (agree_2 m ρ c).2.2.2.2.2.1.trans (arg4_1 m ρ c)
theorem arg5_2 : W2 m ρ c (Proc.devRef .tc main_arg5) = m ((c : Thread nD τ).loc main_arg5) := (agree_2 m ρ c).2.2.2.2.2.2.1.trans (arg5_1 m ρ c)
theorem arg6_2 : W2 m ρ c (Proc.devRef .tc main_arg6) = m ((c : Thread nD τ).loc main_arg6) := (agree_2 m ρ c).2.2.2.2.2.2.2.trans (arg6_1 m ρ c)

theorem src_4 : W4 m ρ c (Proc.devRef .tc main_v1) = Cert.ReferenceIdeal.Read.val_main_v1 (F := Ideal) (m ((c : Thread nD τ).loc main_arg1)) := (agree_4 m ρ c).1.trans (src_1 m ρ c)
theorem dst_4 : W4 m ρ c (Proc.devRef .tc main_v3) = Cert.ReferenceIdeal.Read.val_main_v3 (F := Ideal) (m ((c : Thread nD τ).loc main_arg1)) := (agree_4 m ρ c).2.1.trans (dst_1 m ρ c)
theorem dinv_4 : W4 m ρ c (Proc.devRef .tc main_v12) = Cert.ReferenceIdeal.Read.val_main_v12 (F := Ideal) (m ((c : Thread nD τ).loc main_arg1)) := (agree_4 m ρ c).2.2.1.trans (dinv_1 m ρ c)
theorem arg2_4 : W4 m ρ c (Proc.devRef .tc main_arg2) = m ((c : Thread nD τ).loc main_arg2) := (agree_4 m ρ c).2.2.2.1.trans (arg2_1 m ρ c)
theorem arg3_4 : W4 m ρ c (Proc.devRef .tc main_arg3) = m ((c : Thread nD τ).loc main_arg3) := (agree_4 m ρ c).2.2.2.2.1.trans (arg3_1 m ρ c)
theorem arg4_4 : W4 m ρ c (Proc.devRef .tc main_arg4) = m ((c : Thread nD τ).loc main_arg4) := (agree_4 m ρ c).2.2.2.2.2.1.trans (arg4_1 m ρ c)
theorem arg5_4 : W4 m ρ c (Proc.devRef .tc main_arg5) = m ((c : Thread nD τ).loc main_arg5) := (agree_4 m ρ c).2.2.2.2.2.2.1.trans (arg5_1 m ρ c)
theorem arg6_4 : W4 m ρ c (Proc.devRef .tc main_arg6) = m ((c : Thread nD τ).loc main_arg6) := (agree_4 m ρ c).2.2.2.2.2.2.2.trans (arg6_1 m ρ c)

theorem src_6 : W6 m ρ c (Proc.devRef .tc main_v1) = Cert.ReferenceIdeal.Read.val_main_v1 (F := Ideal) (m ((c : Thread nD τ).loc main_arg1)) := (agree_6 m ρ c).1.trans (src_1 m ρ c)
theorem dst_6 : W6 m ρ c (Proc.devRef .tc main_v3) = Cert.ReferenceIdeal.Read.val_main_v3 (F := Ideal) (m ((c : Thread nD τ).loc main_arg1)) := (agree_6 m ρ c).2.1.trans (dst_1 m ρ c)
theorem dinv_6 : W6 m ρ c (Proc.devRef .tc main_v12) = Cert.ReferenceIdeal.Read.val_main_v12 (F := Ideal) (m ((c : Thread nD τ).loc main_arg1)) := (agree_6 m ρ c).2.2.1.trans (dinv_1 m ρ c)
theorem arg2_6 : W6 m ρ c (Proc.devRef .tc main_arg2) = m ((c : Thread nD τ).loc main_arg2) := (agree_6 m ρ c).2.2.2.1.trans (arg2_1 m ρ c)
theorem arg3_6 : W6 m ρ c (Proc.devRef .tc main_arg3) = m ((c : Thread nD τ).loc main_arg3) := (agree_6 m ρ c).2.2.2.2.1.trans (arg3_1 m ρ c)
theorem arg4_6 : W6 m ρ c (Proc.devRef .tc main_arg4) = m ((c : Thread nD τ).loc main_arg4) := (agree_6 m ρ c).2.2.2.2.2.1.trans (arg4_1 m ρ c)
theorem arg5_6 : W6 m ρ c (Proc.devRef .tc main_arg5) = m ((c : Thread nD τ).loc main_arg5) := (agree_6 m ρ c).2.2.2.2.2.2.1.trans (arg5_1 m ρ c)
theorem arg6_6 : W6 m ρ c (Proc.devRef .tc main_arg6) = m ((c : Thread nD τ).loc main_arg6) := (agree_6 m ρ c).2.2.2.2.2.2.2.trans (arg6_1 m ρ c)

theorem src_8 : W8 m ρ c (Proc.devRef .tc main_v1) = Cert.ReferenceIdeal.Read.val_main_v1 (F := Ideal) (m ((c : Thread nD τ).loc main_arg1)) := (agree_8 m ρ c).1.trans (src_1 m ρ c)
theorem dst_8 : W8 m ρ c (Proc.devRef .tc main_v3) = Cert.ReferenceIdeal.Read.val_main_v3 (F := Ideal) (m ((c : Thread nD τ).loc main_arg1)) := (agree_8 m ρ c).2.1.trans (dst_1 m ρ c)
theorem dinv_8 : W8 m ρ c (Proc.devRef .tc main_v12) = Cert.ReferenceIdeal.Read.val_main_v12 (F := Ideal) (m ((c : Thread nD τ).loc main_arg1)) := (agree_8 m ρ c).2.2.1.trans (dinv_1 m ρ c)
theorem arg2_8 : W8 m ρ c (Proc.devRef .tc main_arg2) = m ((c : Thread nD τ).loc main_arg2) := (agree_8 m ρ c).2.2.2.1.trans (arg2_1 m ρ c)
theorem arg3_8 : W8 m ρ c (Proc.devRef .tc main_arg3) = m ((c : Thread nD τ).loc main_arg3) := (agree_8 m ρ c).2.2.2.2.1.trans (arg3_1 m ρ c)
theorem arg4_8 : W8 m ρ c (Proc.devRef .tc main_arg4) = m ((c : Thread nD τ).loc main_arg4) := (agree_8 m ρ c).2.2.2.2.2.1.trans (arg4_1 m ρ c)
theorem arg5_8 : W8 m ρ c (Proc.devRef .tc main_arg5) = m ((c : Thread nD τ).loc main_arg5) := (agree_8 m ρ c).2.2.2.2.2.2.1.trans (arg5_1 m ρ c)
theorem arg6_8 : W8 m ρ c (Proc.devRef .tc main_arg6) = m ((c : Thread nD τ).loc main_arg6) := (agree_8 m ρ c).2.2.2.2.2.2.2.trans (arg6_1 m ρ c)

theorem src_10 : W10 m ρ c (Proc.devRef .tc main_v1) = Cert.ReferenceIdeal.Read.val_main_v1 (F := Ideal) (m ((c : Thread nD τ).loc main_arg1)) := (agree_10 m ρ c).1.trans (src_1 m ρ c)
theorem dst_10 : W10 m ρ c (Proc.devRef .tc main_v3) = Cert.ReferenceIdeal.Read.val_main_v3 (F := Ideal) (m ((c : Thread nD τ).loc main_arg1)) := (agree_10 m ρ c).2.1.trans (dst_1 m ρ c)
theorem dinv_10 : W10 m ρ c (Proc.devRef .tc main_v12) = Cert.ReferenceIdeal.Read.val_main_v12 (F := Ideal) (m ((c : Thread nD τ).loc main_arg1)) := (agree_10 m ρ c).2.2.1.trans (dinv_1 m ρ c)
theorem arg2_10 : W10 m ρ c (Proc.devRef .tc main_arg2) = m ((c : Thread nD τ).loc main_arg2) := (agree_10 m ρ c).2.2.2.1.trans (arg2_1 m ρ c)
theorem arg3_10 : W10 m ρ c (Proc.devRef .tc main_arg3) = m ((c : Thread nD τ).loc main_arg3) := (agree_10 m ρ c).2.2.2.2.1.trans (arg3_1 m ρ c)
theorem arg4_10 : W10 m ρ c (Proc.devRef .tc main_arg4) = m ((c : Thread nD τ).loc main_arg4) := (agree_10 m ρ c).2.2.2.2.2.1.trans (arg4_1 m ρ c)
theorem arg5_10 : W10 m ρ c (Proc.devRef .tc main_arg5) = m ((c : Thread nD τ).loc main_arg5) := (agree_10 m ρ c).2.2.2.2.2.2.1.trans (arg5_1 m ρ c)
theorem arg6_10 : W10 m ρ c (Proc.devRef .tc main_arg6) = m ((c : Thread nD τ).loc main_arg6) := (agree_10 m ρ c).2.2.2.2.2.2.2.trans (arg6_1 m ρ c)

theorem src_12 : W12 m ρ c (Proc.devRef .tc main_v1) = Cert.ReferenceIdeal.Read.val_main_v1 (F := Ideal) (m ((c : Thread nD τ).loc main_arg1)) := (agree_12 m ρ c).1.trans (src_1 m ρ c)
theorem dst_12 : W12 m ρ c (Proc.devRef .tc main_v3) = Cert.ReferenceIdeal.Read.val_main_v3 (F := Ideal) (m ((c : Thread nD τ).loc main_arg1)) := (agree_12 m ρ c).2.1.trans (dst_1 m ρ c)
theorem dinv_12 : W12 m ρ c (Proc.devRef .tc main_v12) = Cert.ReferenceIdeal.Read.val_main_v12 (F := Ideal) (m ((c : Thread nD τ).loc main_arg1)) := (agree_12 m ρ c).2.2.1.trans (dinv_1 m ρ c)
theorem arg2_12 : W12 m ρ c (Proc.devRef .tc main_arg2) = m ((c : Thread nD τ).loc main_arg2) := (agree_12 m ρ c).2.2.2.1.trans (arg2_1 m ρ c)
theorem arg3_12 : W12 m ρ c (Proc.devRef .tc main_arg3) = m ((c : Thread nD τ).loc main_arg3) := (agree_12 m ρ c).2.2.2.2.1.trans (arg3_1 m ρ c)
theorem arg4_12 : W12 m ρ c (Proc.devRef .tc main_arg4) = m ((c : Thread nD τ).loc main_arg4) := (agree_12 m ρ c).2.2.2.2.2.1.trans (arg4_1 m ρ c)
theorem arg5_12 : W12 m ρ c (Proc.devRef .tc main_arg5) = m ((c : Thread nD τ).loc main_arg5) := (agree_12 m ρ c).2.2.2.2.2.2.1.trans (arg5_1 m ρ c)
theorem arg6_12 : W12 m ρ c (Proc.devRef .tc main_arg6) = m ((c : Thread nD τ).loc main_arg6) := (agree_12 m ρ c).2.2.2.2.2.2.2.trans (arg6_1 m ρ c)

end Cert.KernelIdeal.Fold

end
-- ==== Proof.RunMain.lean ====
/-
  The kernel program's run with its result named.  Every weakly fair execution of the program — seven stretches of
  host operations, each followed by a row-tiled kernel — terminates without a fault; at the end the argument arrays
  hold what they held at launch, and the result array holds what the last boundary of the run holds at it: the
  contents `W14` that the run's fold through the stretches and the kernels' write-backs arrives at.  The value of that
  fold at the result is read elsewhere; here it is only carried out of the run beside the arguments.
-/
import proofs.«101873_j60043642798825_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination, no fault, the result array at the last boundary's contents, the arguments unchanged. -/
theorem run_main : θ_run defs (onTc (τ := τ) (main (F := F))) ⟨m, fun _ => 0, ρ⟩ (fun r => ∀ c : Dev nD,
      r.2.mem ((c.tc : Thread nD τ).loc main_v134) = W14 m ρ c (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v134 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c)⟩)

end Cert.KernelIdeal.RunValue

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.TilePayload.lean ====
/-
  What one grid point's body stores, read at an entry.  The layer's body multiplies its tile of aggregated means by
  Wl and its tile of features by Wr (two products into zero accumulators), adds the two, adds the bias row spread over
  the tile's rows, and takes the maximum with zero: at row p and channel c of the tile that is the layer's entry
  `convAt` of the tile's own rows.  The projection's body multiplies its tile by the weight column and adds the bias:
  `projAt` of the tile's rows.  Each product is read as the plain sum over the contracted index.
-/
import proofs.«101873_j60043642798825_1_alg».proof.Proof.Gen.KernelIdeal.Skeleton
import proofs.«101873_j60043642798825_1_alg».proof.Proof.SageSpec
import proofs.«101873_j60043642798825_1_alg».proof.Proof.LibPlainDot
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx Cert.Sage

/-! ## The two products' dimension numbers: rows against columns -/

theorem sageL0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem sageR1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem projL0 (j : S5000x1.Idx) (k : dot_S5000x128_S128x1_S5000x1_1_0_0_1_n_n.contr.Idx) :
    (dot_S5000x128_S128x1_S5000x1_1_0_0_1_n_n.lhsIdx j k 0).val = (j 0).val := by
  unfold DotDims.lhsIdx
  rw [dif_neg (show ¬(0 : Fin S5000x128.rank) ∈ dot_S5000x128_S128x1_S5000x1_1_0_0_1_n_n.lhsBatch by decide),
    dif_pos (show (0 : Fin S5000x128.rank) ∈ dot_S5000x128_S128x1_S5000x1_1_0_0_1_n_n.lhsNonContracting by decide)]
  rfl

theorem projR1 (j : S5000x1.Idx) (k : dot_S5000x128_S128x1_S5000x1_1_0_0_1_n_n.contr.Idx) :
    (dot_S5000x128_S128x1_S5000x1_1_0_0_1_n_n.rhsIdx j k 1).val = (j 1).val := by
  unfold DotDims.rhsIdx
  rw [dif_neg (show ¬(1 : Fin S128x1.rank) ∈ dot_S5000x128_S128x1_S5000x1_1_0_0_1_n_n.rhsBatch by decide),
    dif_pos (show (1 : Fin S128x1.rank) ∈ dot_S5000x128_S128x1_S5000x1_1_0_0_1_n_n.rhsNonContracting by decide)]
  rfl

/-- A tile's product with a 128 × 128 matrix into the zero accumulator, at an entry. -/
theorem sage_dot_apply (prec : Option ContractPrecision) (a : FVec Ideal S5000x128 .f32) (w : FVec Ideal S128x128 .f32)
    (p : Fin 5000) (c : Fin 128) :
    FloatOps.matmul dot_S5000x128_S128x128_S5000x128_1_0_0_1_n_n prec a w (constant S5000x128 .f32 0x00000000#32) (ix2 p c)
      = ∑ k : Fin 128, a (ix2 p k) * w (ix2 k c) :=
  Cert.LibPlainDot.matmul_zero_apply (M := 5000) (K := 128) (N := 128) dot_S5000x128_S128x128_S5000x128_1_0_0_1_n_n rfl rfl rfl rfl
    sageL0 sageR1 prec a w p c

/-- A tile's product with the weight column into the zero accumulator, at an entry. -/
theorem proj_dot_apply (prec : Option ContractPrecision) (a : FVec Ideal S5000x128 .f32) (w : FVec Ideal S128x1 .f32)
    (p : Fin 5000) (c : Fin 1) :
    FloatOps.matmul dot_S5000x128_S128x1_S5000x1_1_0_0_1_n_n prec a w (constant S5000x1 .f32 0x00000000#32) (ix2 p c)
      = ∑ k : Fin 128, a (ix2 p k) * w (ix2 k c) :=
  Cert.LibPlainDot.matmul_zero_apply (M := 5000) (K := 128) (N := 1) dot_S5000x128_S128x1_S5000x1_1_0_0_1_n_n rfl rfl rfl rfl
    projL0 projR1 prec a w p c

/-- The layer's stored value at row p, channel c of the tile. -/
theorem sage_tile_apply0 (x0 x1 : FVec Ideal S5000x128 .f32) (x2 x3 : FVec Ideal S128x128 .f32) (x4 : FVec Ideal S1x128 .f32)
    (p : Fin 5000) (c : Fin 128) :
    k0_pay1 (F := Ideal) x0 x1 x2 x3 x4 (ix2 p c) = convAt x0 x1 x2 x3 x4 p c := by
  unfold k0_pay1 convAt
  simp only [shapeCast_self]
  show max ((FloatOps.matmul dot_S5000x128_S128x128_S5000x128_1_0_0_1_n_n (some .fp32) x0 x2 (constant S5000x128 .f32 0x00000000#32) (ix2 p c)
      + FloatOps.matmul dot_S5000x128_S128x128_S5000x128_1_0_0_1_n_n (some .fp32) x1 x3 (constant S5000x128 .f32 0x00000000#32) (ix2 p c))
      + broadcastTo S5000x128 x4 broadcasts_S1x128_S5000x128 (ix2 p c)) (Ideal.ofBits .f32 0x00000000#32) = _
  rw [sage_dot_apply, sage_dot_apply, broadcastTo_1b_ab_apply]

/-- The projection's stored value at row p of the tile. -/
theorem proj_tile_apply (x0 : FVec Ideal S5000x128 .f32) (x1 : FVec Ideal S128x1 .f32) (x2 : FVec Ideal S1x1 .f32)
    (p : Fin 5000) (c : Fin 1) :
    k6_pay1 (F := Ideal) x0 x1 x2 (ix2 p c) = projAt x0 x1 x2 p c := by
  unfold k6_pay1 projAt
  simp only [shapeCast_self]
  show FloatOps.matmul dot_S5000x128_S128x1_S5000x1_1_0_0_1_n_n (some .fp32) x0 x1 (constant S5000x1 .f32 0x00000000#32) (ix2 p c)
      + broadcastTo S5000x1 x2 broadcasts_S1x1_S5000x1 (ix2 p c) = _
  rw [proj_dot_apply, broadcastTo_1b_ab_apply]

/-! The later layers' bodies are the first's with one more identity cast; the same reading holds of each. -/

theorem sage_tile_apply1 (x0 x1 : FVec Ideal S5000x128 .f32) (x2 x3 : FVec Ideal S128x128 .f32) (x4 : FVec Ideal S1x128 .f32)
    (p : Fin 5000) (c : Fin 128) :
    k1_pay1 (F := Ideal) x0 x1 x2 x3 x4 (ix2 p c) = convAt x0 x1 x2 x3 x4 p c := by
  unfold k1_pay1 convAt
  simp only [shapeCast_self]
  show max ((FloatOps.matmul dot_S5000x128_S128x128_S5000x128_1_0_0_1_n_n (some .fp32) x0 x2 (constant S5000x128 .f32 0x00000000#32) (ix2 p c)
      + FloatOps.matmul dot_S5000x128_S128x128_S5000x128_1_0_0_1_n_n (some .fp32) x1 x3 (constant S5000x128 .f32 0x00000000#32) (ix2 p c))
      + broadcastTo S5000x128 x4 broadcasts_S1x128_S5000x128 (ix2 p c)) (Ideal.ofBits .f32 0x00000000#32) = _
  rw [sage_dot_apply, sage_dot_apply, broadcastTo_1b_ab_apply]

theorem sage_tile_apply2 (x0 x1 : FVec Ideal S5000x128 .f32) (x2 x3 : FVec Ideal S128x128 .f32) (x4 : FVec Ideal S1x128 .f32)
    (p : Fin 5000) (c : Fin 128) :
    k2_pay1 (F := Ideal) x0 x1 x2 x3 x4 (ix2 p c) = convAt x0 x1 x2 x3 x4 p c := by
  unfold k2_pay1 convAt
  simp only [shapeCast_self]
  show max ((FloatOps.matmul dot_S5000x128_S128x128_S5000x128_1_0_0_1_n_n (some .fp32) x0 x2 (constant S5000x128 .f32 0x00000000#32) (ix2 p c)
      + FloatOps.matmul dot_S5000x128_S128x128_S5000x128_1_0_0_1_n_n (some .fp32) x1 x3 (constant S5000x128 .f32 0x00000000#32) (ix2 p c))
      + broadcastTo S5000x128 x4 broadcasts_S1x128_S5000x128 (ix2 p c)) (Ideal.ofBits .f32 0x00000000#32) = _
  rw [sage_dot_apply, sage_dot_apply, broadcastTo_1b_ab_apply]

theorem sage_tile_apply3 (x0 x1 : FVec Ideal S5000x128 .f32) (x2 x3 : FVec Ideal S128x128 .f32) (x4 : FVec Ideal S1x128 .f32)
    (p : Fin 5000) (c : Fin 128) :
    k3_pay1 (F := Ideal) x0 x1 x2 x3 x4 (ix2 p c) = convAt x0 x1 x2 x3 x4 p c := by
  unfold k3_pay1 convAt
  simp only [shapeCast_self]
  show max ((FloatOps.matmul dot_S5000x128_S128x128_S5000x128_1_0_0_1_n_n (some .fp32) x0 x2 (constant S5000x128 .f32 0x00000000#32) (ix2 p c)
      + FloatOps.matmul dot_S5000x128_S128x128_S5000x128_1_0_0_1_n_n (some .fp32) x1 x3 (constant S5000x128 .f32 0x00000000#32) (ix2 p c))
      + broadcastTo S5000x128 x4 broadcasts_S1x128_S5000x128 (ix2 p c)) (Ideal.ofBits .f32 0x00000000#32) = _
  rw [sage_dot_apply, sage_dot_apply, broadcastTo_1b_ab_apply]

theorem sage_tile_apply4 (x0 x1 : FVec Ideal S5000x128 .f32) (x2 x3 : FVec Ideal S128x128 .f32) (x4 : FVec Ideal S1x128 .f32)
    (p : Fin 5000) (c : Fin 128) :
    k4_pay1 (F := Ideal) x0 x1 x2 x3 x4 (ix2 p c) = convAt x0 x1 x2 x3 x4 p c := by
  unfold k4_pay1 convAt
  simp only [shapeCast_self]
  show max ((FloatOps.matmul dot_S5000x128_S128x128_S5000x128_1_0_0_1_n_n (some .fp32) x0 x2 (constant S5000x128 .f32 0x00000000#32) (ix2 p c)
      + FloatOps.matmul dot_S5000x128_S128x128_S5000x128_1_0_0_1_n_n (some .fp32) x1 x3 (constant S5000x128 .f32 0x00000000#32) (ix2 p c))
      + broadcastTo S5000x128 x4 broadcasts_S1x128_S5000x128 (ix2 p c)) (Ideal.ofBits .f32 0x00000000#32) = _
  rw [sage_dot_apply, sage_dot_apply, broadcastTo_1b_ab_apply]

theorem sage_tile_apply5 (x0 x1 : FVec Ideal S5000x128 .f32) (x2 x3 : FVec Ideal S128x128 .f32) (x4 : FVec Ideal S1x128 .f32)
    (p : Fin 5000) (c : Fin 128) :
    k5_pay1 (F := Ideal) x0 x1 x2 x3 x4 (ix2 p c) = convAt x0 x1 x2 x3 x4 p c := by
  unfold k5_pay1 convAt
  simp only [shapeCast_self]
  show max ((FloatOps.matmul dot_S5000x128_S128x128_S5000x128_1_0_0_1_n_n (some .fp32) x0 x2 (constant S5000x128 .f32 0x00000000#32) (ix2 p c)
      + FloatOps.matmul dot_S5000x128_S128x128_S5000x128_1_0_0_1_n_n (some .fp32) x1 x3 (constant S5000x128 .f32 0x00000000#32) (ix2 p c))
      + broadcastTo S5000x128 x4 broadcasts_S1x128_S5000x128 (ix2 p c)) (Ideal.ofBits .f32 0x00000000#32) = _
  rw [sage_dot_apply, sage_dot_apply, broadcastTo_1b_ab_apply]

end Cert.KernelIdeal.Tile

end
-- ==== Proof.Region0.lean ====
/-
  The first layer's kernel as one function of its five arrays.

  The kernel walks the 100000 nodes in 20 tiles of 5000 rows.  At tile t it holds rows 5000·t … 5000·t + 4999 of the
  aggregated means and of the node features, and the two weight matrices and the bias row whole; what it stores at row p
  and channel q of the tile is the layer's entry of the tile's own rows, and an entry of a layer reads its operands only
  through its own row, so the stored value is the entry of the whole arrays at row 5000·t + p.  Each tile is written
  back to the same rows of the result, and row r lies in tile r / 5000: the result array ends holding the layer of the
  five arrays at every index.
-/
import proofs.«101873_j60043642798825_1_alg».proof.Proof.Gen.KernelIdeal.Frame
import proofs.«101873_j60043642798825_1_alg».proof.Proof.SageSpec
import proofs.«101873_j60043642798825_1_alg».proof.Proof.TilePayload
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The layer of the five arrays as the region finds them. -/
abbrev layer (c : Dev nD) : NF.Idx → EReal :=
  conv (V c main_v24) (V c main_arg0) (V c main_v26) (V c main_v28) (V c main_v31)

/-- The body reads and writes its tiles from their first entry. -/
theorem origin : (![0, 0] : Fin 2 → Nat) = fun _ => 0 := funext fun a => by fin_cases a <;> rfl

/-- Where tile t sits: the two row-tiled inputs and the output at block row t, block column 0; the weights and the bias
    at block (0, 0) at every tile. -/
theorem tile_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_5.index t (0 : Fin 2) = t.val ∧ win0_5.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- There are 20 tiles. -/
theorem tiles : cfg0.N = 20 := N_0

/-- Row p of tile t is a row of the arrays. -/
theorem row_lt (t : Fin cfg0.N) (p : Fin 5000) : t.val * 5000 + p.val < 100000 := by
  have ht : t.val < 20 := tiles ▸ t.isLt
  have hp : p.val < 5000 := p.isLt
  omega

/-! ## What one tile stores, from what its blocks hold -/

/-- A tile whose two row blocks hold row r of the arrays at their row p, and whose weight and bias blocks are the
    arrays, stores at (p, q) the layer's entry (r, q). -/
theorem tile_entry (A0 A1 : NF.Idx → EReal) (wl wr : WW.Idx → EReal) (b : BR.Idx → EReal)
    (x0 x1 : FVec Ideal S5000x128 .f32) (x2 x3 : FVec Ideal S128x128 .f32) (x4 : FVec Ideal S1x128 .f32)
    (p : Fin 5000) (q : Fin 128) (r : Fin 100000)
    (h0 : ∀ k : Fin 128, x0 (ix2 p k) = A0 (ix2 r k)) (h1 : ∀ k : Fin 128, x1 (ix2 p k) = A1 (ix2 r k))
    (h2 : x2 = wl) (h3 : x3 = wr) (h4 : x4 = b) :
    k0_pay1 (F := Ideal) x0 x1 x2 x3 x4 (ix2 p q) = conv A0 A1 wl wr b (ix2 r q) := by
  subst h2 h3 h4
  rw [Tile.sage_tile_apply0, conv_ix2]
  exact convAt_congr x0 x1 A0 A1 x2 x3 x4 p r q h0 h1

/-! ## The blocks of tile t, read off the arrays -/

/-- The block of aggregated means at tile t holds rows 5000·t + p. -/
theorem means_block (c : Dev nD) (t : Fin cfg0.N) (p : Fin 5000) (k : Fin 128) :
    iblk0 V c 0 t (ix2 p k) = V c main_v24 (ix2 ⟨t.val * 5000 + p.val, row_lt t p⟩ k) := by
  obtain ⟨e0, e1, -⟩ := tile_index t
  show V c main_v24 (((cfg0.win 0).blk t).view.emb (ix2 p k)) = V c main_v24 _
  refine congrArg _ (funext fun a => Fin.ext ?_)
  match a with
  | ⟨0, _⟩ => show win0_0.index t (0 : Fin 2) * 5000 + 1 * p.val = t.val * 5000 + p.val; omega
  | ⟨1, _⟩ => show win0_0.index t (1 : Fin 2) * 128 + 1 * k.val = k.val; omega

/-- The block of node features at tile t holds the same rows. -/
theorem feats_block (c : Dev nD) (t : Fin cfg0.N) (p : Fin 5000) (k : Fin 128) :
    iblk0 V c 1 t (ix2 p k) = V c main_arg0 (ix2 ⟨t.val * 5000 + p.val, row_lt t p⟩ k) := by
  obtain ⟨-, -, e0, e1, -⟩ := tile_index t
  show V c main_arg0 (((cfg0.win 1).blk t).view.emb (ix2 p k)) = V c main_arg0 _
  refine congrArg _ (funext fun a => Fin.ext ?_)
  match a with
  | ⟨0, _⟩ => show win0_1.index t (0 : Fin 2) * 5000 + 1 * p.val = t.val * 5000 + p.val; omega
  | ⟨1, _⟩ => show win0_1.index t (1 : Fin 2) * 128 + 1 * k.val = k.val; omega

/-- The first weight matrix is held whole at every tile. -/
theorem wl_block (c : Dev nD) (t : Fin cfg0.N) : iblk0 V c 2 t = V c main_v26 := by
  obtain ⟨-, -, -, -, -, -, e0, e1, -⟩ := tile_index t
  funext y
  show V c main_v26 (((cfg0.win 2).blk t).view.emb y) = V c main_v26 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- So is the second. -/
theorem wr_block (c : Dev nD) (t : Fin cfg0.N) : iblk0 V c 3 t = V c main_v28 := by
  obtain ⟨-, -, -, -, -, -, -, -, e0, e1, -⟩ := tile_index t
  funext y
  show V c main_v28 (((cfg0.win 3).blk t).view.emb y) = V c main_v28 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- And the bias row. -/
theorem bias_block (c : Dev nD) (t : Fin cfg0.N) : iblk0 V c 4 t = V c main_v31 := by
  obtain ⟨-, -, -, -, -, -, -, -, -, -, e0, e1⟩ := tile_index t
  funext y
  show V c main_v31 (((cfg0.win 4).blk t).view.emb y) = V c main_v31 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Entry (p, q) of the output's block at tile t is entry (5000·t + p, q) of the result array. -/
theorem out_block (t : Fin cfg0.N) (p : Fin 5000) (q : Fin 128) :
    ((cfg0.win 5).blk t).view.emb (ix2 p q) = (ix2 ⟨t.val * 5000 + p.val, row_lt t p⟩ q : NF.Idx) := by
  obtain ⟨-, -, -, -, e0, e1, -⟩ := tile_index t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-! ## What tile t writes back -/

/-- Tile t writes back its block of the layer of the five arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5]
  unfold out0_5
  rw [View.canon_unit_zero origin]
  simp only [View.ld_unit_zero (S := S5000x128) origin, View.ld_unit_zero (S := S128x128) origin,
    View.ld_unit_zero (S := S1x128) origin]
  show (k0_pay1 (F := Ideal) (iblk0 V c 0 t) (iblk0 V c 1 t) (iblk0 V c 2 t) (iblk0 V c 3 t) (iblk0 V c 4 t) : S5000x128.Idx → EReal)
    = fun y : S5000x128.Idx => layer V c (((cfg0.win 5).blk t).view.emb y)
  funext y
  obtain ⟨p, q, rfl⟩ : ∃ (p : Fin 5000) (q : Fin 128), y = ix2 p q := ⟨y 0, y 1, eq_ix2 y⟩
  rw [out_block t p q]
  exact tile_entry (V c main_v24) (V c main_arg0) (V c main_v26) (V c main_v28) (V c main_v31)
    (iblk0 V c 0 t) (iblk0 V c 1 t) (iblk0 V c 2 t) (iblk0 V c 3 t) (iblk0 V c 4 t) p q ⟨t.val * 5000 + p.val, row_lt t p⟩
    (fun k => means_block V c t p k) (fun k => feats_block V c t p k) (wl_block V c t) (wr_block V c t) (bias_block V c t)

/-! ## The tiles cover the result -/

/-- An index of the result is in tile t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v32).slice (win0_5.rect t)).set ↔ _
  rw [View.set_slice_whole, Rect.mem_set_unit]
  exact Iff.rfl

/-- Row r is in tile r / 5000, and every tile is written back. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have ht : (i 0).val / 5000 < cfg0.N := by rw [tiles]; omega
  obtain ⟨-, -, -, -, e0, e1, -⟩ := tile_index ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [mem_block]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-! ## The result array -/

/-- After the region the result array holds the layer of the five arrays. -/
theorem value (c : Dev nD) : (dat0 (F := Ideal) V c).arrAt 5 cfg0.N
    = conv (V c main_v24) (V c main_arg0) (V c main_v26) (V c main_v28) (V c main_v31) :=
  (dat0 V c).arrAt_eq_of_cover 5 (layer V c) (fun t _ => flushed_eq V c t) cover

end Cert.KernelIdeal.Region0

end
-- ==== Proof.Region1.lean ====
/-
  The second layer's kernel as one function of its five arrays.

  The kernel walks the 100000 nodes in 20 tiles of 5000 rows.  At tile t it holds rows 5000·t … 5000·t + 4999 of the
  aggregated means and of the node features, and the two weight matrices and the bias row whole; what it stores at row p
  and channel q of the tile is the layer's entry of the tile's own rows, and an entry of a layer reads its operands only
  through its own row, so the stored value is the entry of the whole arrays at row 5000·t + p.  Each tile is written
  back to the same rows of the result, and row r lies in tile r / 5000: the result array ends holding the layer of the
  five arrays at every index.
-/
import proofs.«101873_j60043642798825_1_alg».proof.Proof.Gen.KernelIdeal.Frame
import proofs.«101873_j60043642798825_1_alg».proof.Proof.SageSpec
import proofs.«101873_j60043642798825_1_alg».proof.Proof.TilePayload
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The layer of the five arrays as the region finds them. -/
abbrev layer (c : Dev nD) : NF.Idx → EReal :=
  conv (V c main_v44) (V c main_v32) (V c main_v46) (V c main_v48) (V c main_v51)

/-- The body reads and writes its tiles from their first entry. -/
theorem origin : (![0, 0] : Fin 2 → Nat) = fun _ => 0 := funext fun a => by fin_cases a <;> rfl

/-- Where tile t sits: the two row-tiled inputs and the output at block row t, block column 0; the weights and the bias
    at block (0, 0) at every tile. -/
theorem tile_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_5.index t (0 : Fin 2) = t.val ∧ win1_5.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- There are 20 tiles. -/
theorem tiles : cfg1.N = 20 := N_1

/-- Row p of tile t is a row of the arrays. -/
theorem row_lt (t : Fin cfg1.N) (p : Fin 5000) : t.val * 5000 + p.val < 100000 := by
  have ht : t.val < 20 := tiles ▸ t.isLt
  have hp : p.val < 5000 := p.isLt
  omega

/-! ## What one tile stores, from what its blocks hold -/

/-- A tile whose two row blocks hold row r of the arrays at their row p, and whose weight and bias blocks are the
    arrays, stores at (p, q) the layer's entry (r, q). -/
theorem tile_entry (A0 A1 : NF.Idx → EReal) (wl wr : WW.Idx → EReal) (b : BR.Idx → EReal)
    (x0 x1 : FVec Ideal S5000x128 .f32) (x2 x3 : FVec Ideal S128x128 .f32) (x4 : FVec Ideal S1x128 .f32)
    (p : Fin 5000) (q : Fin 128) (r : Fin 100000)
    (h0 : ∀ k : Fin 128, x0 (ix2 p k) = A0 (ix2 r k)) (h1 : ∀ k : Fin 128, x1 (ix2 p k) = A1 (ix2 r k))
    (h2 : x2 = wl) (h3 : x3 = wr) (h4 : x4 = b) :
    k1_pay1 (F := Ideal) x0 x1 x2 x3 x4 (ix2 p q) = conv A0 A1 wl wr b (ix2 r q) := by
  subst h2 h3 h4
  rw [Tile.sage_tile_apply1, conv_ix2]
  exact convAt_congr x0 x1 A0 A1 x2 x3 x4 p r q h0 h1

/-! ## The blocks of tile t, read off the arrays -/

/-- The block of aggregated means at tile t holds rows 5000·t + p. -/
theorem means_block (c : Dev nD) (t : Fin cfg1.N) (p : Fin 5000) (k : Fin 128) :
    iblk1 V c 0 t (ix2 p k) = V c main_v44 (ix2 ⟨t.val * 5000 + p.val, row_lt t p⟩ k) := by
  obtain ⟨e0, e1, -⟩ := tile_index t
  show V c main_v44 (((cfg1.win 0).blk t).view.emb (ix2 p k)) = V c main_v44 _
  refine congrArg _ (funext fun a => Fin.ext ?_)
  match a with
  | ⟨0, _⟩ => show win1_0.index t (0 : Fin 2) * 5000 + 1 * p.val = t.val * 5000 + p.val; omega
  | ⟨1, _⟩ => show win1_0.index t (1 : Fin 2) * 128 + 1 * k.val = k.val; omega

/-- The block of node features at tile t holds the same rows. -/
theorem feats_block (c : Dev nD) (t : Fin cfg1.N) (p : Fin 5000) (k : Fin 128) :
    iblk1 V c 1 t (ix2 p k) = V c main_v32 (ix2 ⟨t.val * 5000 + p.val, row_lt t p⟩ k) := by
  obtain ⟨-, -, e0, e1, -⟩ := tile_index t
  show V c main_v32 (((cfg1.win 1).blk t).view.emb (ix2 p k)) = V c main_v32 _
  refine congrArg _ (funext fun a => Fin.ext ?_)
  match a with
  | ⟨0, _⟩ => show win1_1.index t (0 : Fin 2) * 5000 + 1 * p.val = t.val * 5000 + p.val; omega
  | ⟨1, _⟩ => show win1_1.index t (1 : Fin 2) * 128 + 1 * k.val = k.val; omega

/-- The first weight matrix is held whole at every tile. -/
theorem wl_block (c : Dev nD) (t : Fin cfg1.N) : iblk1 V c 2 t = V c main_v46 := by
  obtain ⟨-, -, -, -, -, -, e0, e1, -⟩ := tile_index t
  funext y
  show V c main_v46 (((cfg1.win 2).blk t).view.emb y) = V c main_v46 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- So is the second. -/
theorem wr_block (c : Dev nD) (t : Fin cfg1.N) : iblk1 V c 3 t = V c main_v48 := by
  obtain ⟨-, -, -, -, -, -, -, -, e0, e1, -⟩ := tile_index t
  funext y
  show V c main_v48 (((cfg1.win 3).blk t).view.emb y) = V c main_v48 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- And the bias row. -/
theorem bias_block (c : Dev nD) (t : Fin cfg1.N) : iblk1 V c 4 t = V c main_v51 := by
  obtain ⟨-, -, -, -, -, -, -, -, -, -, e0, e1⟩ := tile_index t
  funext y
  show V c main_v51 (((cfg1.win 4).blk t).view.emb y) = V c main_v51 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- Entry (p, q) of the output's block at tile t is entry (5000·t + p, q) of the result array. -/
theorem out_block (t : Fin cfg1.N) (p : Fin 5000) (q : Fin 128) :
    ((cfg1.win 5).blk t).view.emb (ix2 p q) = (ix2 ⟨t.val * 5000 + p.val, row_lt t p⟩ q : NF.Idx) := by
  obtain ⟨-, -, -, -, e0, e1, -⟩ := tile_index t
  refine funext fun a => Fin.ext ?_
  match a with
  | ⟨0, _⟩ => show win1_5.index t (0 : Fin 2) * 5000 + 1 * p.val = t.val * 5000 + p.val; omega
  | ⟨1, _⟩ => show win1_5.index t (1 : Fin 2) * 128 + 1 * q.val = q.val; omega

/-! ## What tile t writes back -/

/-- Tile t writes back its block of the layer of the five arrays. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5]
  unfold out1_5
  rw [View.canon_unit_zero origin]
  simp only [View.ld_unit_zero (S := S5000x128) origin, View.ld_unit_zero (S := S128x128) origin,
    View.ld_unit_zero (S := S1x128) origin]
  show (k1_pay1 (F := Ideal) (iblk1 V c 0 t) (iblk1 V c 1 t) (iblk1 V c 2 t) (iblk1 V c 3 t) (iblk1 V c 4 t) : S5000x128.Idx → EReal)
    = fun y : S5000x128.Idx => layer V c (((cfg1.win 5).blk t).view.emb y)
  funext y
  obtain ⟨p, q, rfl⟩ : ∃ (p : Fin 5000) (q : Fin 128), y = ix2 p q := ⟨y 0, y 1, eq_ix2 y⟩
  rw [out_block t p q]
  exact tile_entry (V c main_v44) (V c main_v32) (V c main_v46) (V c main_v48) (V c main_v51)
    (iblk1 V c 0 t) (iblk1 V c 1 t) (iblk1 V c 2 t) (iblk1 V c 3 t) (iblk1 V c 4 t) p q ⟨t.val * 5000 + p.val, row_lt t p⟩
    (fun k => means_block V c t p k) (fun k => feats_block V c t p k) (wl_block V c t) (wr_block V c t) (bias_block V c t)

/-! ## The tiles cover the result -/

/-- An index of the result is in tile t's block iff each coordinate is in the block's range on its axis. -/
theorem mem_block (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v52).slice (win1_5.rect t)).set ↔ _
  rw [View.set_slice_whole, Rect.mem_set_unit]
  exact Iff.rfl

/-- Row r is in tile r / 5000, and every tile is written back. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have ht : (i 0).val / 5000 < cfg1.N := by rw [tiles]; omega
  obtain ⟨-, -, -, -, e0, e1, -⟩ := tile_index ⟨(i 0).val / 5000, ht⟩
  have e0' : win1_5.index ⟨(i 0).val / 5000, ht⟩ (0 : Fin 2) = (i 0).val / 5000 := e0
  refine ⟨⟨(i 0).val / 5000, ht⟩, flush1_5 _, ?_⟩
  rw [mem_block]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val
      ∧ (i 1).val < win1_5.index ⟨(i 0).val / 5000, ht⟩ (1 : Fin 2) * 128 + 128
    omega

/-! ## The result array -/

/-- After the region the result array holds the layer of the five arrays. -/
theorem value (c : Dev nD) : (dat1 (F := Ideal) V c).arrAt 5 cfg1.N
    = conv (V c main_v44) (V c main_v32) (V c main_v46) (V c main_v48) (V c main_v51) :=
  (dat1 V c).arrAt_eq_of_cover 5 (layer V c) (fun t _ => flushed_eq V c t) cover

end Cert.KernelIdeal.Region1

end
-- ==== Proof.Region2.lean ====
/-
  The third layer's kernel as one function of its five arrays.

  The kernel walks the 100000 nodes in 20 tiles of 5000 rows.  At tile t it holds rows 5000·t … 5000·t + 4999 of the
  aggregated means and of the node features, and the two weight matrices and the bias row whole; what it stores at row p
  and channel q of the tile is the layer's entry of the tile's own rows, and an entry of a layer reads its operands only
  through its own row, so the stored value is the entry of the whole arrays at row 5000·t + p.  Each tile is written
  back to the same rows of the result, and row r lies in tile r / 5000: the result array ends holding the layer of the
  five arrays at every index.
-/
import proofs.«101873_j60043642798825_1_alg».proof.Proof.Gen.KernelIdeal.Frame
import proofs.«101873_j60043642798825_1_alg».proof.Proof.SageSpec
import proofs.«101873_j60043642798825_1_alg».proof.Proof.TilePayload
import Idealize.ShloMosaic.Lib.Pipeline.Value
import Idealize.ShloMosaic.Lib.ValueIdx

noncomputable section

namespace Cert.KernelIdeal.Region2

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The layer of the five arrays as the region finds them. -/
abbrev layer (c : Dev nD) : NF.Idx → EReal :=
  conv (V c main_v64) (V c main_v52) (V c main_v66) (V c main_v68) (V c main_v71)

/-- The body reads and writes its tiles from their first entry. -/
theorem origin : (![0, 0] : Fin 2 → Nat) = fun _ => 0 := funext fun a => by fin_cases a <;> rfl

/-- Where tile t sits: the two row-tiled inputs and the output at block row t, block column 0; the weights and the bias
    at block (0, 0) at every tile. -/
theorem tile_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- There are 20 tiles. -/
theorem tiles : cfg2.N = 20 := N_2

/-- Row p of tile t is a row of the arrays. -/
theorem row_lt (t : Fin cfg2.N) (p : Fin 5000) : t.val * 5000 + p.val < 100000 := by
  have ht : t.val < 20 := tiles ▸ t.isLt
  have hp : p.val < 5000 := p.isLt
  omega

/-! ## What one tile stores, from what its blocks hold -/

/-- A tile whose two row blocks hold row r of the arrays at their row p, and whose weight and bias blocks are the
    arrays, stores at (p, q) the layer's entry (r, q). -/
theorem tile_entry (A0 A1 : NF.Idx → EReal) (wl wr : WW.Idx → EReal) (b : BR.Idx → EReal)
    (x0 x1 : FVec Ideal S5000x128 .f32) (x2 x3 : FVec Ideal S128x128 .f32) (x4 : FVec Ideal S1x128 .f32)
    (p : Fin 5000) (q : Fin 128) (r : Fin 100000)
    (h0 : ∀ k : Fin 128, x0 (ix2 p k) = A0 (ix2 r k)) (h1 : ∀ k : Fin 128, x1 (ix2 p k) = A1 (ix2 r k))
    (h2 : x2 = wl) (h3 : x3 = wr) (h4 : x4 = b) :
    k2_pay1 (F := Ideal) x0 x1 x2 x3 x4 (ix2 p q) = conv A0 A1 wl wr b (ix2 r q) := by
  subst h2 h3 h4
  rw [Tile.sage_tile_apply2, conv_ix2]
  exact convAt_congr x0 x1 A0 A1 x2 x3 x4 p r q h0 h1

/-! ## The blocks of tile t, read off the arrays -/

/-- The block of aggregated means at tile t holds rows 5000·t + p. -/
theorem means_block (c : Dev nD) (t : Fin cfg2.N) (p : Fin 5000) (k : Fin 128) :
    iblk2 V c 0 t (ix2 p k) = V c main_v64 (ix2 ⟨t.val * 5000 + p.val, row_lt t p⟩ k) := by
  obtain ⟨e0, e1, -⟩ := tile_index t
  show V c main_v64 (((cfg2.win 0).blk t).view.emb (ix2 p k)) = V c main_v64 _
  refine congrArg _ (funext fun a => Fin.ext ?_)
  match a with
  | ⟨0, _⟩ => show win2_0.index t (0 : Fin 2) * 5000 + 1 * p.val = t.val * 5000 + p.val; omega
  | ⟨1, _⟩ => show win2_0.index t (1 : Fin 2) * 128 + 1 * k.val = k.val; omega

/-- The block of node features at tile t holds the same rows. -/
theorem feats_block (c : Dev nD) (t : Fin cfg2.N) (p : Fin 5000) (k : Fin 128) :
    iblk2 V c 1 t (ix2 p k) = V c main_v52 (ix2 ⟨t.val * 5000 + p.val, row_lt t p⟩ k) := by
  obtain ⟨-, -, e0, e1, -⟩ := tile_index t
  show V c main_v52 (((cfg2.win 1).blk t).view.emb (ix2 p k)) = V c main_v52 _
  refine congrArg _ (funext fun a => Fin.ext ?_)
  match a with
  | ⟨0, _⟩ => show win2_1.index t (0 : Fin 2) * 5000 + 1 * p.val = t.val * 5000 + p.val; omega
  | ⟨1, _⟩ => show win2_1.index t (1 : Fin 2) * 128 + 1 * k.val = k.val; omega

/-- The first weight matrix is held whole at every tile. -/
theorem wl_block (c : Dev nD) (t : Fin cfg2.N) : iblk2 V c 2 t = V c main_v66 := by
  obtain ⟨-, -, -, -, -, -, e0, e1, -⟩ := tile_index t
  funext y
  show V c main_v66 (((cfg2.win 2).blk t).view.emb y) = V c main_v66 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- So is the second. -/
theorem wr_block (c : Dev nD) (t : Fin cfg2.N) : iblk2 V c 3 t = V c main_v68 := by
  obtain ⟨-, -, -, -, -, -, -, -, e0, e1, -⟩ := tile_index t
  funext y
  show V c main_v68 (((cfg2.win 3).blk t).view.emb y) = V c main_v68 y
  refine congrArg _ (funext fun a => Fin.ext ?_)
  match a with
  | ⟨0, _⟩ => show win2_3.index t (0 : Fin 2) * 128 + 1 * (y 0).val = (y 0).val; omega
  | ⟨1, _⟩ => show win2_3.index t (1 : Fin 2) * 128 + 1 * (y 1).val = (y 1).val; omega

/-- And the bias row. -/
theorem bias_block (c : Dev nD) (t : Fin cfg2.N) : iblk2 V c 4 t = V c main_v71 := by
  obtain ⟨-, -, -, -, -, -, -, -, -, -, e0, e1⟩ := tile_index t
  funext y
  show V c main_v71 (((cfg2.win 4).blk t).view.emb y) = V c main_v71 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Entry (p, q) of the output's block at tile t is entry (5000·t + p, q) of the result array. -/
theorem out_block (t : Fin cfg2.N) (p : Fin 5000) (q : Fin 128) :
    ((cfg2.win 5).blk t).view.emb (ix2 p q) = (ix2 ⟨t.val * 5000 + p.val, row_lt t p⟩ q : NF.Idx) := by
  obtain ⟨-, -, -, -, e0, e1, -⟩ := tile_index t
  refine funext fun a => Fin.ext ?_
  match a with
  | ⟨0, _⟩ => show win2_5.index t (0 : Fin 2) * 5000 + 1 * p.val = t.val * 5000 + p.val; omega
  | ⟨1, _⟩ => show win2_5.index t (1 : Fin 2) * 128 + 1 * q.val = q.val; omega

/-! ## What tile t writes back -/

/-- Tile t writes back its block of the layer of the five arrays. -/
theorem flushed_eq (c : Dev nD) (t : Fin cfg2.N) :
    (dat2 V c).flushed 5 t = ((cfg2.win 5).blk t).view.read (Elt Ideal) (layer V c) := by
  show (cfg2.win 5).cut (grid2.coords t) ((dat2 V c).after 5 t) = _
  rw [after2_5]
  unfold out2_5
  rw [View.canon_unit_zero origin]
  simp only [View.ld_unit_zero (S := S5000x128) origin, View.ld_unit_zero (S := S128x128) origin,
    View.ld_unit_zero (S := S1x128) origin]
  show (k2_pay1 (F := Ideal) (iblk2 V c 0 t) (iblk2 V c 1 t) (iblk2 V c 2 t) (iblk2 V c 3 t) (iblk2 V c 4 t) : S5000x128.Idx → EReal)
    = fun y : S5000x128.Idx => layer V c (((cfg2.win 5).blk t).view.emb y)
  funext y
  obtain ⟨p, q, rfl⟩ : ∃ (p : Fin 5000) (q : Fin 128), y = ix2 p q := ⟨y 0, y 1, eq_ix2 y⟩
  rw [out_block t p q]
  exact tile_entry (V c main_v64) (V c main_v52) (V c main_v66) (V c main_v68) (V c main_v71)
    (iblk2 V c 0 t) (iblk2 V c 1 t) (iblk2 V c 2 t) (iblk2 V c 3 t) (iblk2 V c 4 t) p q ⟨t.val * 5000 + p.val, row_lt t p⟩
    (fun k => means_block V c t p k) (fun k => feats_block V c t p k) (wl_block V c t) (wr_block V c t) (bias_block V c t)

/-! ## The tiles cover the result -/

/-- An index of the result is in tile t's block iff each coordinate is in the block's range on its axis. -/
theorem mem_block (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v72).slice (win2_5.rect t)).set ↔ _
  rw [View.set_slice_whole, Rect.mem_set_unit]
  exact Iff.rfl

/-- Row r is in tile r / 5000, and every tile is written back. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have ht : (i 0).val / 5000 < cfg2.N := by rw [tiles]; omega
  obtain ⟨-, -, -, -, e0, e1, -⟩ := tile_index ⟨(i 0).val / 5000, ht⟩
  have e0' : win2_5.index ⟨(i 0).val / 5000, ht⟩ (0 : Fin 2) = (i 0).val / 5000 := e0
  refine ⟨⟨(i 0).val / 5000, ht⟩, flush2_5 _, ?_⟩
  rw [mem_block]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    omega

/-! ## The result array -/

/-- After the region the result array holds the layer of the five arrays. -/
theorem value (c : Dev nD) : (dat2 (F := Ideal) V c).arrAt 5 cfg2.N
    = conv (V c main_v64) (V c main_v52) (V c main_v66) (V c main_v68) (V c main_v71) :=
  (dat2 V c).arrAt_eq_of_cover 5 (layer V c) (fun t _ => flushed_eq V c t) cover

end Cert.KernelIdeal.Region2

end
-- ==== Proof.Region3.lean ====
/-
  The fourth layer's kernel as one function of its five arrays.

  The kernel walks the 100000 nodes in 20 tiles of 5000 rows.  At tile t it holds rows 5000·t … 5000·t + 4999 of the
  aggregated means and of the node features, and the two weight matrices and the bias row whole; what it stores at row p
  and channel q of the tile is the layer's entry of the tile's own rows, and an entry of a layer reads its operands only
  through its own row, so the stored value is the entry of the whole arrays at row 5000·t + p.  Each tile is written
  back to the same rows of the result, and row r lies in tile r / 5000: the result array ends holding the layer of the
  five arrays at every index.
-/
import proofs.«101873_j60043642798825_1_alg».proof.Proof.Gen.KernelIdeal.Frame
import proofs.«101873_j60043642798825_1_alg».proof.Proof.SageSpec
import proofs.«101873_j60043642798825_1_alg».proof.Proof.TilePayload
import Idealize.ShloMosaic.Lib.Pipeline.Value
import Idealize.ShloMosaic.Lib.ValueIdx

noncomputable section

namespace Cert.KernelIdeal.Region3

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The layer of the five arrays as the region finds them. -/
abbrev layer (c : Dev nD) : NF.Idx → EReal :=
  conv (V c main_v84) (V c main_v72) (V c main_v86) (V c main_v88) (V c main_v91)

/-- The body reads and writes its tiles from their first entry. -/
theorem origin : (![0, 0] : Fin 2 → Nat) = fun _ => 0 := funext fun a => by fin_cases a <;> rfl

/-- Where tile t sits: the two row-tiled inputs and the output at block row t, block column 0; the weights and the bias
    at block (0, 0) at every tile. -/
theorem tile_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_5.index t (0 : Fin 2) = t.val ∧ win3_5.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- There are 20 tiles. -/
theorem tiles : cfg3.N = 20 := N_3

/-- Row p of tile t is a row of the arrays. -/
theorem row_lt (t : Fin cfg3.N) (p : Fin 5000) : t.val * 5000 + p.val < 100000 := by
  have ht : t.val < 20 := tiles ▸ t.isLt
  have hp : p.val < 5000 := p.isLt
  omega

/-! ## What one tile stores, from what its blocks hold -/

/-- A tile whose two row blocks hold row r of the arrays at their row p, and whose weight and bias blocks are the
    arrays, stores at (p, q) the layer's entry (r, q). -/
theorem tile_entry (A0 A1 : NF.Idx → EReal) (wl wr : WW.Idx → EReal) (b : BR.Idx → EReal)
    (x0 x1 : FVec Ideal S5000x128 .f32) (x2 x3 : FVec Ideal S128x128 .f32) (x4 : FVec Ideal S1x128 .f32)
    (p : Fin 5000) (q : Fin 128) (r : Fin 100000)
    (h0 : ∀ k : Fin 128, x0 (ix2 p k) = A0 (ix2 r k)) (h1 : ∀ k : Fin 128, x1 (ix2 p k) = A1 (ix2 r k))
    (h2 : x2 = wl) (h3 : x3 = wr) (h4 : x4 = b) :
    k3_pay1 (F := Ideal) x0 x1 x2 x3 x4 (ix2 p q) = conv A0 A1 wl wr b (ix2 r q) := by
  subst h2 h3 h4
  rw [Tile.sage_tile_apply3, conv_ix2]
  exact convAt_congr x0 x1 A0 A1 x2 x3 x4 p r q h0 h1

/-! ## The blocks of tile t, read off the arrays -/

/-- The block of aggregated means at tile t holds rows 5000·t + p. -/
theorem means_block (c : Dev nD) (t : Fin cfg3.N) (p : Fin 5000) (k : Fin 128) :
    iblk3 V c 0 t (ix2 p k) = V c main_v84 (ix2 ⟨t.val * 5000 + p.val, row_lt t p⟩ k) := by
  obtain ⟨e0, e1, -⟩ := tile_index t
  show V c main_v84 (((cfg3.win 0).blk t).view.emb (ix2 p k)) = V c main_v84 _
  refine congrArg _ (funext fun a => Fin.ext ?_)
  match a with
  | ⟨0, _⟩ => show win3_0.index t (0 : Fin 2) * 5000 + 1 * p.val = t.val * 5000 + p.val; omega
  | ⟨1, _⟩ => show win3_0.index t (1 : Fin 2) * 128 + 1 * k.val = k.val; omega

/-- The block of node features at tile t holds the same rows. -/
theorem feats_block (c : Dev nD) (t : Fin cfg3.N) (p : Fin 5000) (k : Fin 128) :
    iblk3 V c 1 t (ix2 p k) = V c main_v72 (ix2 ⟨t.val * 5000 + p.val, row_lt t p⟩ k) := by
  obtain ⟨-, -, e0, e1, -⟩ := tile_index t
  show V c main_v72 (((cfg3.win 1).blk t).view.emb (ix2 p k)) = V c main_v72 _
  refine congrArg _ (funext fun a => Fin.ext ?_)
  match a with
  | ⟨0, _⟩ => show win3_1.index t (0 : Fin 2) * 5000 + 1 * p.val = t.val * 5000 + p.val; omega
  | ⟨1, _⟩ => show win3_1.index t (1 : Fin 2) * 128 + 1 * k.val = k.val; omega

/-- The first weight matrix is held whole at every tile. -/
theorem wl_block (c : Dev nD) (t : Fin cfg3.N) : iblk3 V c 2 t = V c main_v86 := by
  obtain ⟨-, -, -, -, -, -, e0, e1, -⟩ := tile_index t
  funext y
  show V c main_v86 (((cfg3.win 2).blk t).view.emb y) = V c main_v86 y
  refine congrArg _ (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- So is the second. -/
theorem wr_block (c : Dev nD) (t : Fin cfg3.N) : iblk3 V c 3 t = V c main_v88 := by
  obtain ⟨-, -, -, -, -, -, -, -, e0, e1, -⟩ := tile_index t
  funext y
  show V c main_v88 (((cfg3.win 3).blk t).view.emb y) = V c main_v88 y
  refine congrArg _ (funext fun a => Fin.ext ?_)
  match a with
  | ⟨0, _⟩ => show win3_3.index t (0 : Fin 2) * 128 + 1 * (y 0).val = (y 0).val; omega
  | ⟨1, _⟩ => show win3_3.index t (1 : Fin 2) * 128 + 1 * (y 1).val = (y 1).val; omega

/-- And the bias row. -/
theorem bias_block (c : Dev nD) (t : Fin cfg3.N) : iblk3 V c 4 t = V c main_v91 := by
  obtain ⟨-, -, -, -, -, -, -, -, -, -, e0, e1⟩ := tile_index t
  funext y
  show V c main_v91 (((cfg3.win 4).blk t).view.emb y) = V c main_v91 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- Entry (p, q) of the output's block at tile t is entry (5000·t + p, q) of the result array. -/
theorem out_block (t : Fin cfg3.N) (p : Fin 5000) (q : Fin 128) :
    ((cfg3.win 5).blk t).view.emb (ix2 p q) = (ix2 ⟨t.val * 5000 + p.val, row_lt t p⟩ q : NF.Idx) := by
  obtain ⟨-, -, -, -, e0, e1, -⟩ := tile_index t
  refine funext fun a => Fin.ext ?_
  match a with
  | ⟨0, _⟩ => show win3_5.index t (0 : Fin 2) * 5000 + 1 * p.val = t.val * 5000 + p.val; omega
  | ⟨1, _⟩ => show win3_5.index t (1 : Fin 2) * 128 + 1 * q.val = q.val; omega

/-! ## What tile t writes back -/

/-- Tile t writes back its block of the layer of the five arrays. -/
theorem flushed_eq (c : Dev nD) (t : Fin cfg3.N) :
    (dat3 V c).flushed 5 t = ((cfg3.win 5).blk t).view.read (Elt Ideal) (layer V c) := by
  show (cfg3.win 5).cut (grid3.coords t) ((dat3 V c).after 5 t) = _
  rw [after3_5]
  unfold out3_5
  rw [View.canon_unit_zero origin]
  simp only [View.ld_unit_zero (S := S5000x128) origin, View.ld_unit_zero (S := S128x128) origin,
    View.ld_unit_zero (S := S1x128) origin]
  show (k3_pay1 (F := Ideal) (iblk3 V c 0 t) (iblk3 V c 1 t) (iblk3 V c 2 t) (iblk3 V c 3 t) (iblk3 V c 4 t) : S5000x128.Idx → EReal)
    = fun y : S5000x128.Idx => layer V c (((cfg3.win 5).blk t).view.emb y)
  funext y
  obtain ⟨p, q, rfl⟩ : ∃ (p : Fin 5000) (q : Fin 128), y = ix2 p q := ⟨y 0, y 1, eq_ix2 y⟩
  rw [out_block t p q]
  exact tile_entry (V c main_v84) (V c main_v72) (V c main_v86) (V c main_v88) (V c main_v91)
    (iblk3 V c 0 t) (iblk3 V c 1 t) (iblk3 V c 2 t) (iblk3 V c 3 t) (iblk3 V c 4 t) p q ⟨t.val * 5000 + p.val, row_lt t p⟩
    (fun k => means_block V c t p k) (fun k => feats_block V c t p k) (wl_block V c t) (wr_block V c t) (bias_block V c t)

/-! ## The tiles cover the result -/

/-- An index of the result is in tile t's block iff each coordinate is in the block's range on its axis. -/
theorem mem_block (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v92).slice (win3_5.rect t)).set ↔ _
  rw [View.set_slice_whole, Rect.mem_set_unit]
  exact Iff.rfl

/-- Row r is in tile r / 5000, and every tile is written back. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have ht : (i 0).val / 5000 < cfg3.N := by rw [tiles]; omega
  obtain ⟨-, -, -, -, e0, e1, -⟩ := tile_index ⟨(i 0).val / 5000, ht⟩
  have e0' : win3_5.index ⟨(i 0).val / 5000, ht⟩ (0 : Fin 2) = (i 0).val / 5000 := e0
  refine ⟨⟨(i 0).val / 5000, ht⟩, flush3_5 _, ?_⟩
  rw [mem_block]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    omega
  | ⟨1, _⟩ =>
    show win3_5.index ⟨(i 0).val / 5000, ht⟩ (1 : Fin 2) * 128 ≤ (i 1).val
      ∧ (i 1).val < win3_5.index ⟨(i 0).val / 5000, ht⟩ (1 : Fin 2) * 128 + 128
    omega

/-! ## The result array -/

/-- After the region the result array holds the layer of the five arrays. -/
theorem value (c : Dev nD) : (dat3 (F := Ideal) V c).arrAt 5 cfg3.N
    = conv (V c main_v84) (V c main_v72) (V c main_v86) (V c main_v88) (V c main_v91) :=
  (dat3 V c).arrAt_eq_of_cover 5 (layer V c) (fun t _ => flushed_eq V c t) cover

end Cert.KernelIdeal.Region3

end
-- ==== Proof.Region4.lean ====
/-
  The fifth layer's kernel as one function of its five arrays.

  The kernel walks the 100000 nodes in 20 tiles of 5000 rows.  At tile t it holds rows 5000·t … 5000·t + 4999 of the
  aggregated means and of the node features, and the two weight matrices and the bias row whole; what it stores at row p
  and channel q of the tile is the layer's entry of the tile's own rows, and an entry of a layer reads its operands only
  through its own row, so the stored value is the entry of the whole arrays at row 5000·t + p.  Each tile is written
  back to the same rows of the result, and row r lies in tile r / 5000: the result array ends holding the layer of the
  five arrays at every index.
-/
import proofs.«101873_j60043642798825_1_alg».proof.Proof.Gen.KernelIdeal.Frame
import proofs.«101873_j60043642798825_1_alg».proof.Proof.SageSpec
import proofs.«101873_j60043642798825_1_alg».proof.Proof.TilePayload
import Idealize.ShloMosaic.Lib.Pipeline.Value
import Idealize.ShloMosaic.Lib.ValueIdx

noncomputable section

namespace Cert.KernelIdeal.Region4

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The layer of the five arrays as the region finds them. -/
abbrev layer (c : Dev nD) : NF.Idx → EReal :=
  conv (V c main_v104) (V c main_v92) (V c main_v106) (V c main_v108) (V c main_v111)

/-- The body reads and writes its tiles from their first entry. -/
theorem origin : (![0, 0] : Fin 2 → Nat) = fun _ => 0 := funext fun a => by fin_cases a <;> rfl

/-- Where tile t sits: the two row-tiled inputs and the output at block row t, block column 0; the weights and the bias
    at block (0, 0) at every tile. -/
theorem tile_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_5.index t (0 : Fin 2) = t.val ∧ win4_5.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- There are 20 tiles. -/
theorem tiles : cfg4.N = 20 := N_4

/-- Row p of tile t is a row of the arrays. -/
theorem row_lt (t : Fin cfg4.N) (p : Fin 5000) : t.val * 5000 + p.val < 100000 := by
  have ht : t.val < 20 := tiles ▸ t.isLt
  have hp : p.val < 5000 := p.isLt
  omega

/-! ## What one tile stores, from what its blocks hold -/

/-- A tile whose two row blocks hold row r of the arrays at their row p, and whose weight and bias blocks are the
    arrays, stores at (p, q) the layer's entry (r, q). -/
theorem tile_entry (A0 A1 : NF.Idx → EReal) (wl wr : WW.Idx → EReal) (b : BR.Idx → EReal)
    (x0 x1 : FVec Ideal S5000x128 .f32) (x2 x3 : FVec Ideal S128x128 .f32) (x4 : FVec Ideal S1x128 .f32)
    (p : Fin 5000) (q : Fin 128) (r : Fin 100000)
    (h0 : ∀ k : Fin 128, x0 (ix2 p k) = A0 (ix2 r k)) (h1 : ∀ k : Fin 128, x1 (ix2 p k) = A1 (ix2 r k))
    (h2 : x2 = wl) (h3 : x3 = wr) (h4 : x4 = b) :
    k4_pay1 (F := Ideal) x0 x1 x2 x3 x4 (ix2 p q) = conv A0 A1 wl wr b (ix2 r q) := by
  subst h2 h3 h4
  rw [Tile.sage_tile_apply4, conv_ix2]
  exact convAt_congr x0 x1 A0 A1 x2 x3 x4 p r q h0 h1

/-! ## The blocks of tile t, read off the arrays -/

/-- The block of aggregated means at tile t holds rows 5000·t + p. -/
theorem means_block (c : Dev nD) (t : Fin cfg4.N) (p : Fin 5000) (k : Fin 128) :
    iblk4 V c 0 t (ix2 p k) = V c main_v104 (ix2 ⟨t.val * 5000 + p.val, row_lt t p⟩ k) := by
  obtain ⟨e0, e1, -⟩ := tile_index t
  show V c main_v104 (((cfg4.win 0).blk t).view.emb (ix2 p k)) = V c main_v104 _
  refine congrArg _ (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * k.val = k.val; omega

/-- The block of node features at tile t holds the same rows. -/
theorem feats_block (c : Dev nD) (t : Fin cfg4.N) (p : Fin 5000) (k : Fin 128) :
    iblk4 V c 1 t (ix2 p k) = V c main_v92 (ix2 ⟨t.val * 5000 + p.val, row_lt t p⟩ k) := by
  obtain ⟨-, -, e0, e1, -⟩ := tile_index t
  show V c main_v92 (((cfg4.win 1).blk t).view.emb (ix2 p k)) = V c main_v92 _
  refine congrArg _ (funext fun a => Fin.ext ?_)
  match a with
  | ⟨0, _⟩ => show win4_1.index t (0 : Fin 2) * 5000 + 1 * p.val = t.val * 5000 + p.val; omega
  | ⟨1, _⟩ => show win4_1.index t (1 : Fin 2) * 128 + 1 * k.val = k.val; omega

/-- The first weight matrix is held whole at every tile. -/
theorem wl_block (c : Dev nD) (t : Fin cfg4.N) : iblk4 V c 2 t = V c main_v106 := by
  obtain ⟨-, -, -, -, -, -, e0, e1, -⟩ := tile_index t
  funext y
  show V c main_v106 (((cfg4.win 2).blk t).view.emb y) = V c main_v106 y
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- So is the second. -/
theorem wr_block (c : Dev nD) (t : Fin cfg4.N) : iblk4 V c 3 t = V c main_v108 := by
  obtain ⟨-, -, -, -, -, -, -, -, e0, e1, -⟩ := tile_index t
  funext y
  show V c main_v108 (((cfg4.win 3).blk t).view.emb y) = V c main_v108 y
  refine congrArg _ (funext fun a => Fin.ext ?_)
  match a with
  | ⟨0, _⟩ => show win4_3.index t (0 : Fin 2) * 128 + 1 * (y 0).val = (y 0).val; omega
  | ⟨1, _⟩ => show win4_3.index t (1 : Fin 2) * 128 + 1 * (y 1).val = (y 1).val; omega

/-- And the bias row. -/
theorem bias_block (c : Dev nD) (t : Fin cfg4.N) : iblk4 V c 4 t = V c main_v111 := by
  obtain ⟨-, -, -, -, -, -, -, -, -, -, e0, e1⟩ := tile_index t
  funext y
  show V c main_v111 (((cfg4.win 4).blk t).view.emb y) = V c main_v111 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Entry (p, q) of the output's block at tile t is entry (5000·t + p, q) of the result array. -/
theorem out_block (t : Fin cfg4.N) (p : Fin 5000) (q : Fin 128) :
    ((cfg4.win 5).blk t).view.emb (ix2 p q) = (ix2 ⟨t.val * 5000 + p.val, row_lt t p⟩ q : NF.Idx) := by
  obtain ⟨-, -, -, -, e0, e1, -⟩ := tile_index t
  refine funext fun a => Fin.ext ?_
  match a with
  | ⟨0, _⟩ => show win4_5.index t (0 : Fin 2) * 5000 + 1 * p.val = t.val * 5000 + p.val; omega
  | ⟨1, _⟩ => show win4_5.index t (1 : Fin 2) * 128 + 1 * q.val = q.val; omega

/-! ## What tile t writes back -/

/-- Tile t writes back its block of the layer of the five arrays. -/
theorem flushed_eq (c : Dev nD) (t : Fin cfg4.N) :
    (dat4 V c).flushed 5 t = ((cfg4.win 5).blk t).view.read (Elt Ideal) (layer V c) := by
  show (cfg4.win 5).cut (grid4.coords t) ((dat4 V c).after 5 t) = _
  rw [after4_5]
  unfold out4_5
  rw [View.canon_unit_zero origin]
  simp only [View.ld_unit_zero (S := S5000x128) origin, View.ld_unit_zero (S := S128x128) origin,
    View.ld_unit_zero (S := S1x128) origin]
  show (k4_pay1 (F := Ideal) (iblk4 V c 0 t) (iblk4 V c 1 t) (iblk4 V c 2 t) (iblk4 V c 3 t) (iblk4 V c 4 t) : S5000x128.Idx → EReal)
    = fun y : S5000x128.Idx => layer V c (((cfg4.win 5).blk t).view.emb y)
  funext y
  obtain ⟨p, q, rfl⟩ : ∃ (p : Fin 5000) (q : Fin 128), y = ix2 p q := ⟨y 0, y 1, eq_ix2 y⟩
  rw [out_block t p q]
  exact tile_entry (V c main_v104) (V c main_v92) (V c main_v106) (V c main_v108) (V c main_v111)
    (iblk4 V c 0 t) (iblk4 V c 1 t) (iblk4 V c 2 t) (iblk4 V c 3 t) (iblk4 V c 4 t) p q ⟨t.val * 5000 + p.val, row_lt t p⟩
    (fun k => means_block V c t p k) (fun k => feats_block V c t p k) (wl_block V c t) (wr_block V c t) (bias_block V c t)

/-! ## The tiles cover the result -/

/-- An index of the result is in tile t's block iff each coordinate is in the block's range on its axis. -/
theorem mem_block (t : Fin cfg4.N) (i : S100000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v112).slice (win4_5.rect t)).set ↔ _
  rw [View.set_slice_whole, Rect.mem_set_unit]
  exact Iff.rfl

/-- Row r is in tile r / 5000, and every tile is written back. -/
theorem cover (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have ht : (i 0).val / 5000 < cfg4.N := by rw [tiles]; omega
  obtain ⟨-, -, -, -, e0, e1, -⟩ := tile_index ⟨(i 0).val / 5000, ht⟩
  have e0' : win4_5.index ⟨(i 0).val / 5000, ht⟩ (0 : Fin 2) = (i 0).val / 5000 := e0
  refine ⟨⟨(i 0).val / 5000, ht⟩, flush4_5 _, ?_⟩
  rw [mem_block]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    omega
  | ⟨1, _⟩ =>
    show win4_5.index ⟨(i 0).val / 5000, ht⟩ (1 : Fin 2) * 128 ≤ (i 1).val
      ∧ (i 1).val < win4_5.index ⟨(i 0).val / 5000, ht⟩ (1 : Fin 2) * 128 + 128
    omega

/-! ## The result array -/

/-- After the region the result array holds the layer of the five arrays. -/
theorem value (c : Dev nD) : (dat4 (F := Ideal) V c).arrAt 5 cfg4.N
    = conv (V c main_v104) (V c main_v92) (V c main_v106) (V c main_v108) (V c main_v111) :=
  (dat4 V c).arrAt_eq_of_cover 5 (layer V c) (fun t _ => flushed_eq V c t) cover

end Cert.KernelIdeal.Region4

end
-- ==== Proof.Region5.lean ====
/-
  The sixth layer's kernel as one function of its five arrays.

  The kernel walks the 100000 nodes in 20 tiles of 5000 rows.  At tile t it holds rows 5000·t … 5000·t + 4999 of the
  aggregated means and of the node features, and the two weight matrices and the bias row whole; what it stores at row p
  and channel q of the tile is the layer's entry of the tile's own rows, and an entry of a layer reads its operands only
  through its own row, so the stored value is the entry of the whole arrays at row 5000·t + p.  Each tile is written
  back to the same rows of the result, and row r lies in tile r / 5000: the result array ends holding the layer of the
  five arrays at every index.
-/
import proofs.«101873_j60043642798825_1_alg».proof.Proof.Gen.KernelIdeal.Frame
import proofs.«101873_j60043642798825_1_alg».proof.Proof.SageSpec
import proofs.«101873_j60043642798825_1_alg».proof.Proof.TilePayload
import Idealize.ShloMosaic.Lib.Pipeline.Value
import Idealize.ShloMosaic.Lib.ValueIdx

noncomputable section

namespace Cert.KernelIdeal.Region5

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The layer of the five arrays as the region finds them. -/
abbrev layer (c : Dev nD) : NF.Idx → EReal :=
  conv (V c main_v124) (V c main_v112) (V c main_v126) (V c main_v128) (V c main_v131)

/-- The body reads and writes its tiles from their first entry. -/
theorem origin : (![0, 0] : Fin 2 → Nat) = fun _ => 0 := funext fun a => by fin_cases a <;> rfl

/-- Where tile t sits: the two row-tiled inputs and the output at block row t, block column 0; the weights and the bias
    at block (0, 0) at every tile. -/
theorem tile_index : ∀ t : Fin cfg5.N,
    win5_0.index t (0 : Fin 2) = t.val ∧ win5_0.index t (1 : Fin 2) = 0
    ∧ win5_1.index t (0 : Fin 2) = t.val ∧ win5_1.index t (1 : Fin 2) = 0
    ∧ win5_5.index t (0 : Fin 2) = t.val ∧ win5_5.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- There are 20 tiles. -/
theorem tiles : cfg5.N = 20 := N_5

/-- Row p of tile t is a row of the arrays. -/
theorem row_lt (t : Fin cfg5.N) (p : Fin 5000) : t.val * 5000 + p.val < 100000 := by
  have ht : t.val < 20 := tiles ▸ t.isLt
  have hp : p.val < 5000 := p.isLt
  omega

/-! ## What one tile stores, from what its blocks hold -/

/-- A tile whose two row blocks hold row r of the arrays at their row p, and whose weight and bias blocks are the
    arrays, stores at (p, q) the layer's entry (r, q). -/
theorem tile_entry (A0 A1 : NF.Idx → EReal) (wl wr : WW.Idx → EReal) (b : BR.Idx → EReal)
    (x0 x1 : FVec Ideal S5000x128 .f32) (x2 x3 : FVec Ideal S128x128 .f32) (x4 : FVec Ideal S1x128 .f32)
    (p : Fin 5000) (q : Fin 128) (r : Fin 100000)
    (h0 : ∀ k : Fin 128, x0 (ix2 p k) = A0 (ix2 r k)) (h1 : ∀ k : Fin 128, x1 (ix2 p k) = A1 (ix2 r k))
    (h2 : x2 = wl) (h3 : x3 = wr) (h4 : x4 = b) :
    k5_pay1 (F := Ideal) x0 x1 x2 x3 x4 (ix2 p q) = conv A0 A1 wl wr b (ix2 r q) := by
  subst h2 h3 h4
  rw [Tile.sage_tile_apply5, conv_ix2]
  exact convAt_congr x0 x1 A0 A1 x2 x3 x4 p r q h0 h1

/-! ## The blocks of tile t, read off the arrays -/

/-- The block of aggregated means at tile t holds rows 5000·t + p. -/
theorem means_block (c : Dev nD) (t : Fin cfg5.N) (p : Fin 5000) (k : Fin 128) :
    iblk5 V c 0 t (ix2 p k) = V c main_v124 (ix2 ⟨t.val * 5000 + p.val, row_lt t p⟩ k) := by
  obtain ⟨e0, e1, -⟩ := tile_index t
  show V c main_v124 (((cfg5.win 0).blk t).view.emb (ix2 p k)) = V c main_v124 _
  refine congrArg _ (funext fun a => Fin.ext ?_)
  match a with
  | ⟨0, _⟩ => show win5_0.index t (0 : Fin 2) * 5000 + 1 * p.val = t.val * 5000 + p.val; omega
  | ⟨1, _⟩ => show win5_0.index t (1 : Fin 2) * 128 + 1 * k.val = k.val; omega

/-- The block of node features at tile t holds the same rows. -/
theorem feats_block (c : Dev nD) (t : Fin cfg5.N) (p : Fin 5000) (k : Fin 128) :
    iblk5 V c 1 t (ix2 p k) = V c main_v112 (ix2 ⟨t.val * 5000 + p.val, row_lt t p⟩ k) := by
  obtain ⟨-, -, e0, e1, -⟩ := tile_index t
  show V c main_v112 (((cfg5.win 1).blk t).view.emb (ix2 p k)) = V c main_v112 _
  refine congrArg _ (funext fun a => Fin.ext ?_)
  match a with
  | ⟨0, _⟩ => show win5_1.index t (0 : Fin 2) * 5000 + 1 * p.val = t.val * 5000 + p.val; omega
  | ⟨1, _⟩ => show win5_1.index t (1 : Fin 2) * 128 + 1 * k.val = k.val; omega

/-- The first weight matrix is held whole at every tile. -/
theorem wl_block (c : Dev nD) (t : Fin cfg5.N) : iblk5 V c 2 t = V c main_v126 := by
  obtain ⟨-, -, -, -, -, -, e0, e1, -⟩ := tile_index t
  funext y
  show V c main_v126 (((cfg5.win 2).blk t).view.emb y) = V c main_v126 y
  refine congrArg _ (funext fun a => Fin.ext ?_)
  match a with
  | ⟨0, _⟩ => show win5_2.index t (0 : Fin 2) * 128 + 1 * (y 0).val = (y 0).val; omega
  | ⟨1, _⟩ => show win5_2.index t (1 : Fin 2) * 128 + 1 * (y 1).val = (y 1).val; omega

/-- So is the second. -/
theorem wr_block (c : Dev nD) (t : Fin cfg5.N) : iblk5 V c 3 t = V c main_v128 := by
  obtain ⟨-, -, -, -, -, -, -, -, e0, e1, -⟩ := tile_index t
  funext y
  show V c main_v128 (((cfg5.win 3).blk t).view.emb y) = V c main_v128 y
  refine congrArg _ (funext fun a => Fin.ext ?_)
  match a with
  | ⟨0, _⟩ => show win5_3.index t (0 : Fin 2) * 128 + 1 * (y 0).val = (y 0).val; omega
  | ⟨1, _⟩ => show win5_3.index t (1 : Fin 2) * 128 + 1 * (y 1).val = (y 1).val; omega

/-- And the bias row. -/
theorem bias_block (c : Dev nD) (t : Fin cfg5.N) : iblk5 V c 4 t = V c main_v131 := by
  obtain ⟨-, -, -, -, -, -, -, -, -, -, e0, e1⟩ := tile_index t
  funext y
  show V c main_v131 (((cfg5.win 4).blk t).view.emb y) = V c main_v131 y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- Entry (p, q) of the output's block at tile t is entry (5000·t + p, q) of the result array. -/
theorem out_block (t : Fin cfg5.N) (p : Fin 5000) (q : Fin 128) :
    ((cfg5.win 5).blk t).view.emb (ix2 p q) = (ix2 ⟨t.val * 5000 + p.val, row_lt t p⟩ q : NF.Idx) := by
  obtain ⟨-, -, -, -, e0, e1, -⟩ := tile_index t
  refine funext fun a => Fin.ext ?_
  match a with
  | ⟨0, _⟩ => show win5_5.index t (0 : Fin 2) * 5000 + 1 * p.val = t.val * 5000 + p.val; omega
  | ⟨1, _⟩ => show win5_5.index t (1 : Fin 2) * 128 + 1 * q.val = q.val; omega

/-! ## What tile t writes back -/

/-- Tile t writes back its block of the layer of the five arrays. -/
theorem flushed_eq (c : Dev nD) (t : Fin cfg5.N) :
    (dat5 V c).flushed 5 t = ((cfg5.win 5).blk t).view.read (Elt Ideal) (layer V c) := by
  show (cfg5.win 5).cut (grid5.coords t) ((dat5 V c).after 5 t) = _
  rw [after5_5]
  unfold out5_5
  rw [View.canon_unit_zero origin]
  simp only [View.ld_unit_zero (S := S5000x128) origin, View.ld_unit_zero (S := S128x128) origin,
    View.ld_unit_zero (S := S1x128) origin]
  show (k5_pay1 (F := Ideal) (iblk5 V c 0 t) (iblk5 V c 1 t) (iblk5 V c 2 t) (iblk5 V c 3 t) (iblk5 V c 4 t) : S5000x128.Idx → EReal)
    = fun y : S5000x128.Idx => layer V c (((cfg5.win 5).blk t).view.emb y)
  funext y
  obtain ⟨p, q, rfl⟩ : ∃ (p : Fin 5000) (q : Fin 128), y = ix2 p q := ⟨y 0, y 1, eq_ix2 y⟩
  rw [out_block t p q]
  exact tile_entry (V c main_v124) (V c main_v112) (V c main_v126) (V c main_v128) (V c main_v131)
    (iblk5 V c 0 t) (iblk5 V c 1 t) (iblk5 V c 2 t) (iblk5 V c 3 t) (iblk5 V c 4 t) p q ⟨t.val * 5000 + p.val, row_lt t p⟩
    (fun k => means_block V c t p k) (fun k => feats_block V c t p k) (wl_block V c t) (wr_block V c t) (bias_block V c t)

/-! ## The tiles cover the result -/

/-- An index of the result is in tile t's block iff each coordinate is in the block's range on its axis. -/
theorem mem_block (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v132).slice (win5_5.rect t)).set ↔ _
  rw [View.set_slice_whole, Rect.mem_set_unit]
  exact Iff.rfl

/-- Row r is in tile r / 5000, and every tile is written back. -/
theorem cover (i : S100000x128.Idx) :
    ∃ t : Fin cfg5.N, (cfg5.win 5).flush t = true ∧ i ∈ ((cfg5.win 5).blk t).view.set := by
  have hi0 : (i 0).val < 100000 := (i 0).isLt
  have hi1 : (i 1).val < 128 := (i 1).isLt
  have ht : (i 0).val / 5000 < cfg5.N := by rw [tiles]; omega
  obtain ⟨-, -, -, -, e0, e1, -⟩ := tile_index ⟨(i 0).val / 5000, ht⟩
  have e0' : win5_5.index ⟨(i 0).val / 5000, ht⟩ (0 : Fin 2) = (i 0).val / 5000 := e0
  refine ⟨⟨(i 0).val / 5000, ht⟩, flush5_5 _, ?_⟩
  rw [mem_block]
  intro a
  match a with
  | ⟨0, _⟩ =>
    show win5_5.index ⟨(i 0).val / 5000, ht⟩ (0 : Fin 2) * 5000 ≤ (i 0).val
      ∧ (i 0).val < win5_5.index ⟨(i 0).val / 5000, ht⟩ (0 : Fin 2) * 5000 + 5000
    omega
  | ⟨1, _⟩ =>
    show win5_5.index ⟨(i 0).val / 5000, ht⟩ (1 : Fin 2) * 128 ≤ (i 1).val
      ∧ (i 1).val < win5_5.index ⟨(i 0).val / 5000, ht⟩ (1 : Fin 2) * 128 + 128
    omega

/-! ## The result array -/

/-- After the region the result array holds the layer of the five arrays. -/
theorem value (c : Dev nD) : (dat5 (F := Ideal) V c).arrAt 5 cfg5.N
    = conv (V c main_v124) (V c main_v112) (V c main_v126) (V c main_v128) (V c main_v131) :=
  (dat5 V c).arrAt_eq_of_cover 5 (layer V c) (fun t _ => flushed_eq V c t) cover

end Cert.KernelIdeal.Region5

end
-- ==== Proof.Region6.lean ====
/-
  The projection kernel as one function of its three arrays.

  The kernel walks the 100000 nodes in 20 tiles of 5000 rows.  At tile t it holds rows 5000·t … 5000·t + 4999 of the
  last layer's features, and the weight column and the bias whole; what it stores at row p of the tile is the
  projection's entry of the tile's own rows, and an entry of the projection reads the features only through its own
  row, so the stored value is the entry of the whole array at row 5000·t + p.  Each tile is written back to the same
  rows of the scores, and row r lies in tile r / 5000: the score array ends holding the projection of the three arrays
  at every index.
-/
import proofs.«101873_j60043642798825_1_alg».proof.Proof.Gen.KernelIdeal.Frame
import proofs.«101873_j60043642798825_1_alg».proof.Proof.SageSpec
import proofs.«101873_j60043642798825_1_alg».proof.Proof.TilePayload
import Idealize.ShloMosaic.Lib.Pipeline.Value
import Idealize.ShloMosaic.Lib.ValueIdx

noncomputable section

namespace Cert.KernelIdeal.Region6

open Cert.KernelIdeal Cert.KernelIdeal.Gen Idealize.ShloMosaic Idealize.ShloMosaic.TcCoe Idealize.SL.Sem
open Idealize.ShloMosaic.ValueIdx Cert.Sage
open Idealize.ShloMosaic.Pipeline (Dat)

variable (V : (c : Dev nD) → (b : Ref sig .tc) → Buf (Elt Ideal) ((c : Thread nD τ).loc b))

/-- The projection of the three arrays as the region finds them. -/
abbrev scores (c : Dev nD) : NO.Idx → EReal :=
  proj (V c main_v132) (V c main_arg5) (V c main_v133)

/-- The body reads and writes its tiles from their first entry. -/
theorem origin : (![0, 0] : Fin 2 → Nat) = fun _ => 0 := funext fun a => by fin_cases a <;> rfl

/-- Where tile t sits: the row-tiled features and the output at block row t, block column 0; the weight column and the
    bias at block (0, 0) at every tile. -/
theorem tile_index : ∀ t : Fin cfg6.N,
    win6_0.index t (0 : Fin 2) = t.val ∧ win6_0.index t (1 : Fin 2) = 0
    ∧ win6_3.index t (0 : Fin 2) = t.val ∧ win6_3.index t (1 : Fin 2) = 0
    ∧ win6_1.index t (0 : Fin 2) = 0 ∧ win6_1.index t (1 : Fin 2) = 0
    ∧ win6_2.index t (0 : Fin 2) = 0 ∧ win6_2.index t (1 : Fin 2) = 0 :=
  (by decide +kernel : ∀ t : Fin grid6.N, _)

/-- There are 20 tiles. -/
theorem tiles : cfg6.N = 20 := N_6

/-- Row p of tile t is a row of the arrays. -/
theorem row_lt (t : Fin cfg6.N) (p : Fin 5000) : t.val * 5000 + p.val < 100000 := by
  have ht : t.val < 20 := tiles ▸ t.isLt
  have hp : p.val < 5000 := p.isLt
  omega

/-! ## What one tile stores, from what its blocks hold -/

/-- A tile whose row block holds row r of the features at its row p, and whose weight and bias blocks are the arrays,
    stores at (p, q) the projection's entry (r, q). -/
theorem tile_entry (A : NF.Idx → EReal) (w : WO.Idx → EReal) (b : BO.Idx → EReal)
    (x0 : FVec Ideal S5000x128 .f32) (x1 : FVec Ideal S128x1 .f32) (x2 : FVec Ideal S1x1 .f32)
    (p : Fin 5000) (q : Fin 1) (r : Fin 100000)
    (h0 : ∀ k : Fin 128, x0 (ix2 p k) = A (ix2 r k)) (h1 : x1 = w) (h2 : x2 = b) :
    k6_pay1 (F := Ideal) x0 x1 x2 (ix2 p q) = proj A w b (ix2 r q) := by
  subst h1 h2
  rw [Tile.proj_tile_apply, proj_ix2]
  exact projAt_congr x0 A x1 x2 p r q h0

/-! ## The blocks of tile t, read off the arrays -/

/-- The block of features at tile t holds rows 5000·t + p. -/
theorem feats_block (c : Dev nD) (t : Fin cfg6.N) (p : Fin 5000) (k : Fin 128) :
    iblk6 V c 0 t (ix2 p k) = V c main_v132 (ix2 ⟨t.val * 5000 + p.val, row_lt t p⟩ k) := by
  obtain ⟨e0, e1, -⟩ := tile_index t
  show V c main_v132 (((cfg6.win 0).blk t).view.emb (ix2 p k)) = V c main_v132 _
  refine congrArg _ (funext fun a => Fin.ext ?_)
  match a with
  | ⟨0, _⟩ => show win6_0.index t (0 : Fin 2) * 5000 + 1 * p.val = t.val * 5000 + p.val; omega
  | ⟨1, _⟩ => show win6_0.index t (1 : Fin 2) * 128 + 1 * k.val = k.val; omega

/-- The weight column is held whole at every tile. -/
theorem weight_block (c : Dev nD) (t : Fin cfg6.N) : iblk6 V c 1 t = V c main_arg5 := by
  obtain ⟨-, -, -, -, e0, e1, -⟩ := tile_index t
  funext y
  show V c main_arg5 (((cfg6.win 1).blk t).view.emb y) = V c main_arg5 y
  refine congrArg _ (funext fun a => Fin.ext ?_)
  match a with
  | ⟨0, _⟩ => show win6_1.index t (0 : Fin 2) * 128 + 1 * (y 0).val = (y 0).val; omega
  | ⟨1, _⟩ => show win6_1.index t (1 : Fin 2) * 1 + 1 * (y 1).val = (y 1).val; omega

/-- And the bias. -/
theorem bias_block (c : Dev nD) (t : Fin cfg6.N) : iblk6 V c 2 t = V c main_v133 := by
  obtain ⟨-, -, -, -, -, -, e0, e1⟩ := tile_index t
  funext y
  show V c main_v133 (((cfg6.win 2).blk t).view.emb y) = V c main_v133 y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 1 + 1 * (y 1).val = (y 1).val; omega

/-- Entry (p, q) of the output's block at tile t is entry (5000·t + p, q) of the score array. -/
theorem out_block (t : Fin cfg6.N) (p : Fin 5000) (q : Fin 1) :
    ((cfg6.win 3).blk t).view.emb (ix2 p q) = (ix2 ⟨t.val * 5000 + p.val, row_lt t p⟩ q : NO.Idx) := by
  obtain ⟨-, -, e0, e1, -⟩ := tile_index t
  refine funext fun a => Fin.ext ?_
  match a with
  | ⟨0, _⟩ => show win6_3.index t (0 : Fin 2) * 5000 + 1 * p.val = t.val * 5000 + p.val; omega
  | ⟨1, _⟩ => show win6_3.index t (1 : Fin 2) * 1 + 1 * q.val = q.val; omega

/-! ## What tile t writes back -/

/-- Tile t writes back its block of the projection of the three arrays. -/
theorem flushed_eq (c : Dev nD) (t : Fin cfg6.N) :
    (dat6 V c).flushed 3 t = ((cfg6.win 3).blk t).view.read (Elt Ideal) (scores V c) := by
  show (cfg6.win 3).cut (grid6.coords t) ((dat6 V c).after 3 t) = _
  rw [after6_3]
  unfold out6_3
  rw [View.canon_unit_zero origin]
  simp only [View.ld_unit_zero (S := S5000x128) origin, View.ld_unit_zero (S := S128x1) origin,
    View.ld_unit_zero (S := S1x1) origin]
  show (k6_pay1 (F := Ideal) (iblk6 V c 0 t) (iblk6 V c 1 t) (iblk6 V c 2 t) : S5000x1.Idx → EReal)
    = fun y : S5000x1.Idx => scores V c (((cfg6.win 3).blk t).view.emb y)
  funext y
  obtain ⟨p, q, rfl⟩ : ∃ (p : Fin 5000) (q : Fin 1), y = ix2 p q := ⟨y 0, y 1, eq_ix2 y⟩
  rw [out_block t p q]
  exact tile_entry (V c main_v132) (V c main_arg5) (V c main_v133)
    (iblk6 V c 0 t) (iblk6 V c 1 t) (iblk6 V c 2 t) p q ⟨t.val * 5000 + p.val, row_lt t p⟩
    (fun k => feats_block V c t p k) (weight_block V c t) (bias_block V c t)

/-! ## The tiles cover the scores -/

/-- An index of the scores is in tile t's block iff each coordinate is in the block's range on its axis. -/
theorem mem_block (t : Fin cfg6.N) (i : S100000x1.Idx) :
    i ∈ ((cfg6.win 3).blk t).view.set ↔ ∀ a : Fin 2, win6_3.index t a * S5000x1.size a ≤ (i a).val
      ∧ (i a).val < win6_3.index t a * S5000x1.size a + S5000x1.size a := by
  show i ∈ ((View.whole main_v134).slice (win6_3.rect t)).set ↔ _
  rw [View.set_slice_whole, Rect.mem_set_unit]
  exact Iff.rfl

/-- Row r is in tile r / 5000, and every tile is written back. -/
theorem cover (i : S100000x1.Idx) :
    ∃ t : Fin cfg6.N, (cfg6.win 3).flush t = true ∧ i ∈ ((cfg6.win 3).blk t).view.set := by
  have hi0 : (i 0).val < 100000 := (i 0).isLt
  have hi1 : (i 1).val < 1 := (i 1).isLt
  have ht : (i 0).val / 5000 < cfg6.N := by rw [tiles]; omega
  obtain ⟨-, -, e0, e1, -⟩ := tile_index ⟨(i 0).val / 5000, ht⟩
  have e0' : win6_3.index ⟨(i 0).val / 5000, ht⟩ (0 : Fin 2) = (i 0).val / 5000 := e0
  refine ⟨⟨(i 0).val / 5000, ht⟩, flush6_3 _, ?_⟩
  rw [mem_block]
  intro a
  match a with
  | ⟨0, _⟩ =>
    show win6_3.index ⟨(i 0).val / 5000, ht⟩ (0 : Fin 2) * 5000 ≤ (i 0).val
      ∧ (i 0).val < win6_3.index ⟨(i 0).val / 5000, ht⟩ (0 : Fin 2) * 5000 + 5000
    omega
  | ⟨1, _⟩ =>
    show win6_3.index ⟨(i 0).val / 5000, ht⟩ (1 : Fin 2) * 1 ≤ (i 1).val
      ∧ (i 1).val < win6_3.index ⟨(i 0).val / 5000, ht⟩ (1 : Fin 2) * 1 + 1
    omega

/-! ## The score array -/

/-- After the region the score array holds the projection of the three arrays. -/
theorem value (c : Dev nD) : (dat6 (F := Ideal) V c).arrAt 3 cfg6.N
    = proj (V c main_v132) (V c main_arg5) (V c main_v133) :=
  (dat6 V c).arrAt_eq_of_cover 3 (scores V c) (fun t _ => flushed_eq V c t) cover

end Cert.KernelIdeal.Region6

end
-- ==== Proof.KernelChain.lean ====
/-
  The kernel program's result as the chain of layers.

  The run's fold is walked once, kernel by kernel.  When kernel p is entered its mean operand holds the shared
  aggregation step of the features it is about to transform — the previous kernel's whole output, or the argument
  features for the first — with the ids and inverse degrees of the first stretch (still there: nothing in between
  writes them); its feature operand holds those same features; its weight operands hold the layer's slices of the
  weight arguments.  The kernel leaves conv of its operands in its output array (its tiles cover the array, and an
  entry reads its operands through its own row only).  So after kernel p the output array holds the features after
  layer p + 1 of the chain, and after the projection kernel the result array holds the scores.
-/
import proofs.«101873_j60043642798825_1_alg».proof.Proof.Gen.KernelIdeal.Frame
import proofs.«101873_j60043642798825_1_alg».proof.Proof.Fold
import proofs.«101873_j60043642798825_1_alg».proof.Proof.RunMain
import proofs.«101873_j60043642798825_1_alg».proof.Proof.Region0
import proofs.«101873_j60043642798825_1_alg».proof.Proof.Region1
import proofs.«101873_j60043642798825_1_alg».proof.Proof.Region2
import proofs.«101873_j60043642798825_1_alg».proof.Proof.Region3
import proofs.«101873_j60043642798825_1_alg».proof.Proof.Region4
import proofs.«101873_j60043642798825_1_alg».proof.Proof.Region5
import proofs.«101873_j60043642798825_1_alg».proof.Proof.Region6

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After the first kernel its output array holds the features after layer 1. -/
theorem out_0 : W2 m ρ c (Proc.devRef .tc main_v32) = (Cert.Sage.X1 (m ((c : Thread nD τ).loc main_arg0)) (m ((c : Thread nD τ).loc main_arg1)) (m ((c : Thread nD τ).loc main_arg2)) (m ((c : Thread nD τ).loc main_arg3)) (m ((c : Thread nD τ).loc main_arg4))) := by
  refine (W2_arr m ρ c 5).trans ?_
  refine (Region0.value (V1 m ρ) c).trans ?_
  have hm : V1 m ρ c main_v24 = Cert.Sage.meanOf (m ((c : Thread nD τ).loc main_arg0)) (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v12 (F := Ideal) (m ((c : Thread nD τ).loc main_arg1))) :=
    Stretch.s0_mean (W0 m ρ c)
  have hx : V1 m ρ c main_arg0 = (m ((c : Thread nD τ).loc main_arg0)) := Stretch.s0_keep_arg0 (W0 m ρ c)
  have hwl : V1 m ρ c main_v26 = Cert.ReferenceIdeal.Read.val_main_v14 (F := Ideal) (m ((c : Thread nD τ).loc main_arg2)) := Stretch.s0_wl (W0 m ρ c)
  have hwr : V1 m ρ c main_v28 = Cert.ReferenceIdeal.Read.val_main_v16 (F := Ideal) (m ((c : Thread nD τ).loc main_arg3)) := Stretch.s0_wr (W0 m ρ c)
  have hb : V1 m ρ c main_v31 = Cert.ReferenceIdeal.Read.val_main_v34 (F := Ideal) (m ((c : Thread nD τ).loc main_arg4)) := Stretch.s0_b (W0 m ρ c)
  rw [hm, hx, hwl, hwr, hb]
  rfl

/-- After kernel 1 its output array holds the features after layer 2. -/
theorem out_1 : W4 m ρ c (Proc.devRef .tc main_v52) = (Cert.Sage.X2 (m ((c : Thread nD τ).loc main_arg0)) (m ((c : Thread nD τ).loc main_arg1)) (m ((c : Thread nD τ).loc main_arg2)) (m ((c : Thread nD τ).loc main_arg3)) (m ((c : Thread nD τ).loc main_arg4))) := by
  refine (W4_arr m ρ c 5).trans ?_
  refine (Region1.value (V3 m ρ) c).trans ?_
  have hx : V3 m ρ c main_v32 = (Cert.Sage.X1 (m ((c : Thread nD τ).loc main_arg0)) (m ((c : Thread nD τ).loc main_arg1)) (m ((c : Thread nD τ).loc main_arg2)) (m ((c : Thread nD τ).loc main_arg3)) (m ((c : Thread nD τ).loc main_arg4))) := (Stretch.s1_keep_v32 (W2 m ρ c)).trans (out_0 m ρ c)
  have hm : V3 m ρ c main_v44 = Cert.Sage.meanOf (Cert.Sage.X1 (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v12 (F := Ideal) (m ((c : Thread nD τ).loc main_arg1))) := by
    refine (Stretch.s1_mean (W2 m ρ c)).trans ?_
    rw [out_0 m ρ c, Fold.src_2 m ρ c, Fold.dst_2 m ρ c, Fold.dinv_2 m ρ c]
  have hwl : V3 m ρ c main_v46 = Cert.ReferenceIdeal.Read.val_main_v39 (F := Ideal) (m ((c : Thread nD τ).loc main_arg2)) :=
    (Stretch.s1_wl (W2 m ρ c)).trans (congrArg _ (Fold.arg2_2 m ρ c))
  have hwr : V3 m ρ c main_v48 = Cert.ReferenceIdeal.Read.val_main_v41 (F := Ideal) (m ((c : Thread nD τ).loc main_arg3)) :=
    (Stretch.s1_wr (W2 m ρ c)).trans (congrArg _ (Fold.arg3_2 m ρ c))
  have hb : V3 m ρ c main_v51 = Cert.ReferenceIdeal.Read.val_main_v59 (F := Ideal) (m ((c : Thread nD τ).loc main_arg4)) :=
    (Stretch.s1_b (W2 m ρ c)).trans (congrArg _ (Fold.arg4_2 m ρ c))
  rw [hm, hx, hwl, hwr, hb]
  rfl

/-- After kernel 2 its output array holds the features after layer 3. -/
theorem out_2 : W6 m ρ c (Proc.devRef .tc main_v72) = (Cert.Sage.X3 (m ((c : Thread nD τ).loc main_arg0)) (m ((c : Thread nD τ).loc main_arg1)) (m ((c : Thread nD τ).loc main_arg2)) (m ((c : Thread nD τ).loc main_arg3)) (m ((c : Thread nD τ).loc main_arg4))) := by
  refine (W6_arr m ρ c 5).trans ?_
  refine (Region2.value (V5 m ρ) c).trans ?_
  have hx : V5 m ρ c main_v52 = (Cert.Sage.X2 (m ((c : Thread nD τ).loc main_arg0)) (m ((c : Thread nD τ).loc main_arg1)) (m ((c : Thread nD τ).loc main_arg2)) (m ((c : Thread nD τ).loc main_arg3)) (m ((c : Thread nD τ).loc main_arg4))) := (Stretch.s2_keep_v52 (W4 m ρ c)).trans (out_1 m ρ c)
  have hm : V5 m ρ c main_v64 = Cert.Sage.meanOf (Cert.Sage.X2 (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v12 (F := Ideal) (m ((c : Thread nD τ).loc main_arg1))) := by
    refine (Stretch.s2_mean (W4 m ρ c)).trans ?_
    rw [out_1 m ρ c, Fold.src_4 m ρ c, Fold.dst_4 m ρ c, Fold.dinv_4 m ρ c]
  have hwl : V5 m ρ c main_v66 = Cert.ReferenceIdeal.Read.val_main_v64 (F := Ideal) (m ((c : Thread nD τ).loc main_arg2)) :=
    (Stretch.s2_wl (W4 m ρ c)).trans (congrArg _ (Fold.arg2_4 m ρ c))
  have hwr : V5 m ρ c main_v68 = Cert.ReferenceIdeal.Read.val_main_v66 (F := Ideal) (m ((c : Thread nD τ).loc main_arg3)) :=
    (Stretch.s2_wr (W4 m ρ c)).trans (congrArg _ (Fold.arg3_4 m ρ c))
  have hb : V5 m ρ c main_v71 = Cert.ReferenceIdeal.Read.val_main_v84 (F := Ideal) (m ((c : Thread nD τ).loc main_arg4)) :=
    (Stretch.s2_b (W4 m ρ c)).trans (congrArg _ (Fold.arg4_4 m ρ c))
  rw [hm, hx, hwl, hwr, hb]
  rfl

/-- After kernel 3 its output array holds the features after layer 4. -/
theorem out_3 : W8 m ρ c (Proc.devRef .tc main_v92) = (Cert.Sage.X4 (m ((c : Thread nD τ).loc main_arg0)) (m ((c : Thread nD τ).loc main_arg1)) (m ((c : Thread nD τ).loc main_arg2)) (m ((c : Thread nD τ).loc main_arg3)) (m ((c : Thread nD τ).loc main_arg4))) := by
  refine (W8_arr m ρ c 5).trans ?_
  refine (Region3.value (V7 m ρ) c).trans ?_
  have hx : V7 m ρ c main_v72 = (Cert.Sage.X3 (m ((c : Thread nD τ).loc main_arg0)) (m ((c : Thread nD τ).loc main_arg1)) (m ((c : Thread nD τ).loc main_arg2)) (m ((c : Thread nD τ).loc main_arg3)) (m ((c : Thread nD τ).loc main_arg4))) := (Stretch.s3_keep_v72 (W6 m ρ c)).trans (out_2 m ρ c)
  have hm : V7 m ρ c main_v84 = Cert.Sage.meanOf (Cert.Sage.X3 (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v12 (F := Ideal) (m ((c : Thread nD τ).loc main_arg1))) := by
    refine (Stretch.s3_mean (W6 m ρ c)).trans ?_
    rw [out_2 m ρ c, Fold.src_6 m ρ c, Fold.dst_6 m ρ c, Fold.dinv_6 m ρ c]
  have hwl : V7 m ρ c main_v86 = Cert.ReferenceIdeal.Read.val_main_v89 (F := Ideal) (m ((c : Thread nD τ).loc main_arg2)) :=
    (Stretch.s3_wl (W6 m ρ c)).trans (congrArg _ (Fold.arg2_6 m ρ c))
  have hwr : V7 m ρ c main_v88 = Cert.ReferenceIdeal.Read.val_main_v91 (F := Ideal) (m ((c : Thread nD τ).loc main_arg3)) :=
    (Stretch.s3_wr (W6 m ρ c)).trans (congrArg _ (Fold.arg3_6 m ρ c))
  have hb : V7 m ρ c main_v91 = Cert.ReferenceIdeal.Read.val_main_v109 (F := Ideal) (m ((c : Thread nD τ).loc main_arg4)) :=
    (Stretch.s3_b (W6 m ρ c)).trans (congrArg _ (Fold.arg4_6 m ρ c))
  rw [hm, hx, hwl, hwr, hb]
  rfl

/-- After kernel 4 its output array holds the features after layer 5. -/
theorem out_4 : W10 m ρ c (Proc.devRef .tc main_v112) = (Cert.Sage.X5 (m ((c : Thread nD τ).loc main_arg0)) (m ((c : Thread nD τ).loc main_arg1)) (m ((c : Thread nD τ).loc main_arg2)) (m ((c : Thread nD τ).loc main_arg3)) (m ((c : Thread nD τ).loc main_arg4))) := by
  refine (W10_arr m ρ c 5).trans ?_
  refine (Region4.value (V9 m ρ) c).trans ?_
  have hx : V9 m ρ c main_v92 = (Cert.Sage.X4 (m ((c : Thread nD τ).loc main_arg0)) (m ((c : Thread nD τ).loc main_arg1)) (m ((c : Thread nD τ).loc main_arg2)) (m ((c : Thread nD τ).loc main_arg3)) (m ((c : Thread nD τ).loc main_arg4))) := (Stretch.s4_keep_v92 (W8 m ρ c)).trans (out_3 m ρ c)
  have hm : V9 m ρ c main_v104 = Cert.Sage.meanOf (Cert.Sage.X4 (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v12 (F := Ideal) (m ((c : Thread nD τ).loc main_arg1))) := by
    refine (Stretch.s4_mean (W8 m ρ c)).trans ?_
    rw [out_3 m ρ c, Fold.src_8 m ρ c, Fold.dst_8 m ρ c, Fold.dinv_8 m ρ c]
  have hwl : V9 m ρ c main_v106 = Cert.ReferenceIdeal.Read.val_main_v114 (F := Ideal) (m ((c : Thread nD τ).loc main_arg2)) :=
    (Stretch.s4_wl (W8 m ρ c)).trans (congrArg _ (Fold.arg2_8 m ρ c))
  have hwr : V9 m ρ c main_v108 = Cert.ReferenceIdeal.Read.val_main_v116 (F := Ideal) (m ((c : Thread nD τ).loc main_arg3)) :=
    (Stretch.s4_wr (W8 m ρ c)).trans (congrArg _ (Fold.arg3_8 m ρ c))
  have hb : V9 m ρ c main_v111 = Cert.ReferenceIdeal.Read.val_main_v134 (F := Ideal) (m ((c : Thread nD τ).loc main_arg4)) :=
    (Stretch.s4_b (W8 m ρ c)).trans (congrArg _ (Fold.arg4_8 m ρ c))
  rw [hm, hx, hwl, hwr, hb]
  rfl

/-- After kernel 5 its output array holds the features after layer 6. -/
theorem out_5 : W12 m ρ c (Proc.devRef .tc main_v132) = (Cert.Sage.X6 (m ((c : Thread nD τ).loc main_arg0)) (m ((c : Thread nD τ).loc main_arg1)) (m ((c : Thread nD τ).loc main_arg2)) (m ((c : Thread nD τ).loc main_arg3)) (m ((c : Thread nD τ).loc main_arg4))) := by
  refine (W12_arr m ρ c 5).trans ?_
  refine (Region5.value (V11 m ρ) c).trans ?_
  have hx : V11 m ρ c main_v112 = (Cert.Sage.X5 (m ((c : Thread nD τ).loc main_arg0)) (m ((c : Thread nD τ).loc main_arg1)) (m ((c : Thread nD τ).loc main_arg2)) (m ((c : Thread nD τ).loc main_arg3)) (m ((c : Thread nD τ).loc main_arg4))) := (Stretch.s5_keep_v112 (W10 m ρ c)).trans (out_4 m ρ c)
  have hm : V11 m ρ c main_v124 = Cert.Sage.meanOf (Cert.Sage.X5 (m ((c : Thread nD τ).loc main_arg0)) (m ((c : Thread nD τ).loc main_arg1)) (m ((c : Thread nD τ).loc main_arg2)) (m ((c : Thread nD τ).loc main_arg3)) (m ((c : Thread nD τ).loc main_arg4))) (Cert.ReferenceIdeal.Read.val_main_v1 (F := Ideal) (m ((c : Thread nD τ).loc main_arg1))) (Cert.ReferenceIdeal.Read.val_main_v3 (F := Ideal) (m ((c : Thread nD τ).loc main_arg1))) (Cert.ReferenceIdeal.Read.val_main_v12 (F := Ideal) (m ((c : Thread nD τ).loc main_arg1))) := by
    refine (Stretch.s5_mean (W10 m ρ c)).trans ?_
    rw [out_4 m ρ c, Fold.src_10 m ρ c, Fold.dst_10 m ρ c, Fold.dinv_10 m ρ c]
  have hwl : V11 m ρ c main_v126 = Cert.ReferenceIdeal.Read.val_main_v139 (F := Ideal) (m ((c : Thread nD τ).loc main_arg2)) :=
    (Stretch.s5_wl (W10 m ρ c)).trans (congrArg _ (Fold.arg2_10 m ρ c))
  have hwr : V11 m ρ c main_v128 = Cert.ReferenceIdeal.Read.val_main_v141 (F := Ideal) (m ((c : Thread nD τ).loc main_arg3)) :=
    (Stretch.s5_wr (W10 m ρ c)).trans (congrArg _ (Fold.arg3_10 m ρ c))
  have hb : V11 m ρ c main_v131 = Cert.ReferenceIdeal.Read.val_main_v159 (F := Ideal) (m ((c : Thread nD τ).loc main_arg4)) :=
    (Stretch.s5_b (W10 m ρ c)).trans (congrArg _ (Fold.arg4_10 m ρ c))
  rw [hm, hx, hwl, hwr, hb]
  rfl

/-- After the projection kernel the result array holds the scores. -/
theorem result : W14 m ρ c (Proc.devRef .tc main_v134) = Cert.Sage.scores (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W14_arr m ρ c 3).trans ?_
  refine (Region6.value (V13 m ρ) c).trans ?_
  have hx : V13 m ρ c main_v132 = (Cert.Sage.X6 (m ((c : Thread nD τ).loc main_arg0)) (m ((c : Thread nD τ).loc main_arg1)) (m ((c : Thread nD τ).loc main_arg2)) (m ((c : Thread nD τ).loc main_arg3)) (m ((c : Thread nD τ).loc main_arg4))) := (Stretch.s6_keep_v132 (W12 m ρ c)).trans (out_5 m ρ c)
  have hw : V13 m ρ c main_arg5 = (m ((c : Thread nD τ).loc main_arg5)) := (Stretch.s6_keep_arg5 (W12 m ρ c)).trans (Fold.arg5_12 m ρ c)
  have hb : V13 m ρ c main_v133 = Cert.ReferenceIdeal.Read.val_main_v164 (F := Ideal) (m ((c : Thread nD τ).loc main_arg6)) :=
    (Stretch.s6_b (W12 m ρ c)).trans (congrArg _ (Fold.arg6_12 m ρ c))
  rw [hx, hw, hb]
  rfl

/-- The run: termination, no fault, the result array at the scores of the arguments, the arguments unchanged. -/
theorem run : θ_run defs (onTc (τ := τ) (main (F := Ideal))) ⟨m, fun _ => 0, ρ⟩ (fun r => ∀ c : Dev nD,
      r.2.mem ((c.tc : Thread nD τ).loc main_v134) = Cert.Sage.scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (RunValue.run_main m ρ)

end Cert.KernelIdeal.KValue

end
-- ==== Proof.RefChain.lean ====
/-
  The reference network, read as the chain of layers.

  The reference does the same thing six times: it takes the current features y, forms the mean of the neighbours'
  rows (gather the source rows, add them up at the destinations, scale by the inverse degrees), and gives
      max ( (mean · Wl + y · Wr) + b , 0 )
  with the layer's slices Wl, Wr, b of the weight arrays; at the end it gives  y · w + b'  for the projection.
  Entry by entry the two matrix products are the plain sums over the 128 channels, the bias row spread over the nodes
  reads the row at the entry's channel, and the zero spread over the array reads zero: that is `conv` (and `proj`)
  of the specification.  Each layer of the program is an instance of this one shape, applied to the previous layer's
  output as a whole; the aggregation step is never opened, only recognised as the same function of the same arguments.
-/
import proofs.«101873_j60043642798825_1_alg».proof.Proof.Chain
import proofs.«101873_j60043642798825_1_alg».proof.Proof.LibPlainDot
import proofs.«101873_j60043642798825_1_alg».proof.Proof.LibUnitAxes

noncomputable section

namespace Cert.Sage.Ref

open Cert.ReferenceIdeal Cert.ReferenceIdeal.Gen Cert.ReferenceIdeal.Read Idealize.ShloMosaic Idealize.ShloMosaic.TcCoe Idealize.ShloMosaic.StableHlo

/-! ## The shape of a layer and of the projection, over arbitrary operands -/

/-- The product of node features with a 128 × 128 weight matrix, at node r and channel c, is Σₖ y(r,k) · w(k,c). -/
theorem dotW_apply (y : Cert.Sage.Feat) (w : FVec Ideal S128x128 .f32) (r : Fin 100000) (c : Fin 128) :
    Host.dotGeneral (F := Ideal) dot_S100000x128_S128x128_S100000x128_1_0_0_1_n_n none y w (ValueIdx.ix2 r c)
      = ∑ k : Fin 128, y (ValueIdx.ix2 r k) * w (ValueIdx.ix2 k c) := by
  simp only [Host.dotGeneral]
  exact Cert.LibPlainDot.dotGeneral_apply dot_S100000x128_S128x128_S100000x128_1_0_0_1_n_n rfl rfl rfl rfl
    (fun j k => lhs_main_v31_0 j k) (fun j k => rhs_main_v31_1 j k) none .single y w r c

/-- The product of node features with the 128 × 1 projection column, at node r, is Σₖ y(r,k) · w(k,0). -/
theorem dotO_apply (y : Cert.Sage.Feat) (w : FVec Ideal S128x1 .f32) (r : Fin 100000) (c : Fin 1) :
    Host.dotGeneral (F := Ideal) dot_S100000x128_S128x1_S100000x1_1_0_0_1_n_n none y w (ValueIdx.ix2 r c)
      = ∑ k : Fin 128, y (ValueIdx.ix2 r k) * w (ValueIdx.ix2 k c) := by
  simp only [Host.dotGeneral]
  exact Cert.LibPlainDot.dotGeneral_apply dot_S100000x128_S128x1_S100000x1_1_0_0_1_n_n rfl rfl rfl rfl
    (fun j k => lhs_main_v163_0 j k) (fun j k => rhs_main_v163_1 j k) none .single y w r c

/-- max((mean · Wl + y · Wr) + b, 0), with b a row spread over the nodes and 0 a scalar spread over the array, is the
    specification's layer: at (r, c) the two products are the sums over k, the row reads b(0, c), the scalar reads 0. -/
theorem layer_eq (mean y : Cert.Sage.Feat) (wl wr : FVec Ideal S128x128 .f32) (b : FVec Ideal S1x128 .f32) :
    maximumf
        (addf
          (addf (Host.dotGeneral (F := Ideal) dot_S100000x128_S128x128_S100000x128_1_0_0_1_n_n none mean wl)
            (Host.dotGeneral (F := Ideal) dot_S100000x128_S128x128_S100000x128_1_0_0_1_n_n none y wr))
          (broadcastInDim S100000x128 ![0, 1] bcast_S1x128_S100000x128_0_1 b))
        (broadcastInDim S100000x128 ![] bcast_S_S100000x128 (constant (F := Ideal) S_ .f32 0x00000000#32))
      = Cert.Sage.conv mean y wl wr b := by
  funext i
  obtain ⟨r, c, rfl⟩ : ∃ (r : Fin 100000) (c : Fin 128), i = ValueIdx.ix2 r c := ⟨i 0, i 1, ValueIdx.eq_ix2 i⟩
  rw [Cert.Sage.conv_ix2]
  unfold Cert.Sage.convAt
  rw [ValueIdx.maximumf_apply, ValueIdx.addf_apply, ValueIdx.addf_apply, dotW_apply, dotW_apply,
    Cert.LibUnitAxes.broadcastInDim_1b_ab_apply, Cert.LibUnitAxes.broadcastInDim_scalar_apply, ValueIdx.constant_apply]

/-- y · w + b', with the 1 × 1 bias spread over the nodes, is the specification's projection. -/
theorem proj_eq (y : Cert.Sage.Feat) (w : FVec Ideal S128x1 .f32) (b : FVec Ideal S1x1 .f32) :
    addf (Host.dotGeneral (F := Ideal) dot_S100000x128_S128x1_S100000x1_1_0_0_1_n_n none y w)
        (broadcastInDim S100000x1 ![0, 1] bcast_S1x1_S100000x1_0_1 b)
      = Cert.Sage.proj y w b := by
  funext i
  obtain ⟨r, c, rfl⟩ : ∃ (r : Fin 100000) (c : Fin 1), i = ValueIdx.ix2 r c := ⟨i 0, i 1, ValueIdx.eq_ix2 i⟩
  rw [Cert.Sage.proj_ix2]
  unfold Cert.Sage.projAt
  rw [ValueIdx.addf_apply, dotO_apply, Cert.LibUnitAxes.broadcastInDim_1b_ab_apply]

/-! ## The six layers of the program

For each layer: its aggregation stage is `meanOf` of the previous layer's output, the source ids, the destination ids
and the inverse degrees (the same operations on the same operands, the zero array and the two integer constants being
the same constants under the layer's own names), and its output stage is `layerOf` of the previous output. -/

section
variable (x0 : Cert.Sage.Feat) (x1 : Cert.Sage.Edges) (x2 x3 : (⟨S6x128x128, .f32⟩ : BufTy).Contents (Elt Ideal))
  (x4 : (⟨S6x128, .f32⟩ : BufTy).Contents (Elt Ideal)) (x5 : (⟨S128x1, .f32⟩ : BufTy).Contents (Elt Ideal))
  (x6 : (⟨S1, .f32⟩ : BufTy).Contents (Elt Ideal))

theorem mean0 :
    val_main_v30 (F := Ideal) x0 x1
      = Cert.Sage.meanOf x0 (val_main_v1 (F := Ideal) x1) (val_main_v3 (F := Ideal) x1) (val_main_v12 (F := Ideal) x1) := by
  unfold val_main_v30 val_main_v29 val_main_v28 val_main_v27 val_main_v25 val_main_v24 val_main_v23 val_main_v22 val_main_v20
  unfold Cert.Sage.meanOf
  rfl

theorem layer0 :
    val_main_v37 (F := Ideal) x0 x1 x2 x3 x4
      = Cert.Sage.layerOf x0 x1 (val_main_v14 (F := Ideal) x2) (val_main_v16 (F := Ideal) x3) (val_main_v34 (F := Ideal) x4) := by
  unfold val_main_v37 val_main_v36 val_main_v35 val_main_v33 val_main_v32 val_main_v31 val_main_call0_v0 val_main_call0_cst
  unfold Cert.Sage.layerOf
  rw [mean0]
  exact layer_eq _ _ _ _ _

theorem mean1 :
    val_main_v55 (F := Ideal) x0 x1 x2 x3 x4
      = Cert.Sage.meanOf (val_main_v37 (F := Ideal) x0 x1 x2 x3 x4) (val_main_v1 (F := Ideal) x1) (val_main_v3 (F := Ideal) x1)
          (val_main_v12 (F := Ideal) x1) := by
  unfold val_main_v55 val_main_v54 val_main_v53 val_main_v52 val_main_v51 val_main_cst_7 val_main_v50 val_main_v49 val_main_v48
    val_main_v47 val_main_v46 val_main_c_6 val_main_v45 val_main_v44 val_main_c_5
  unfold Cert.Sage.meanOf val_main_v26 val_main_cst_4 val_main_v19 val_main_c val_main_v21 val_main_c_3
  rfl

theorem layer1 :
    val_main_v62 (F := Ideal) x0 x1 x2 x3 x4
      = Cert.Sage.layerOf (val_main_v37 (F := Ideal) x0 x1 x2 x3 x4) x1 (val_main_v39 (F := Ideal) x2) (val_main_v41 (F := Ideal) x3)
          (val_main_v59 (F := Ideal) x4) := by
  unfold val_main_v62 val_main_v61 val_main_v60 val_main_v58 val_main_v57 val_main_v56 val_main_call1_v0 val_main_call1_cst
  unfold Cert.Sage.layerOf
  rw [mean1]
  exact layer_eq _ _ _ _ _

theorem mean2 :
    val_main_v80 (F := Ideal) x0 x1 x2 x3 x4
      = Cert.Sage.meanOf (val_main_v62 (F := Ideal) x0 x1 x2 x3 x4) (val_main_v1 (F := Ideal) x1) (val_main_v3 (F := Ideal) x1)
          (val_main_v12 (F := Ideal) x1) := by
  unfold val_main_v80 val_main_v79 val_main_v78 val_main_v77 val_main_v76 val_main_cst_10 val_main_v75 val_main_v74 val_main_v73
    val_main_v72 val_main_v71 val_main_c_9 val_main_v70 val_main_v69 val_main_c_8
  unfold Cert.Sage.meanOf val_main_v26 val_main_cst_4 val_main_v19 val_main_c val_main_v21 val_main_c_3
  rfl

theorem layer2 :
    val_main_v87 (F := Ideal) x0 x1 x2 x3 x4
      = Cert.Sage.layerOf (val_main_v62 (F := Ideal) x0 x1 x2 x3 x4) x1 (val_main_v64 (F := Ideal) x2) (val_main_v66 (F := Ideal) x3)
          (val_main_v84 (F := Ideal) x4) := by
  unfold val_main_v87 val_main_v86 val_main_v85 val_main_v83 val_main_v82 val_main_v81 val_main_call2_v0 val_main_call2_cst
  unfold Cert.Sage.layerOf
  rw [mean2]
  exact layer_eq _ _ _ _ _

theorem mean3 :
    val_main_v105 (F := Ideal) x0 x1 x2 x3 x4
      = Cert.Sage.meanOf (val_main_v87 (F := Ideal) x0 x1 x2 x3 x4) (val_main_v1 (F := Ideal) x1) (val_main_v3 (F := Ideal) x1)
          (val_main_v12 (F := Ideal) x1) := by
  unfold val_main_v105 val_main_v104 val_main_v103 val_main_v102 val_main_v101 val_main_cst_13 val_main_v100 val_main_v99 val_main_v98
    val_main_v97 val_main_v96 val_main_c_12 val_main_v95 val_main_v94 val_main_c_11
  unfold Cert.Sage.meanOf val_main_v26 val_main_cst_4 val_main_v19 val_main_c val_main_v21 val_main_c_3
  rfl

theorem layer3 :
    val_main_v112 (F := Ideal) x0 x1 x2 x3 x4
      = Cert.Sage.layerOf (val_main_v87 (F := Ideal) x0 x1 x2 x3 x4) x1 (val_main_v89 (F := Ideal) x2) (val_main_v91 (F := Ideal) x3)
          (val_main_v109 (F := Ideal) x4) := by
  unfold val_main_v112 val_main_v111 val_main_v110 val_main_v108 val_main_v107 val_main_v106 val_main_call3_v0 val_main_call3_cst
  unfold Cert.Sage.layerOf
  rw [mean3]
  exact layer_eq _ _ _ _ _

theorem mean4 :
    val_main_v130 (F := Ideal) x0 x1 x2 x3 x4
      = Cert.Sage.meanOf (val_main_v112 (F := Ideal) x0 x1 x2 x3 x4) (val_main_v1 (F := Ideal) x1) (val_main_v3 (F := Ideal) x1)
          (val_main_v12 (F := Ideal) x1) := by
  unfold val_main_v130 val_main_v129 val_main_v128 val_main_v127 val_main_v126 val_main_cst_16 val_main_v125 val_main_v124 val_main_v123
    val_main_v122 val_main_v121 val_main_c_15 val_main_v120 val_main_v119 val_main_c_14
  unfold Cert.Sage.meanOf val_main_v26 val_main_cst_4 val_main_v19 val_main_c val_main_v21 val_main_c_3
  rfl

theorem layer4 :
    val_main_v137 (F := Ideal) x0 x1 x2 x3 x4
      = Cert.Sage.layerOf (val_main_v112 (F := Ideal) x0 x1 x2 x3 x4) x1 (val_main_v114 (F := Ideal) x2) (val_main_v116 (F := Ideal) x3)
          (val_main_v134 (F := Ideal) x4) := by
  unfold val_main_v137 val_main_v136 val_main_v135 val_main_v133 val_main_v132 val_main_v131 val_main_call4_v0 val_main_call4_cst
  unfold Cert.Sage.layerOf
  rw [mean4]
  exact layer_eq _ _ _ _ _

theorem mean5 :
    val_main_v155 (F := Ideal) x0 x1 x2 x3 x4
      = Cert.Sage.meanOf (val_main_v137 (F := Ideal) x0 x1 x2 x3 x4) (val_main_v1 (F := Ideal) x1) (val_main_v3 (F := Ideal) x1)
          (val_main_v12 (F := Ideal) x1) := by
  unfold val_main_v155 val_main_v154 val_main_v153 val_main_v152 val_main_v151 val_main_cst_19 val_main_v150 val_main_v149 val_main_v148
    val_main_v147 val_main_v146 val_main_c_18 val_main_v145 val_main_v144 val_main_c_17
  unfold Cert.Sage.meanOf val_main_v26 val_main_cst_4 val_main_v19 val_main_c val_main_v21 val_main_c_3
  rfl

theorem layer5 :
    val_main_v162 (F := Ideal) x0 x1 x2 x3 x4
      = Cert.Sage.layerOf (val_main_v137 (F := Ideal) x0 x1 x2 x3 x4) x1 (val_main_v139 (F := Ideal) x2) (val_main_v141 (F := Ideal) x3)
          (val_main_v159 (F := Ideal) x4) := by
  unfold val_main_v162 val_main_v161 val_main_v160 val_main_v158 val_main_v157 val_main_v156 val_main_call5_v0 val_main_call5_cst
  unfold Cert.Sage.layerOf
  rw [mean5]
  exact layer_eq _ _ _ _ _

/-! ## The chain: the program's layer outputs are the specification's features X1 … X6, and its result the scores -/

theorem X1_eq : Cert.Sage.X1 x0 x1 x2 x3 x4 = val_main_v37 (F := Ideal) x0 x1 x2 x3 x4 := by
  unfold Cert.Sage.X1
  exact (layer0 x0 x1 x2 x3 x4).symm

theorem X2_eq : Cert.Sage.X2 x0 x1 x2 x3 x4 = val_main_v62 (F := Ideal) x0 x1 x2 x3 x4 := by
  unfold Cert.Sage.X2
  rw [X1_eq]
  exact (layer1 x0 x1 x2 x3 x4).symm

theorem X3_eq : Cert.Sage.X3 x0 x1 x2 x3 x4 = val_main_v87 (F := Ideal) x0 x1 x2 x3 x4 := by
  unfold Cert.Sage.X3
  rw [X2_eq]
  exact (layer2 x0 x1 x2 x3 x4).symm

theorem X4_eq : Cert.Sage.X4 x0 x1 x2 x3 x4 = val_main_v112 (F := Ideal) x0 x1 x2 x3 x4 := by
  unfold Cert.Sage.X4
  rw [X3_eq]
  exact (layer3 x0 x1 x2 x3 x4).symm

theorem X5_eq : Cert.Sage.X5 x0 x1 x2 x3 x4 = val_main_v137 (F := Ideal) x0 x1 x2 x3 x4 := by
  unfold Cert.Sage.X5
  rw [X4_eq]
  exact (layer4 x0 x1 x2 x3 x4).symm

theorem X6_eq : Cert.Sage.X6 x0 x1 x2 x3 x4 = val_main_v162 (F := Ideal) x0 x1 x2 x3 x4 := by
  unfold Cert.Sage.X6
  rw [X5_eq]
  exact (layer5 x0 x1 x2 x3 x4).symm

/-- The program's last stage, as a function of the seven arguments, is the specification's scores. -/
theorem v166_scores :
    val_main_v166 (F := Ideal) x0 x1 x2 x3 x4 x5 x6 = Cert.Sage.scores x0 x1 x2 x3 x4 x5 x6 := by
  unfold val_main_v166 val_main_v165 val_main_v163
  unfold Cert.Sage.scores
  rw [X6_eq]
  exact proj_eq _ _ _

end

/-- The reference's result on the launch memory is the scores of its seven arguments. -/
theorem ref_value (m : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v166 (F := Ideal) m c
      = Cert.Sage.scores (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (val_main_v166_eq (F := Ideal) m c).trans (v166_scores _ _ _ _ _ _ _)

end Cert.Sage.Ref

end
-- ==== Proof.lean ====
/-
  A six-layer GraphSAGE network scoring 100000 nodes: the kernel program against the reference, on the extended reals.

  Both programs compute, six times over, the mean of each node's in-neighbours' feature rows (a gather of the source
  rows, a scatter-add at the destinations, a product with the inverse in-degree) and then
      x ← max ( (mean · Wl + x · Wr) + b , 0 ),
  and finally the scores  x · w + b'.  The reference does each layer with whole-array host products; the kernel program
  does it in a kernel that walks the 100000 rows in 20 tiles of 5000, and the projection likewise.  An entry of a
  layer reads `mean` and `x` through its own row only, so a tile holding rows of the whole arrays computes the whole
  arrays' entries; the two sides are then the same sums term by term, the additions in the same grouping, and no
  condition on the values is used.  The aggregation step is the same chain of host operations in both programs and is
  carried as one function, never opened.

  The three runs: the kernel program's frame at the word level and at the extended reals are the generated frame
  runs; the reference's is its generated run with the result dropped.  The idealization rewrote nothing.  For the
  equality of results, the kernel program's run is followed boundary by boundary to the chain of layers
  (Proof/KernelChain.lean over the per-kernel closed forms Proof/Region0 … Region6), the reference's run is read as the
  same chain (Proof/RefChain.lean), and memories agreeing on the seven arguments give the same chain.
-/
import proofs.«101873_j60043642798825_1_alg».proof.Defs
import proofs.«101873_j60043642798825_1_alg».proof.Proof.Gen.Kernel
import proofs.«101873_j60043642798825_1_alg».proof.Proof.Gen.Kernel.Skeleton
import proofs.«101873_j60043642798825_1_alg».proof.Proof.Gen.Kernel.Launch
import proofs.«101873_j60043642798825_1_alg».proof.Proof.Gen.Kernel.Points
import proofs.«101873_j60043642798825_1_alg».proof.Proof.Gen.Kernel.Frame
import proofs.«101873_j60043642798825_1_alg».proof.Proof.Gen.KernelIdeal
import proofs.«101873_j60043642798825_1_alg».proof.Proof.Gen.KernelIdeal.Skeleton
import proofs.«101873_j60043642798825_1_alg».proof.Proof.Gen.KernelIdeal.Launch
import proofs.«101873_j60043642798825_1_alg».proof.Proof.Gen.KernelIdeal.Points
import proofs.«101873_j60043642798825_1_alg».proof.Proof.Gen.KernelIdeal.Frame
import proofs.«101873_j60043642798825_1_alg».proof.Proof.Gen.ReferenceIdeal
import proofs.«101873_j60043642798825_1_alg».proof.Proof.Gen.Pre_finite_inputs
import proofs.«101873_j60043642798825_1_alg».proof.Proof.Gen.ReferenceIdeal.Run
import proofs.«101873_j60043642798825_1_alg».proof.Proof.Gen.ReferenceIdeal.Read
import proofs.«101873_j60043642798825_1_alg».proof.Proof.KernelChain
import proofs.«101873_j60043642798825_1_alg».proof.Proof.RefChain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the scores of the chain of layers, of arguments that agree. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.Sage.Ref.ref_value m' c, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
